-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S2x400000 : Shape := ⟨2, ![2, 400000]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S4x128x128 .f32) (main_arg7 : FVec F S4x128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x1600000 32) (main_arg2 : FVec F S1600000 .f32) (main_arg3 : IVec S2x400000 32) (main_arg4 : FVec F S64x128 .f32) (main_arg5 : FVec F S128 .f32) (main_arg6 : FVec F S4x128x128 .f32) (main_arg7 : FVec F S4x128 .f32) (main_arg8 : FVec F S128x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S2x400000 : Shape := ⟨2, ![2, 400000]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1700000x128 : Shape := ⟨2, ![1700000, 128]⟩
abbrev S1x128 : Shape := ⟨2, ![1, 128]⟩
abbrev S1x128x128 : Shape := ⟨3, ![1, 128, 128]⟩
abbrev S128x128 : Shape := ⟨2, ![128, 128]⟩
abbrev S1700000x64 : Shape := ⟨2, ![1700000, 64]⟩
abbrev S1x64 : Shape := ⟨2, ![1, 64]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 205
  | .vmem => 66
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S2x400000, .i32⟩
  | 4 => ⟨S64x128, .f32⟩
  | 5 => ⟨S128, .f32⟩
  | 6 => ⟨S4x128x128, .f32⟩
  | 7 => ⟨S4x128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S1x128x128, .f32⟩
  | 71 => ⟨S128x128, .f32⟩
  | 72 => ⟨S1x128, .f32⟩
  | 73 => ⟨S128, .f32⟩
  | 74 => ⟨S100000x128, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S100000x128, .f32⟩
  | 98 => ⟨S1700000x1, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S1x128x128, .f32⟩
  | 117 => ⟨S128x128, .f32⟩
  | 118 => ⟨S1x128, .f32⟩
  | 119 => ⟨S128, .f32⟩
  | 120 => ⟨S100000x128, .f32⟩
  | 121 => ⟨S1700000x1, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x64, .f32⟩

abbrev hbmTy0_1 (i : Nat) : BufTy := match i % 128 with
  | 0 => ⟨S1700000, .i32⟩
  | 1 => ⟨S1700000x1, .i32⟩
  | 2 => ⟨S1700000x128, .f32⟩
  | 3 => ⟨S1700000x128, .f32⟩
  | 4 => ⟨S1700000x128, .f32⟩
  | 5 => ⟨S_, .f32⟩
  | 6 => ⟨S100000x128, .f32⟩
  | 7 => ⟨S1700000x1, .i32⟩
  | 8 => ⟨S100000x128, .f32⟩
  | 9 => ⟨S1x128, .f32⟩
  | 10 => ⟨S100000x128, .f32⟩
  | 11 => ⟨S1x128x128, .f32⟩
  | 12 => ⟨S128x128, .f32⟩
  | 13 => ⟨S1x128, .f32⟩
  | 14 => ⟨S128, .f32⟩
  | 15 => ⟨S100000x128, .f32⟩
  | 16 => ⟨S1700000x1, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x128, .f32⟩
  | 26 => ⟨S1700000x128, .f32⟩
  | 27 => ⟨S1700000x128, .f32⟩
  | 28 => ⟨S_, .f32⟩
  | 29 => ⟨S100000x128, .f32⟩
  | 30 => ⟨S1700000x1, .i32⟩
  | 31 => ⟨S100000x128, .f32⟩
  | 32 => ⟨S1x128, .f32⟩
  | 33 => ⟨S100000x128, .f32⟩
  | 34 => ⟨S100000x64, .f32⟩
  | 35 => ⟨S1700000x1, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x64, .f32⟩
  | 46 => ⟨S1700000x64, .f32⟩
  | 47 => ⟨S_, .f32⟩
  | 48 => ⟨S100000x64, .f32⟩
  | 49 => ⟨S1700000x1, .i32⟩
  | 50 => ⟨S100000x64, .f32⟩
  | 51 => ⟨S1x64, .f32⟩
  | 52 => ⟨S100000x64, .f32⟩
  | 53 => ⟨S1x400000, .i32⟩
  | 54 => ⟨S400000, .i32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x64, .f32⟩
  | 64 => ⟨S1x400000, .i32⟩
  | 65 => ⟨S400000, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x64, .f32⟩
  | 75 => ⟨S400000x1, .f32⟩
  | 76 => ⟨S400000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S8000x64, .f32⟩
  | .local _ .vmem, ⟨61, _⟩ => ⟨S8000x64, .f32⟩
  | .local _ .vmem, ⟨62, _⟩ => ⟨S8000x64, .f32⟩
  | .local _ .vmem, ⟨63, _⟩ => ⟨S8000x64, .f32⟩
  | .local _ .vmem, ⟨64, _⟩ => ⟨S8000x1, .f32⟩
  | .local _ .vmem, ⟨65, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_12 : Ref sig .tc := ⟨.hbm, 99, rfl⟩
abbrev main_v75 : Ref sig .tc := ⟨.hbm, 100, rfl⟩
abbrev main_v76 : Ref sig .tc := ⟨.hbm, 101, rfl⟩
abbrev main_c_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_15 : Ref sig .tc := ⟨.hbm, 122, rfl⟩
abbrev main_v95 : Ref sig .tc := ⟨.hbm, 123, rfl⟩
abbrev main_v96 : Ref sig .tc := ⟨.hbm, 124, rfl⟩
abbrev main_c_16 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_17 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_18 : Ref sig .tc := ⟨.hbm, 145, rfl⟩
abbrev main_v115 : Ref sig .tc := ⟨.hbm, 146, rfl⟩
abbrev main_v116 : Ref sig .tc := ⟨.hbm, 147, rfl⟩
abbrev main_c_19 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_20 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_21 : Ref sig .tc := ⟨.hbm, 164, rfl⟩
abbrev main_v131 : Ref sig .tc := ⟨.hbm, 165, rfl⟩
abbrev main_v132 : Ref sig .tc := ⟨.hbm, 166, rfl⟩
abbrev main_c_22 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_23 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_c_24 : Ref sig .tc := ⟨.hbm, 183, rfl⟩
abbrev main_v147 : Ref sig .tc := ⟨.hbm, 184, rfl⟩
abbrev main_v148 : Ref sig .tc := ⟨.hbm, 185, rfl⟩
abbrev main_c_25 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_c_26 : Ref sig .tc := ⟨.hbm, 194, rfl⟩
abbrev main_v156 : Ref sig .tc := ⟨.hbm, 195, rfl⟩
abbrev main_v157 : Ref sig .tc := ⟨.hbm, 196, rfl⟩
abbrev main_c_27 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_stg2_0 : Ref sig .tc := ⟨.vmem, 64, rfl⟩
abbrev cc12_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem1_1 : DmaSem sig := 63
abbrev cc12_sem2_0 : DmaSem sig := 64
abbrev cc12_sem2_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S8000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S400000x1_S400000 : S400000x1.ShapeCasts S400000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S400000x1_S400000x64_1_0_n_n_0_1_164_wf : GatherDims.WF S100000x64 S400000x1 S400000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x64.size a ≤ S128x64.size a
  hwx10_1 : ∀ i : grid10.Coords, EltTy.bits .f32 = 32 ∨ (Rect.block (s := S128x64) S128x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S100000x64.size a
  hwx11_2 : ∀ i : grid11.Coords, EltTy.bits .f32 = 32 ∨ (Rect.block (s := S100000x64) S5000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8000x64.size a ≤ S400000x64.size a
  hwx12_0 : ∀ i : grid12.Coords, EltTy.bits .f32 = 32 ∨ (Rect.block (s := S400000x64) S8000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8000x64.size a ≤ S400000x64.size a
  hwx12_1 : ∀ i : grid12.Coords, EltTy.bits .f32 = 32 ∨ (Rect.block (s := S400000x64) S8000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8000x1.size a ≤ S400000x1.size a
  hwx12_2 : ∀ i : grid12.Coords, EltTy.bits .f32 = 32 ∨ (Rect.block (s := S400000x1) S8000x1.size (cc12_transform_2 i) (hinb12_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v88) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v106) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v108) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v110) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v126) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v127) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v128) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v128) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg8) S128x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v129) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v142) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v143) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v144) S5000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v153) S8000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v162) S8000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v163) S8000x1.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S2x400000 : Shape := ⟨2, ![2, 400000]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1x128x128 : Shape := ⟨3, ![1, 128, 128]⟩
abbrev S128x128 : Shape := ⟨2, ![128, 128]⟩
abbrev S1700000x64 : Shape := ⟨2, ![1700000, 64]⟩
abbrev S1x64 : Shape := ⟨2, ![1, 64]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩

abbrev nBuf : Space → Nat
  | .hbm => 235
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S2x400000, .i32⟩
  | 4 => ⟨S64x128, .f32⟩
  | 5 => ⟨S128, .f32⟩
  | 6 => ⟨S4x128x128, .f32⟩
  | 7 => ⟨S4x128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S100000x128, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S100000x128, .f32⟩
  | 106 => ⟨S1700000x1, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x64, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S100000x128, .f32⟩
  | 5 => ⟨S1700000x1, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000x128, .f32⟩
  | 15 => ⟨S1700000x128, .f32⟩
  | 16 => ⟨S1700000x128, .f32⟩
  | 17 => ⟨S_, .f32⟩
  | 18 => ⟨S100000x128, .f32⟩
  | 19 => ⟨S1700000x1, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S100000x128, .f32⟩
  | 32 => ⟨S1700000x1, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x128, .f32⟩
  | 42 => ⟨S1700000x128, .f32⟩
  | 43 => ⟨S1700000x128, .f32⟩
  | 44 => ⟨S_, .f32⟩
  | 45 => ⟨S100000x128, .f32⟩
  | 46 => ⟨S1700000x1, .i32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x64, .f32⟩
  | 55 => ⟨S1700000x1, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S1x400000, .i32⟩
  | 75 => ⟨S400000, .i32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x64, .f32⟩
  | 85 => ⟨S1x400000, .i32⟩
  | 86 => ⟨S400000, .i32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x64, .f32⟩
  | 96 => ⟨S400000x64, .f32⟩
  | 97 => ⟨S_, .f32⟩
  | 98 => ⟨S400000, .f32⟩
  | 99 => ⟨S400000, .f32⟩
  | 100 => ⟨S400000, .f32⟩
  | 101 => ⟨S_, .f32⟩
  | 102 => ⟨S400000, .f32⟩
  | 103 => ⟨S400000, .f32⟩
  | 104 => ⟨S_, .f32⟩
  | 105 => ⟨S400000, .f32⟩
  | 106 => ⟨S400000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call2_cst : Ref sig .tc := ⟨.hbm, 98, rfl⟩
abbrev main_call2_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_12 : Ref sig .tc := ⟨.hbm, 107, rfl⟩
abbrev main_v79 : Ref sig .tc := ⟨.hbm, 108, rfl⟩
abbrev main_v80 : Ref sig .tc := ⟨.hbm, 109, rfl⟩
abbrev main_c_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_call3_cst : Ref sig .tc := ⟨.hbm, 125, rfl⟩
abbrev main_call3_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_15 : Ref sig .tc := ⟨.hbm, 134, rfl⟩
abbrev main_v101 : Ref sig .tc := ⟨.hbm, 135, rfl⟩
abbrev main_v102 : Ref sig .tc := ⟨.hbm, 136, rfl⟩
abbrev main_c_16 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_17 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_call4_cst : Ref sig .tc := ⟨.hbm, 152, rfl⟩
abbrev main_call4_v0 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_18 : Ref sig .tc := ⟨.hbm, 161, rfl⟩
abbrev main_v123 : Ref sig .tc := ⟨.hbm, 162, rfl⟩
abbrev main_v124 : Ref sig .tc := ⟨.hbm, 163, rfl⟩
abbrev main_c_19 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_20 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_call5_cst : Ref sig .tc := ⟨.hbm, 179, rfl⟩
abbrev main_call5_v0 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_c_21 : Ref sig .tc := ⟨.hbm, 184, rfl⟩
abbrev main_v141 : Ref sig .tc := ⟨.hbm, 185, rfl⟩
abbrev main_v142 : Ref sig .tc := ⟨.hbm, 186, rfl⟩
abbrev main_c_22 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_23 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_c_24 : Ref sig .tc := ⟨.hbm, 204, rfl⟩
abbrev main_v158 : Ref sig .tc := ⟨.hbm, 205, rfl⟩
abbrev main_v159 : Ref sig .tc := ⟨.hbm, 206, rfl⟩
abbrev main_c_25 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_c_26 : Ref sig .tc := ⟨.hbm, 215, rfl⟩
abbrev main_v167 : Ref sig .tc := ⟨.hbm, 216, rfl⟩
abbrev main_v168 : Ref sig .tc := ⟨.hbm, 217, rfl⟩
abbrev main_c_27 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_cst_28 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_29 : Ref sig .tc := ⟨.hbm, 229, rfl⟩
abbrev main_v178 : Ref sig .tc := ⟨.hbm, 230, rfl⟩
abbrev main_v179 : Ref sig .tc := ⟨.hbm, 231, rfl⟩
abbrev main_cst_30 : Ref sig .tc := ⟨.hbm, 232, rfl⟩
abbrev main_v180 : Ref sig .tc := ⟨.hbm, 233, rfl⟩
abbrev main_v181 : Ref sig .tc := ⟨.hbm, 234, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x64_S400000_d1 : S400000x64.ReducesTo [1] S400000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S400000x1_S400000x64_1_0_n_n_0_1_164_wf : GatherDims.WF S100000x64 S400000x1 S400000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf

class Facts : Prop extends Facts₀ where

variable [Facts]
-- ==== Proof.KFrameRun.lean ====
/-
  The kernel's run with its result named. The program is a chain of 28 segments — stretches of host operations and
  13 tiled regions — and the buffers' contents after each segment are a fold from the launch memory, W0, W1, …, W28.
  Every weakly fair execution terminates, nothing faulting, with the argument arrays as launched AND the result array
  at what the last boundary's contents W28 hold for it: the same launch over the same segments as the frame, the last
  thread state read once more, at the result buffer.
-/
import proofs.«125150_j11227044512214_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory: the result buffer ends at the last boundary's contents, the
    arguments end as launched. -/
theorem run_named : θ_run defs (onTc (τ := τ) (main (F := F))) ⟨m, fun _ => 0, ρ⟩ (fun r => ∀ c : Dev nD,
      r.2.mem ((c.tc : Thread nD τ).loc main_v164) = W28 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v164 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c)⟩)

end Cert.KernelIdeal.RunValue

end
-- ==== Proof.Spec.lean ====
/-
  The specification: a six-layer graph convolution over N = 100000 nodes followed by a dot-product link decoder,
  written once as whole-array functions of the argument arrays, in the host operations' own vocabulary.

  Edges: the E = 1600000 given edges (source row 0, target row 1 of the edge list) followed by one self loop per node,
  1700000 in all; the loop weights are 1. The degree of a node is the sum of the weights of the edges that end in it,
  and an edge (s, t, w) is normalised to d(s)^(-1/2) * w * d(t)^(-1/2), with d^(-1/2) read as 0 where d is not positive.
  One layer maps node features h to  A (h W) + b  where (A z)(t) sums norm(e) * z(s(e)) over the edges e ending in t;
  the first five layers are followed by max(., 0). The decoder scores a labelled pair (u, v) by
  1 / (1 + exp(-(sum over the 64 features of enc(u) * enc(v)))).
  Negative start indices are wrapped by N before they are used, as the host's indexing does.
-/
import proofs.«125150_j11227044512214_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- An array of shape `s` and element type `e`. -/
abbrev Arr (F : FTy → Type) (s : Shape) (e : EltTy) : Type := (⟨s, e⟩ : BufTy).Contents (Elt F)

/-! ## The edges -/

/-- The edges' sources: row 0 of the edge list, then the nodes themselves (the self loops). -/
def sources (ei : Arr F S2x1600000 .i32) : Arr F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' targets: row 1 of the edge list, then the nodes themselves. -/
def targets (ei : Arr F S2x1600000 .i32) : Arr F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edges' weights: the given ones, then 1 for every self loop. -/
def weights (ew : Arr F S1600000 .f32) : Arr F S1700000 .f32 :=
  concatenate S1700000 0 [⟨S1600000, ew⟩, ⟨S100000, (broadcastInDim S100000 ![] bcast_S_S100000 (constant S_ .f32 0x3F800000#32))⟩] concatenates_S1600000_S100000_S1700000_d0

/-- Node numbers as a column of start indices, a negative one wrapped by N first. -/
def startIdx (r : Arr F S1700000 .i32) : Arr F S1700000x1 .i32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- A node's degree: the sum of the weights of the edges ending in it. -/
def degree (tgt : Arr F S1700000 .i32) (w : Arr F S1700000 .f32) : Arr F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 tgt) w

/-- d^(-1/2) where the degree is positive, 0 elsewhere. -/
def invSqrt (d : Arr F S100000 .f32) : Arr F S100000 .f32 :=
  select (cmpf .ogt d (broadcastInDim S100000 ![] bcast_S_S100000 (constant S_ .f32 0x00000000#32))) (Host.rsqrt d)
    (broadcastInDim S100000 ![] bcast_S_S100000 (constant S_ .f32 0x00000000#32))

/-- An edge's normalised weight from the nodes' d^(-1/2): at its source, times its weight, times at its target. -/
def normOf (dinv : Arr F S100000 .f32) (src tgt : Arr F S1700000 .i32) (w : Arr F S1700000 .f32) : Arr F S1700000 .f32 :=
  mulf (mulf (Host.gather gather_S100000_S1700000x1_S1700000_n_0_n_n_0_1_1 dinv (startIdx src)) w)
    (Host.gather gather_S100000_S1700000x1_S1700000_n_0_n_n_0_1_1 dinv (startIdx tgt))

/-- The edges' normalised weights. -/
def edgeNorm (src tgt : Arr F S1700000 .i32) (w : Arr F S1700000 .f32) : Arr F S1700000 .f32 :=
  normOf (invSqrt (degree tgt w)) src tgt w

/-! ## One layer's pieces -/

/-- Every edge carries its source's 128 features scaled by the edge's norm into its target, where they are summed. -/
def aggregate128 (nrm : Arr F S1700000 .f32) (src tgt : Arr F S1700000 .i32) (z : Arr F S100000x128 .f32) : Arr F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 tgt)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 z (startIdx src)))

/-- The same over 64 features. -/
def aggregate64 (nrm : Arr F S1700000 .f32) (src tgt : Arr F S1700000 .i32) (z : Arr F S100000x64 .f32) : Arr F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 tgt)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 z (startIdx src)))

/-- A bias vector laid as one row. -/
def row128 (b : Arr F S128 .f32) : Arr F S1x128 .f32 := broadcastInDim S1x128 ![1] bcast_S128_S1x128_1 b
def row64 (b : Arr F S64 .f32) : Arr F S1x64 .f32 := broadcastInDim S1x64 ![1] bcast_S64_S1x64_1 b

/-- The bias row added to every node's features, then max(., 0). -/
def biasRelu128 (a : Arr F S100000x128 .f32) (b : Arr F S1x128 .f32) : Arr F S100000x128 .f32 :=
  maximumf (addf a (broadcastInDim S100000x128 ![0, 1] bcast_S1x128_S100000x128_0_1 b))
    (broadcastInDim S100000x128 ![] bcast_S_S100000x128 (constant S_ .f32 0x00000000#32))

/-- The bias row added to every node's features (the last layer: no max). -/
def bias64 (a : Arr F S100000x64 .f32) (b : Arr F S1x64 .f32) : Arr F S100000x64 .f32 :=
  addf a (broadcastInDim S100000x64 ![0, 1] bcast_S1x64_S100000x64_0_1 b)

/-- The three dense feature transforms h W. -/
def mmIn (x : Arr F S100000x64 .f32) (w : Arr F S64x128 .f32) : Arr F S100000x128 .f32 :=
  Host.dotGeneral dot_S100000x64_S64x128_S100000x128_1_0_0_1_n_n none x w
def mmHid (h : Arr F S100000x128 .f32) (w : Arr F S128x128 .f32) : Arr F S100000x128 .f32 :=
  Host.dotGeneral dot_S100000x128_S128x128_S100000x128_1_0_0_1_n_n none h w
def mmOut (h : Arr F S100000x128 .f32) (w : Arr F S128x64 .f32) : Arr F S100000x64 .f32 :=
  Host.dotGeneral dot_S100000x128_S128x64_S100000x64_1_0_0_1_n_n none h w

/-- The four hidden layers' weight matrices and bias vectors, cut out of the stacked arguments. -/
def hidW0 (w : Arr F S4x128x128 .f32) : Arr F S128x128 .f32 := shapeCast _ (extractStridedSlice S1x128x128 ![0, 0, 0] w slices_S4x128x128_S1x128x128_0_0_0) shapeCasts_S1x128x128_S128x128
def hidW1 (w : Arr F S4x128x128 .f32) : Arr F S128x128 .f32 := shapeCast _ (extractStridedSlice S1x128x128 ![1, 0, 0] w slices_S4x128x128_S1x128x128_1_0_0) shapeCasts_S1x128x128_S128x128
def hidW2 (w : Arr F S4x128x128 .f32) : Arr F S128x128 .f32 := shapeCast _ (extractStridedSlice S1x128x128 ![2, 0, 0] w slices_S4x128x128_S1x128x128_2_0_0) shapeCasts_S1x128x128_S128x128
def hidW3 (w : Arr F S4x128x128 .f32) : Arr F S128x128 .f32 := shapeCast _ (extractStridedSlice S1x128x128 ![3, 0, 0] w slices_S4x128x128_S1x128x128_3_0_0) shapeCasts_S1x128x128_S128x128
def hidB0 (b : Arr F S4x128 .f32) : Arr F S128 .f32 := shapeCast _ (extractStridedSlice S1x128 ![0, 0] b slices_S4x128_S1x128_0_0) shapeCasts_S1x128_S128
def hidB1 (b : Arr F S4x128 .f32) : Arr F S128 .f32 := shapeCast _ (extractStridedSlice S1x128 ![1, 0] b slices_S4x128_S1x128_1_0) shapeCasts_S1x128_S128
def hidB2 (b : Arr F S4x128 .f32) : Arr F S128 .f32 := shapeCast _ (extractStridedSlice S1x128 ![2, 0] b slices_S4x128_S1x128_2_0) shapeCasts_S1x128_S128
def hidB3 (b : Arr F S4x128 .f32) : Arr F S128 .f32 := shapeCast _ (extractStridedSlice S1x128 ![3, 0] b slices_S4x128_S1x128_3_0) shapeCasts_S1x128_S128

/-! ## The layers -/

def layerIn (nrm : Arr F S1700000 .f32) (src tgt : Arr F S1700000 .i32) (x : Arr F S100000x64 .f32) (w : Arr F S64x128 .f32) (b : Arr F S1x128 .f32) : Arr F S100000x128 .f32 :=
  biasRelu128 (aggregate128 nrm src tgt (mmIn x w)) b
def layerHid (nrm : Arr F S1700000 .f32) (src tgt : Arr F S1700000 .i32) (h : Arr F S100000x128 .f32) (w : Arr F S128x128 .f32) (b : Arr F S1x128 .f32) : Arr F S100000x128 .f32 :=
  biasRelu128 (aggregate128 nrm src tgt (mmHid h w)) b
def layerOut (nrm : Arr F S1700000 .f32) (src tgt : Arr F S1700000 .i32) (h : Arr F S100000x128 .f32) (w : Arr F S128x64 .f32) (b : Arr F S1x64 .f32) : Arr F S100000x64 .f32 :=
  bias64 (aggregate64 nrm src tgt (mmOut h w)) b

/-! ## The decoder -/

/-- One endpoint row of the labelled pairs as a column of start indices, a negative one wrapped by N first. -/
def labelIdx0 (eli : Arr F S2x400000 .i32) : Arr F S400000x1 .i32 :=
  broadcastInDim S400000x1 ![0] bcast_S400000_S400000x1_0
    (select (cmpi .slt (shapeCast _ (extractStridedSlice S1x400000 ![0, 0] eli slices_S2x400000_S1x400000_0_0) shapeCasts_S1x400000_S400000) (broadcastInDim S400000 ![] bcast_S_S400000 (constantI S_ 32 0#32)))
      (addi (shapeCast _ (extractStridedSlice S1x400000 ![0, 0] eli slices_S2x400000_S1x400000_0_0) shapeCasts_S1x400000_S400000) (broadcastInDim S400000 ![] bcast_S_S400000 (constantI S_ 32 100000#32)))
      (shapeCast _ (extractStridedSlice S1x400000 ![0, 0] eli slices_S2x400000_S1x400000_0_0) shapeCasts_S1x400000_S400000))
def labelIdx1 (eli : Arr F S2x400000 .i32) : Arr F S400000x1 .i32 :=
  broadcastInDim S400000x1 ![0] bcast_S400000_S400000x1_0
    (select (cmpi .slt (shapeCast _ (extractStridedSlice S1x400000 ![1, 0] eli slices_S2x400000_S1x400000_1_0) shapeCasts_S1x400000_S400000) (broadcastInDim S400000 ![] bcast_S_S400000 (constantI S_ 32 0#32)))
      (addi (shapeCast _ (extractStridedSlice S1x400000 ![1, 0] eli slices_S2x400000_S1x400000_1_0) shapeCasts_S1x400000_S400000) (broadcastInDim S400000 ![] bcast_S_S400000 (constantI S_ 32 100000#32)))
      (shapeCast _ (extractStridedSlice S1x400000 ![1, 0] eli slices_S2x400000_S1x400000_1_0) shapeCasts_S1x400000_S400000))

/-- The encodings of one endpoint of every labelled pair. -/
def pick (enc : Arr F S100000x64 .f32) (idx : Arr F S400000x1 .i32) : Arr F S400000x64 .f32 :=
  Host.gather gather_S100000x64_S400000x1_S400000x64_1_0_n_n_0_1_164 enc idx

/-- A pair's score: 1 / (1 + exp(-(sum of the products of the two encodings' features))). -/
def score (a b : Arr F S400000x64 .f32) : Arr F S400000 .f32 :=
  Host.divf (broadcastInDim S400000 ![] bcast_S_S400000 (constant S_ .f32 0x3F800000#32))
    (addf (broadcastInDim S400000 ![] bcast_S_S400000 (constant S_ .f32 0x3F800000#32))
      (Host.exp (Host.negf (Host.reduceAdd (mulf a b) (constant S_ .f32 0x00000000#32) reducesTo_S400000x64_S400000_d1 h_S_))))

/-! ## The whole computation -/

/-- The node encodings after the six layers. -/
def encode (x : Arr F S100000x64 .f32) (ei : Arr F S2x1600000 .i32) (ew : Arr F S1600000 .f32)
    (wIn : Arr F S64x128 .f32) (bIn : Arr F S128 .f32) (wHid : Arr F S4x128x128 .f32) (bHid : Arr F S4x128 .f32)
    (wOut : Arr F S128x64 .f32) (bOut : Arr F S64 .f32) : Arr F S100000x64 .f32 :=
  layerOut (edgeNorm (sources ei) (targets ei) (weights ew)) (sources ei) (targets ei)
    (layerHid (edgeNorm (sources ei) (targets ei) (weights ew)) (sources ei) (targets ei)
      (layerHid (edgeNorm (sources ei) (targets ei) (weights ew)) (sources ei) (targets ei)
        (layerHid (edgeNorm (sources ei) (targets ei) (weights ew)) (sources ei) (targets ei)
          (layerHid (edgeNorm (sources ei) (targets ei) (weights ew)) (sources ei) (targets ei)
            (layerIn (edgeNorm (sources ei) (targets ei) (weights ew)) (sources ei) (targets ei) x wIn (row128 bIn))
            (hidW0 wHid) (row128 (hidB0 bHid)))
          (hidW1 wHid) (row128 (hidB1 bHid)))
        (hidW2 wHid) (row128 (hidB2 bHid)))
      (hidW3 wHid) (row128 (hidB3 bHid)))
    wOut (row64 bOut)

/-- The scores of the labelled pairs: what both programs return. -/
def result (x : Arr F S100000x64 .f32) (ei : Arr F S2x1600000 .i32) (ew : Arr F S1600000 .f32) (eli : Arr F S2x400000 .i32)
    (wIn : Arr F S64x128 .f32) (bIn : Arr F S128 .f32) (wHid : Arr F S4x128x128 .f32) (bHid : Arr F S4x128 .f32)
    (wOut : Arr F S128x64 .f32) (bOut : Arr F S64 .f32) : Arr F S400000 .f32 :=
  score (pick (encode x ei ew wIn bIn wHid bHid wOut bOut) (labelIdx0 eli))
    (pick (encode x ei ew wIn bIn wHid bHid wOut bOut) (labelIdx1 eli))

end Cert.Gcn

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.KRegMatmul.lean ====
/-
  The six dense feature transforms. Each region multiplies, tile by tile of 5000 rows, the node features by the
  layer's weight matrix; put together, the tiles are the whole product: the region's output array ends at the
  whole-array matrix product of the two arrays the region was entered with.

  The arithmetic is one fact: a row tile's product into the zero accumulator, at entry (p, q), and the whole array's
  product at entry (r + p, q), where r is the tile's first row, are the same finite sum over the contracted coordinate
  (no rounding is left at the extended reals, and the narrowing of the operands is the identity there).
-/
import proofs.«125150_j11227044512214_1_alg».proof.Proof.Gen.KernelIdeal.Frame
import proofs.«125150_j11227044512214_1_alg».proof.Proof.Spec
import proofs.«125150_j11227044512214_1_alg».proof.Proof.LibTileMatmul
import Idealize.ShloMosaic.Lib.Pipeline.Value

noncomputable section

namespace Cert.KernelIdeal.RegionValue

open Idealize.ShloMosaic Idealize.ShloMosaic.TcCoe Idealize.SL.Sem Cert.KernelIdeal Cert.KernelIdeal.Gen
open Idealize.ShloMosaic.ValueIdx Idealize.ShloMosaic.TileMatmul

variable (V : (c : Dev nD) → (b : Ref sig .tc) → Buf (Elt Ideal) ((c : Thread nD τ).loc b))

/-! # The pieces, region by region

Every region of this kind is proved the same way. At one entry (p, q) of the output tile of grid point `t` the body's
stored product is the whole product's entry (5000 t + p, q); what the point writes back is therefore block `t` of the
whole product; the 20 blocks cover the output array; so the array ends at the whole product. -/

namespace Matmul

/-- The zero offsets of a whole-block access, as a constant function. -/
theorem zero2 : (![0, 0] : Fin 2 → Nat) = fun _ => 0 := funext fun a => by fin_cases a <;> rfl

/-! ## Region 0: [100000, 64] · [64, 128] in 20 tiles of 5000 rows -/

/-- One entry of the tile's product. The body stores, over its whole block, the product of its feature tile `x0` and
    its weight block `x1` into the zero accumulator (the narrowing of the operands to bf16 changes nothing at the
    extended reals). If row `p` of the tile is row `i` of the array `X` and column `q` of the weight block is
    column `q` of `W`, entry (p, q) is entry (i, q) of the whole product `X · W`: the same sum over the contracted
    coordinate. -/
theorem tile0_apply (x0 : Vec Ideal S5000x64 .f32) (x1 : Vec Ideal S64x128 .f32)
    (X : Cert.Gcn.Arr Ideal S100000x64 .f32) (W : Cert.Gcn.Arr Ideal S64x128 .f32)
    (p : Fin 5000) (q : Fin 128) (i : Fin 100000)
    (hT : ∀ k : Fin 64, (x0 (ix2 p k) : EReal) = X (ix2 i k)) (hB : ∀ k : Fin 64, (x1 (ix2 k q) : EReal) = W (ix2 k q)) :
    (out0_2 (F := Ideal) x0 x1 (ix2 p q) : EReal) = Cert.Gcn.mmIn (F := Ideal) X W (ix2 i q) := by
  unfold out0_2
  rw [View.canon_unit_zero zero2]
  simp only [View.ld_unit_zero (S := S5000x64) zero2, View.ld_unit_zero (S := S64x128) zero2]
  exact matmul_tile_eq_dotGeneral _ _ none none _ _ X W p q i hT hB

/-- The printed index maps, decided over the 20 grid points: at point `t` the feature window and the output window
    are at block row `t`, block column 0; the weight window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t`, read off an array `A`: row `p` of the block is row `5000 t + p` of `A`
    (a block's coordinate in its array is the block index times the block's extent plus the coordinate inside). -/
theorem read0_0 (A : Cert.Gcn.Arr Ideal S100000x64 .f32) (t : Fin cfg0.N) (p : Fin 5000) (k : Fin 64) (i : Fin 100000)
    (hi : i.val = t.val * 5000 + p.val) :
    ((((cfg0.win 0).blk t).view.read (Elt Ideal) A : Vec Ideal S5000x64 .f32) (ix2 p k) : EReal) = A (ix2 i k) := by
  obtain ⟨e0, e1, -⟩ := idx0 t
  rw [View.read_apply]
  show A _ = A _
  congr 1
  funext a; apply Fin.ext
  match a with
  | ⟨0, _⟩ => show win0_0.index t (0 : Fin 2) * 5000 + 1 * p.val = i.val; rw [e0, hi]; omega
  | ⟨1, _⟩ => show win0_0.index t (1 : Fin 2) * 64 + 1 * k.val = k.val; rw [e1]; omega

/-- The weight window's block at any point is the whole weight matrix. -/
theorem read0_1 (A : Cert.Gcn.Arr Ideal S64x128 .f32) (t : Fin cfg0.N) (k : Fin 64) (q : Fin 128) :
    ((((cfg0.win 1).blk t).view.read (Elt Ideal) A : Vec Ideal S64x128 .f32) (ix2 k q) : EReal) = A (ix2 k q) := by
  obtain ⟨-, -, e2, e3, -⟩ := idx0 t
  rw [View.read_apply]
  show A _ = A _
  congr 1
  funext a; apply Fin.ext
  match a with
  | ⟨0, _⟩ => show win0_1.index t (0 : Fin 2) * 64 + 1 * k.val = k.val; rw [e2]; omega
  | ⟨1, _⟩ => show win0_1.index t (1 : Fin 2) * 128 + 1 * q.val = q.val; rw [e3]; omega

/-- The output window's block at point `t`, read off an array `A`: row `p` of the block is row `5000 t + p` of `A`. -/
theorem read0_2 (A : Cert.Gcn.Arr Ideal S100000x128 .f32) (t : Fin cfg0.N) (p : Fin 5000) (q : Fin 128) (i : Fin 100000)
    (hi : i.val = t.val * 5000 + p.val) :
    ((((cfg0.win 2).blk t).view.read (Elt Ideal) A : Vec Ideal S5000x128 .f32) (ix2 p q) : EReal) = A (ix2 i q) := by
  obtain ⟨-, -, -, -, e4, e5⟩ := idx0 t
  rw [View.read_apply]
  show A _ = A _
  congr 1
  funext a; apply Fin.ext
  match a with
  | ⟨0, _⟩ => show win0_2.index t (0 : Fin 2) * 5000 + 1 * p.val = i.val; rw [e4, hi]; omega
  | ⟨1, _⟩ => show win0_2.index t (1 : Fin 2) * 128 + 1 * q.val = q.val; rw [e5]; omega

/-- The output window is never cut at the array's end: what is written back is the whole staging block. -/
theorem cut0_2 (t : Fin cfg0.N) (Y : Vec Ideal S5000x128 .f32) (j : S5000x128.Idx) :
    (cfg0.win 2).cut (grid0.coords t) Y j = Y j := rfl

/-- What point `t` writes back is block `t` of the whole product of the two arrays the region was entered with. -/
theorem flushed0 (c : Dev nD) (t : Fin cfg0.N) :
    (dat0 (F := Ideal) V c).flushed 2 t
      = ((cfg0.win 2).blk t).view.read (Elt Ideal) (Cert.Gcn.mmIn (F := Ideal) (V c main_arg0) (V c main_arg4)) := by
  show (cfg0.win 2).cut (grid0.coords t) ((dat0 V c).after 2 t) = _
  rw [after0_2]
  funext j
  obtain ⟨p, q, rfl⟩ : ∃ (p : Fin 5000) (q : Fin 128), j = ix2 p q := ⟨j 0, j 1, eq_ix2 (n0 := 5000) (n1 := 128) j⟩
  have hN : cfg0.N = 20 := N_0
  have hi : t.val * 5000 + p.val < 100000 := by have := t.isLt; have := p.isLt; omega
  refine (cut0_2 t _ (ix2 p q)).trans ?_
  refine Eq.trans ?_ (read0_2 _ t p q ⟨t.val * 5000 + p.val, hi⟩ rfl).symm
  exact tile0_apply (iblk0 V c 0 t) (iblk0 V c 1 t) (V c main_arg0) (V c main_arg4) p q ⟨t.val * 5000 + p.val, hi⟩
    (fun k => read0_0 (V c main_arg0) t p k ⟨t.val * 5000 + p.val, hi⟩ rfl) (fun k => read0_1 (V c main_arg4) t k q)

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- The 20 blocks cover the output array: row `r` is in the block of point `r / 5000`. -/
theorem cover0 (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 20 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-! ## Region 2: [100000, 128] · [128, 128] in 20 tiles of 5000 rows -/

/-- One entry of the tile's product. The body stores, over its whole block, the product of its feature tile `x0` and
    its weight block `x1` into the zero accumulator (the narrowing of the operands to bf16 changes nothing at the
    extended reals, nor does a shape cast to the same shape). If row `p` of the tile is row `i` of the array `X` and column `q` of the weight block is
    column `q` of `W`, entry (p, q) is entry (i, q) of the whole product `X · W`: the same sum over the contracted
    coordinate. -/
theorem tile2_apply (x0 : Vec Ideal S5000x128 .f32) (x1 : Vec Ideal S128x128 .f32)
    (X : Cert.Gcn.Arr Ideal S100000x128 .f32) (W : Cert.Gcn.Arr Ideal S128x128 .f32)
    (p : Fin 5000) (q : Fin 128) (i : Fin 100000)
    (hT : ∀ k : Fin 128, (x0 (ix2 p k) : EReal) = X (ix2 i k)) (hB : ∀ k : Fin 128, (x1 (ix2 k q) : EReal) = W (ix2 k q)) :
    (out2_2 (F := Ideal) x0 x1 (ix2 p q) : EReal) = Cert.Gcn.mmHid (F := Ideal) X W (ix2 i q) := by
  unfold out2_2
  rw [View.canon_unit_zero zero2]
  simp only [View.ld_unit_zero (S := S5000x128) zero2, View.ld_unit_zero (S := S128x128) zero2]
  unfold k2_pay1
  simp only [shapeCast_self]
  exact matmul_tile_eq_dotGeneral _ _ none none _ _ X W p q i hT hB

/-- The printed index maps, decided over the 20 grid points: at point `t` the feature window and the output window
    are at block row `t`, block column 0; the weight window stays at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature window's block at point `t`, read off an array `A`: row `p` of the block is row `5000 t + p` of `A`
    (a block's coordinate in its array is the block index times the block's extent plus the coordinate inside). -/
theorem read2_0 (A : Cert.Gcn.Arr Ideal S100000x128 .f32) (t : Fin cfg2.N) (p : Fin 5000) (k : Fin 128) (i : Fin 100000)
    (hi : i.val = t.val * 5000 + p.val) :
    ((((cfg2.win 0).blk t).view.read (Elt Ideal) A : Vec Ideal S5000x128 .f32) (ix2 p k) : EReal) = A (ix2 i k) := by
  obtain ⟨e0, e1, -⟩ := idx2 t
  rw [View.read_apply]
  show A _ = A _
  congr 1
  funext a; apply Fin.ext
  match a with
  | ⟨0, _⟩ => show win2_0.index t (0 : Fin 2) * 5000 + 1 * p.val = i.val; rw [e0, hi]; omega
  | ⟨1, _⟩ => show win2_0.index t (1 : Fin 2) * 128 + 1 * k.val = k.val; rw [e1]; omega

/-- The weight window's block at any point is the whole weight matrix. -/
theorem read2_1 (A : Cert.Gcn.Arr Ideal S128x128 .f32) (t : Fin cfg2.N) (k : Fin 128) (q : Fin 128) :
    ((((cfg2.win 1).blk t).view.read (Elt Ideal) A : Vec Ideal S128x128 .f32) (ix2 k q) : EReal) = A (ix2 k q) := by
  obtain ⟨-, -, e2, e3, -⟩ := idx2 t
  rw [View.read_apply]
  show A _ = A _
  congr 1
  funext a; apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- The output window's block at point `t`, read off an array `A`: row `p` of the block is row `5000 t + p` of `A`. -/
theorem read2_2 (A : Cert.Gcn.Arr Ideal S100000x128 .f32) (t : Fin cfg2.N) (p : Fin 5000) (q : Fin 128) (i : Fin 100000)
    (hi : i.val = t.val * 5000 + p.val) :
    ((((cfg2.win 2).blk t).view.read (Elt Ideal) A : Vec Ideal S5000x128 .f32) (ix2 p q) : EReal) = A (ix2 i q) := by
  obtain ⟨-, -, -, -, e4, e5⟩ := idx2 t
  rw [View.read_apply]
  show A _ = A _
  congr 1
  funext a; apply Fin.ext
  match a with
  | ⟨0, _⟩ => show win2_2.index t (0 : Fin 2) * 5000 + 1 * p.val = i.val; rw [e4, hi]; omega
  | ⟨1, _⟩ => show win2_2.index t (1 : Fin 2) * 128 + 1 * q.val = q.val; rw [e5]; omega

/-- The output window is never cut at the array's end: what is written back is the whole staging block. -/
theorem cut2_2 (t : Fin cfg2.N) (Y : Vec Ideal S5000x128 .f32) (j : S5000x128.Idx) :
    (cfg2.win 2).cut (grid2.coords t) Y j = Y j := rfl

/-- What point `t` writes back is block `t` of the whole product of the two arrays the region was entered with. -/
theorem flushed2 (c : Dev nD) (t : Fin cfg2.N) :
    (dat2 (F := Ideal) V c).flushed 2 t
      = ((cfg2.win 2).blk t).view.read (Elt Ideal) (Cert.Gcn.mmHid (F := Ideal) (V c main_v48) (V c main_v50)) := by
  show (cfg2.win 2).cut (grid2.coords t) ((dat2 V c).after 2 t) = _
  rw [after2_2]
  funext j
  obtain ⟨p, q, rfl⟩ : ∃ (p : Fin 5000) (q : Fin 128), j = ix2 p q := ⟨j 0, j 1, eq_ix2 (n0 := 5000) (n1 := 128) j⟩
  have hN : cfg2.N = 20 := N_2
  have hi : t.val * 5000 + p.val < 100000 := by have := t.isLt; have := p.isLt; omega
  refine (cut2_2 t _ (ix2 p q)).trans ?_
  refine Eq.trans ?_ (read2_2 _ t p q ⟨t.val * 5000 + p.val, hi⟩ rfl).symm
  exact tile2_apply (iblk2 V c 0 t) (iblk2 V c 1 t) (V c main_v48) (V c main_v50) p q ⟨t.val * 5000 + p.val, hi⟩
    (fun k => read2_0 (V c main_v48) t p k ⟨t.val * 5000 + p.val, hi⟩ rfl) (fun k => read2_1 (V c main_v50) t k q)

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v53).slice (win2_2.rect t)).set ↔ _
  rw [View.set_slice_whole, Rect.mem_set_unit]
  exact Iff.rfl

/-- The 20 blocks cover the output array: row `r` is in the block of point `r / 5000`. -/
theorem cover2 (i : S100000x128.Idx) :
    ∃ t : Fin cfg2.N, (cfg2.win 2).flush t = true ∧ i ∈ ((cfg2.win 2).blk t).view.set := by
  have h0 : (i 0).val < 100000 := (i 0).isLt
  have h1 : (i 1).val < 128 := (i 1).isLt
  have hN : cfg2.N = 20 := N_2
  have ht : (i 0).val / 5000 < cfg2.N := by rw [hN]; omega
  obtain ⟨-, -, -, -, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-! ## Region 4: [100000, 128] · [128, 128] in 20 tiles of 5000 rows -/

/-- One entry of the tile's product. The body stores, over its whole block, the product of its feature tile `x0` and
    its weight block `x1` into the zero accumulator (the narrowing of the operands to bf16 changes nothing at the
    extended reals, nor does a shape cast to the same shape). If row `p` of the tile is row `i` of the array `X` and column `q` of the weight block is
    column `q` of `W`, entry (p, q) is entry (i, q) of the whole product `X · W`: the same sum over the contracted
    coordinate. -/
theorem tile4_apply (x0 : Vec Ideal S5000x128 .f32) (x1 : Vec Ideal S128x128 .f32)
    (X : Cert.Gcn.Arr Ideal S100000x128 .f32) (W : Cert.Gcn.Arr Ideal S128x128 .f32)
    (p : Fin 5000) (q : Fin 128) (i : Fin 100000)
    (hT : ∀ k : Fin 128, (x0 (ix2 p k) : EReal) = X (ix2 i k)) (hB : ∀ k : Fin 128, (x1 (ix2 k q) : EReal) = W (ix2 k q)) :
    (out4_2 (F := Ideal) x0 x1 (ix2 p q) : EReal) = Cert.Gcn.mmHid (F := Ideal) X W (ix2 i q) := by
  unfold out4_2
  rw [View.canon_unit_zero zero2]
  simp only [View.ld_unit_zero (S := S5000x128) zero2, View.ld_unit_zero (S := S128x128) zero2]
  unfold k4_pay1
  simp only [shapeCast_self]
  exact matmul_tile_eq_dotGeneral _ _ none none _ _ X W p q i hT hB

/-- The printed index maps, decided over the 20 grid points: at point `t` the feature window and the output window
    are at block row `t`, block column 0; the weight window stays at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature window's block at point `t`, read off an array `A`: row `p` of the block is row `5000 t + p` of `A`
    (a block's coordinate in its array is the block index times the block's extent plus the coordinate inside). -/
theorem read4_0 (A : Cert.Gcn.Arr Ideal S100000x128 .f32) (t : Fin cfg4.N) (p : Fin 5000) (k : Fin 128) (i : Fin 100000)
    (hi : i.val = t.val * 5000 + p.val) :
    ((((cfg4.win 0).blk t).view.read (Elt Ideal) A : Vec Ideal S5000x128 .f32) (ix2 p k) : EReal) = A (ix2 i k) := by
  obtain ⟨e0, e1, -⟩ := idx4 t
  rw [View.read_apply]
  show A _ = A _
  congr 1
  funext a; apply Fin.ext
  match a with
  | ⟨0, _⟩ => show win4_0.index t (0 : Fin 2) * 5000 + 1 * p.val = i.val; rw [e0, hi]; omega
  | ⟨1, _⟩ => show win4_0.index t (1 : Fin 2) * 128 + 1 * k.val = k.val; rw [e1]; omega

/-- The weight window's block at any point is the whole weight matrix. -/
theorem read4_1 (A : Cert.Gcn.Arr Ideal S128x128 .f32) (t : Fin cfg4.N) (k : Fin 128) (q : Fin 128) :
    ((((cfg4.win 1).blk t).view.read (Elt Ideal) A : Vec Ideal S128x128 .f32) (ix2 k q) : EReal) = A (ix2 k q) := by
  obtain ⟨-, -, e2, e3, -⟩ := idx4 t
  rw [View.read_apply]
  show A _ = A _
  congr 1
  funext a; apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-- The output window's block at point `t`, read off an array `A`: row `p` of the block is row `5000 t + p` of `A`. -/
theorem read4_2 (A : Cert.Gcn.Arr Ideal S100000x128 .f32) (t : Fin cfg4.N) (p : Fin 5000) (q : Fin 128) (i : Fin 100000)
    (hi : i.val = t.val * 5000 + p.val) :
    ((((cfg4.win 2).blk t).view.read (Elt Ideal) A : Vec Ideal S5000x128 .f32) (ix2 p q) : EReal) = A (ix2 i q) := by
  obtain ⟨-, -, -, -, e4, e5⟩ := idx4 t
  rw [View.read_apply]
  show A _ = A _
  congr 1
  funext a; apply Fin.ext
  match a with
  | ⟨0, _⟩ => show win4_2.index t (0 : Fin 2) * 5000 + 1 * p.val = i.val; rw [e4, hi]; omega
  | ⟨1, _⟩ => show win4_2.index t (1 : Fin 2) * 128 + 1 * q.val = q.val; rw [e5]; omega

/-- The output window is never cut at the array's end: what is written back is the whole staging block. -/
theorem cut4_2 (t : Fin cfg4.N) (Y : Vec Ideal S5000x128 .f32) (j : S5000x128.Idx) :
    (cfg4.win 2).cut (grid4.coords t) Y j = Y j := rfl

/-- What point `t` writes back is block `t` of the whole product of the two arrays the region was entered with. -/
theorem flushed4 (c : Dev nD) (t : Fin cfg4.N) :
    (dat4 (F := Ideal) V c).flushed 2 t
      = ((cfg4.win 2).blk t).view.read (Elt Ideal) (Cert.Gcn.mmHid (F := Ideal) (V c main_v68) (V c main_v70)) := by
  show (cfg4.win 2).cut (grid4.coords t) ((dat4 V c).after 2 t) = _
  rw [after4_2]
  funext j
  obtain ⟨p, q, rfl⟩ : ∃ (p : Fin 5000) (q : Fin 128), j = ix2 p q := ⟨j 0, j 1, eq_ix2 (n0 := 5000) (n1 := 128) j⟩
  have hN : cfg4.N = 20 := N_4
  have hi : t.val * 5000 + p.val < 100000 := by have := t.isLt; have := p.isLt; omega
  refine (cut4_2 t _ (ix2 p q)).trans ?_
  refine Eq.trans ?_ (read4_2 _ t p q ⟨t.val * 5000 + p.val, hi⟩ rfl).symm
  exact tile4_apply (iblk4 V c 0 t) (iblk4 V c 1 t) (V c main_v68) (V c main_v70) p q ⟨t.val * 5000 + p.val, hi⟩
    (fun k => read4_0 (V c main_v68) t p k ⟨t.val * 5000 + p.val, hi⟩ rfl) (fun k => read4_1 (V c main_v70) t k q)

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v73).slice (win4_2.rect t)).set ↔ _
  rw [View.set_slice_whole, Rect.mem_set_unit]
  exact Iff.rfl

/-- The 20 blocks cover the output array: row `r` is in the block of point `r / 5000`. -/
theorem cover4 (i : S100000x128.Idx) :
    ∃ t : Fin cfg4.N, (cfg4.win 2).flush t = true ∧ i ∈ ((cfg4.win 2).blk t).view.set := by
  have h0 : (i 0).val < 100000 := (i 0).isLt
  have h1 : (i 1).val < 128 := (i 1).isLt
  have hN : cfg4.N = 20 := N_4
  have ht : (i 0).val / 5000 < cfg4.N := by rw [hN]; omega
  obtain ⟨-, -, -, -, e4, e5⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

/-! ## Region 6: [100000, 128] · [128, 128] in 20 tiles of 5000 rows -/

/-- One entry of the tile's product. The body stores, over its whole block, the product of its feature tile `x0` and
    its weight block `x1` into the zero accumulator (the narrowing of the operands to bf16 changes nothing at the
    extended reals, nor does a shape cast to the same shape). If row `p` of the tile is row `i` of the array `X` and column `q` of the weight block is
    column `q` of `W`, entry (p, q) is entry (i, q) of the whole product `X · W`: the same sum over the contracted
    coordinate. -/
theorem tile6_apply (x0 : Vec Ideal S5000x128 .f32) (x1 : Vec Ideal S128x128 .f32)
    (X : Cert.Gcn.Arr Ideal S100000x128 .f32) (W : Cert.Gcn.Arr Ideal S128x128 .f32)
    (p : Fin 5000) (q : Fin 128) (i : Fin 100000)
    (hT : ∀ k : Fin 128, (x0 (ix2 p k) : EReal) = X (ix2 i k)) (hB : ∀ k : Fin 128, (x1 (ix2 k q) : EReal) = W (ix2 k q)) :
    (out6_2 (F := Ideal) x0 x1 (ix2 p q) : EReal) = Cert.Gcn.mmHid (F := Ideal) X W (ix2 i q) := by
  unfold out6_2
  rw [View.canon_unit_zero zero2]
  simp only [View.ld_unit_zero (S := S5000x128) zero2, View.ld_unit_zero (S := S128x128) zero2]
  unfold k6_pay1
  simp only [shapeCast_self]
  exact matmul_tile_eq_dotGeneral _ _ none none _ _ X W p q i hT hB

/-- The printed index maps, decided over the 20 grid points: at point `t` the feature window and the output window
    are at block row `t`, block column 0; the weight window stays at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature window's block at point `t`, read off an array `A`: row `p` of the block is row `5000 t + p` of `A`
    (a block's coordinate in its array is the block index times the block's extent plus the coordinate inside). -/
theorem read6_0 (A : Cert.Gcn.Arr Ideal S100000x128 .f32) (t : Fin cfg6.N) (p : Fin 5000) (k : Fin 128) (i : Fin 100000)
    (hi : i.val = t.val * 5000 + p.val) :
    ((((cfg6.win 0).blk t).view.read (Elt Ideal) A : Vec Ideal S5000x128 .f32) (ix2 p k) : EReal) = A (ix2 i k) := by
  obtain ⟨e0, e1, -⟩ := idx6 t
  rw [View.read_apply]
  show A _ = A _
  congr 1
  funext a; apply Fin.ext
  match a with
  | ⟨0, _⟩ => show win6_0.index t (0 : Fin 2) * 5000 + 1 * p.val = i.val; rw [e0, hi]; omega
  | ⟨1, _⟩ => show win6_0.index t (1 : Fin 2) * 128 + 1 * k.val = k.val; rw [e1]; omega

/-- The weight window's block at any point is the whole weight matrix. -/
theorem read6_1 (A : Cert.Gcn.Arr Ideal S128x128 .f32) (t : Fin cfg6.N) (k : Fin 128) (q : Fin 128) :
    ((((cfg6.win 1).blk t).view.read (Elt Ideal) A : Vec Ideal S128x128 .f32) (ix2 k q) : EReal) = A (ix2 k q) := by
  obtain ⟨-, -, e2, e3, -⟩ := idx6 t
  rw [View.read_apply]
  show A _ = A _
  congr 1
  funext a; apply Fin.ext
  match a with
  | ⟨0, _⟩ => show win6_1.index t (0 : Fin 2) * 128 + 1 * k.val = k.val; rw [e2]; omega
  | ⟨1, _⟩ => show win6_1.index t (1 : Fin 2) * 128 + 1 * q.val = q.val; rw [e3]; omega

/-- The output window's block at point `t`, read off an array `A`: row `p` of the block is row `5000 t + p` of `A`. -/
theorem read6_2 (A : Cert.Gcn.Arr Ideal S100000x128 .f32) (t : Fin cfg6.N) (p : Fin 5000) (q : Fin 128) (i : Fin 100000)
    (hi : i.val = t.val * 5000 + p.val) :
    ((((cfg6.win 2).blk t).view.read (Elt Ideal) A : Vec Ideal S5000x128 .f32) (ix2 p q) : EReal) = A (ix2 i q) := by
  obtain ⟨-, -, -, -, e4, e5⟩ := idx6 t
  rw [View.read_apply]
  show A _ = A _
  congr 1
  funext a; apply Fin.ext
  match a with
  | ⟨0, _⟩ => show win6_2.index t (0 : Fin 2) * 5000 + 1 * p.val = i.val; rw [e4, hi]; omega
  | ⟨1, _⟩ => show win6_2.index t (1 : Fin 2) * 128 + 1 * q.val = q.val; rw [e5]; omega

/-- The output window is never cut at the array's end: what is written back is the whole staging block. -/
theorem cut6_2 (t : Fin cfg6.N) (Y : Vec Ideal S5000x128 .f32) (j : S5000x128.Idx) :
    (cfg6.win 2).cut (grid6.coords t) Y j = Y j := rfl

/-- What point `t` writes back is block `t` of the whole product of the two arrays the region was entered with. -/
theorem flushed6 (c : Dev nD) (t : Fin cfg6.N) :
    (dat6 (F := Ideal) V c).flushed 2 t
      = ((cfg6.win 2).blk t).view.read (Elt Ideal) (Cert.Gcn.mmHid (F := Ideal) (V c main_v88) (V c main_v90)) := by
  show (cfg6.win 2).cut (grid6.coords t) ((dat6 V c).after 2 t) = _
  rw [after6_2]
  funext j
  obtain ⟨p, q, rfl⟩ : ∃ (p : Fin 5000) (q : Fin 128), j = ix2 p q := ⟨j 0, j 1, eq_ix2 (n0 := 5000) (n1 := 128) j⟩
  have hN : cfg6.N = 20 := N_6
  have hi : t.val * 5000 + p.val < 100000 := by have := t.isLt; have := p.isLt; omega
  refine (cut6_2 t _ (ix2 p q)).trans ?_
  refine Eq.trans ?_ (read6_2 _ t p q ⟨t.val * 5000 + p.val, hi⟩ rfl).symm
  exact tile6_apply (iblk6 V c 0 t) (iblk6 V c 1 t) (V c main_v88) (V c main_v90) p q ⟨t.val * 5000 + p.val, hi⟩
    (fun k => read6_0 (V c main_v88) t p k ⟨t.val * 5000 + p.val, hi⟩ rfl) (fun k => read6_1 (V c main_v90) t k q)

/-- An index of the output array is in point `t`'s block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v93).slice (win6_2.rect t)).set ↔ _
  rw [View.set_slice_whole, Rect.mem_set_unit]
  exact Iff.rfl

/-- The 20 blocks cover the output array: row `r` is in the block of point `r / 5000`. -/
theorem cover6 (i : S100000x128.Idx) :
    ∃ t : Fin cfg6.N, (cfg6.win 2).flush t = true ∧ i ∈ ((cfg6.win 2).blk t).view.set := by
  have h0 : (i 0).val < 100000 := (i 0).isLt
  have h1 : (i 1).val < 128 := (i 1).isLt
  have hN : cfg6.N = 20 := N_6
  have ht : (i 0).val / 5000 < cfg6.N := by rw [hN]; omega
  obtain ⟨-, -, -, -, e4, e5⟩ := idx6 ⟨(i 0).val / 5000, ht⟩
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val
      ∧ (i 1).val < win6_2.index ⟨(i 0).val / 5000, ht⟩ (1 : Fin 2) * 128 + 128
    rw [e5]; omega

/-! ## Region 8: [100000, 128] · [128, 128] in 20 tiles of 5000 rows -/

/-- One entry of the tile's product. The body stores, over its whole block, the product of its feature tile `x0` and
    its weight block `x1` into the zero accumulator (the narrowing of the operands to bf16 changes nothing at the
    extended reals, nor does a shape cast to the same shape). If row `p` of the tile is row `i` of the array `X` and column `q` of the weight block is
    column `q` of `W`, entry (p, q) is entry (i, q) of the whole product `X · W`: the same sum over the contracted
    coordinate. -/
theorem tile8_apply (x0 : Vec Ideal S5000x128 .f32) (x1 : Vec Ideal S128x128 .f32)
    (X : Cert.Gcn.Arr Ideal S100000x128 .f32) (W : Cert.Gcn.Arr Ideal S128x128 .f32)
    (p : Fin 5000) (q : Fin 128) (i : Fin 100000)
    (hT : ∀ k : Fin 128, (x0 (ix2 p k) : EReal) = X (ix2 i k)) (hB : ∀ k : Fin 128, (x1 (ix2 k q) : EReal) = W (ix2 k q)) :
    (out8_2 (F := Ideal) x0 x1 (ix2 p q) : EReal) = Cert.Gcn.mmHid (F := Ideal) X W (ix2 i q) := by
  unfold out8_2
  rw [View.canon_unit_zero zero2]
  simp only [View.ld_unit_zero (S := S5000x128) zero2, View.ld_unit_zero (S := S128x128) zero2]
  unfold k8_pay1
  simp only [shapeCast_self]
  exact matmul_tile_eq_dotGeneral _ _ none none _ _ X W p q i hT hB

/-- The printed index maps, decided over the 20 grid points: at point `t` the feature window and the output window
    are at block row `t`, block column 0; the weight window stays at block (0, 0). -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The feature window's block at point `t`, read off an array `A`: row `p` of the block is row `5000 t + p` of `A`
    (a block's coordinate in its array is the block index times the block's extent plus the coordinate inside). -/
theorem read8_0 (A : Cert.Gcn.Arr Ideal S100000x128 .f32) (t : Fin cfg8.N) (p : Fin 5000) (k : Fin 128) (i : Fin 100000)
    (hi : i.val = t.val * 5000 + p.val) :
    ((((cfg8.win 0).blk t).view.read (Elt Ideal) A : Vec Ideal S5000x128 .f32) (ix2 p k) : EReal) = A (ix2 i k) := by
  obtain ⟨e0, e1, -⟩ := idx8 t
  rw [View.read_apply]
  show A _ = A _
  congr 1
  funext a; apply Fin.ext
  match a with
  | ⟨0, _⟩ => show win8_0.index t (0 : Fin 2) * 5000 + 1 * p.val = i.val; rw [e0, hi]; omega
  | ⟨1, _⟩ => show win8_0.index t (1 : Fin 2) * 128 + 1 * k.val = k.val; rw [e1]; omega

/-- The weight window's block at any point is the whole weight matrix. -/
theorem read8_1 (A : Cert.Gcn.Arr Ideal S128x128 .f32) (t : Fin cfg8.N) (k : Fin 128) (q : Fin 128) :
    ((((cfg8.win 1).blk t).view.read (Elt Ideal) A : Vec Ideal S128x128 .f32) (ix2 k q) : EReal) = A (ix2 k q) := by
  obtain ⟨-, -, e2, e3, -⟩ := idx8 t
  rw [View.read_apply]
  show A _ = A _
  congr 1
  funext a; apply Fin.ext
  match a with
  | ⟨0, _⟩ => show win8_1.index t (0 : Fin 2) * 128 + 1 * k.val = k.val; rw [e2]; omega
  | ⟨1, _⟩ => show win8_1.index t (1 : Fin 2) * 128 + 1 * q.val = q.val; rw [e3]; omega

/-- The output window's block at point `t`, read off an array `A`: row `p` of the block is row `5000 t + p` of `A`. -/
theorem read8_2 (A : Cert.Gcn.Arr Ideal S100000x128 .f32) (t : Fin cfg8.N) (p : Fin 5000) (q : Fin 128) (i : Fin 100000)
    (hi : i.val = t.val * 5000 + p.val) :
    ((((cfg8.win 2).blk t).view.read (Elt Ideal) A : Vec Ideal S5000x128 .f32) (ix2 p q) : EReal) = A (ix2 i q) := by
  obtain ⟨-, -, -, -, e4, e5⟩ := idx8 t
  rw [View.read_apply]
  show A _ = A _
  congr 1
  funext a; apply Fin.ext
  match a with
  | ⟨0, _⟩ => show win8_2.index t (0 : Fin 2) * 5000 + 1 * p.val = i.val; rw [e4, hi]; omega
  | ⟨1, _⟩ => show win8_2.index t (1 : Fin 2) * 128 + 1 * q.val = q.val; rw [e5]; omega

/-- The output window is never cut at the array's end: what is written back is the whole staging block. -/
theorem cut8_2 (t : Fin cfg8.N) (Y : Vec Ideal S5000x128 .f32) (j : S5000x128.Idx) :
    (cfg8.win 2).cut (grid8.coords t) Y j = Y j := rfl

/-- What point `t` writes back is block `t` of the whole product of the two arrays the region was entered with. -/
theorem flushed8 (c : Dev nD) (t : Fin cfg8.N) :
    (dat8 (F := Ideal) V c).flushed 2 t
      = ((cfg8.win 2).blk t).view.read (Elt Ideal) (Cert.Gcn.mmHid (F := Ideal) (V c main_v108) (V c main_v110)) := by
  show (cfg8.win 2).cut (grid8.coords t) ((dat8 V c).after 2 t) = _
  rw [after8_2]
  funext j
  obtain ⟨p, q, rfl⟩ : ∃ (p : Fin 5000) (q : Fin 128), j = ix2 p q := ⟨j 0, j 1, eq_ix2 (n0 := 5000) (n1 := 128) j⟩
  have hN : cfg8.N = 20 := N_8
  have hi : t.val * 5000 + p.val < 100000 := by have := t.isLt; have := p.isLt; omega
  refine (cut8_2 t _ (ix2 p q)).trans ?_
  refine Eq.trans ?_ (read8_2 _ t p q ⟨t.val * 5000 + p.val, hi⟩ rfl).symm
  exact tile8_apply (iblk8 V c 0 t) (iblk8 V c 1 t) (V c main_v108) (V c main_v110) p q ⟨t.val * 5000 + p.val, hi⟩
    (fun k => read8_0 (V c main_v108) t p k ⟨t.val * 5000 + p.val, hi⟩ rfl) (fun k => read8_1 (V c main_v110) t k q)

/-- An index of the output array is in point `t`'s block iff each coordinate is in the block's range on its axis. -/
theorem mem_blk8 (t : Fin cfg8.N) (i : S100000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v113).slice (win8_2.rect t)).set ↔ _
  rw [View.set_slice_whole, Rect.mem_set_unit]
  exact Iff.rfl

/-- The 20 blocks cover the output array: row `r` is in the block of point `r / 5000`. -/
theorem cover8 (i : S100000x128.Idx) :
    ∃ t : Fin cfg8.N, (cfg8.win 2).flush t = true ∧ i ∈ ((cfg8.win 2).blk t).view.set := by
  have h0 : (i 0).val < 100000 := (i 0).isLt
  have h1 : (i 1).val < 128 := (i 1).isLt
  have hN : cfg8.N = 20 := N_8
  have ht : (i 0).val / 5000 < cfg8.N := by rw [hN]; omega
  obtain ⟨-, -, -, -, e4, e5⟩ := idx8 ⟨(i 0).val / 5000, ht⟩
  refine ⟨⟨(i 0).val / 5000, ht⟩, flush8_2 _, ?_⟩
  rw [mem_blk8]
  intro a
  match a with
  | ⟨0, _⟩ =>
    show win8_2.index ⟨(i 0).val / 5000, ht⟩ (0 : Fin 2) * 5000 ≤ (i 0).val
      ∧ (i 0).val < win8_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win8_2.index ⟨(i 0).val / 5000, ht⟩ (1 : Fin 2) * 128 ≤ (i 1).val
      ∧ (i 1).val < win8_2.index ⟨(i 0).val / 5000, ht⟩ (1 : Fin 2) * 128 + 128
    rw [e5]; omega

/-! ## Region 10: [100000, 128] · [128, 64] in 20 tiles of 5000 rows -/

/-- One entry of the tile's product. The body stores, over its whole block, the product of its feature tile `x0` and
    its weight block `x1` into the zero accumulator (the narrowing of the operands to bf16 changes nothing at the
    extended reals, nor does a shape cast to the same shape). If row `p` of the tile is row `i` of the array `X` and column `q` of the weight block is
    column `q` of `W`, entry (p, q) is entry (i, q) of the whole product `X · W`: the same sum over the contracted
    coordinate. -/
theorem tile10_apply (x0 : Vec Ideal S5000x128 .f32) (x1 : Vec Ideal S128x64 .f32)
    (X : Cert.Gcn.Arr Ideal S100000x128 .f32) (W : Cert.Gcn.Arr Ideal S128x64 .f32)
    (p : Fin 5000) (q : Fin 64) (i : Fin 100000)
    (hT : ∀ k : Fin 128, (x0 (ix2 p k) : EReal) = X (ix2 i k)) (hB : ∀ k : Fin 128, (x1 (ix2 k q) : EReal) = W (ix2 k q)) :
    (out10_2 (F := Ideal) x0 x1 (ix2 p q) : EReal) = Cert.Gcn.mmOut (F := Ideal) X W (ix2 i q) := by
  unfold out10_2
  rw [View.canon_unit_zero zero2]
  simp only [View.ld_unit_zero (S := S5000x128) zero2, View.ld_unit_zero (S := S128x64) zero2]
  unfold k10_pay1
  simp only [shapeCast_self]
  exact matmul_tile_eq_dotGeneral _ _ none none _ _ X W p q i hT hB

/-- The printed index maps, decided over the 20 grid points: at point `t` the feature window and the output window
    are at block row `t`, block column 0; the weight window stays at block (0, 0). -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- The feature window's block at point `t`, read off an array `A`: row `p` of the block is row `5000 t + p` of `A`
    (a block's coordinate in its array is the block index times the block's extent plus the coordinate inside). -/
theorem read10_0 (A : Cert.Gcn.Arr Ideal S100000x128 .f32) (t : Fin cfg10.N) (p : Fin 5000) (k : Fin 128) (i : Fin 100000)
    (hi : i.val = t.val * 5000 + p.val) :
    ((((cfg10.win 0).blk t).view.read (Elt Ideal) A : Vec Ideal S5000x128 .f32) (ix2 p k) : EReal) = A (ix2 i k) := by
  obtain ⟨e0, e1, -⟩ := idx10 t
  rw [View.read_apply]
  show A _ = A _
  congr 1
  funext a; apply Fin.ext
  match a with
  | ⟨0, _⟩ => show win10_0.index t (0 : Fin 2) * 5000 + 1 * p.val = i.val; rw [e0, hi]; omega
  | ⟨1, _⟩ => show win10_0.index t (1 : Fin 2) * 128 + 1 * k.val = k.val; rw [e1]; omega

/-- The weight window's block at any point is the whole weight matrix. -/
theorem read10_1 (A : Cert.Gcn.Arr Ideal S128x64 .f32) (t : Fin cfg10.N) (k : Fin 128) (q : Fin 64) :
    ((((cfg10.win 1).blk t).view.read (Elt Ideal) A : Vec Ideal S128x64 .f32) (ix2 k q) : EReal) = A (ix2 k q) := by
  obtain ⟨-, -, e2, e3, -⟩ := idx10 t
  rw [View.read_apply]
  show A _ = A _
  congr 1
  funext a; apply Fin.ext
  match a with
  | ⟨0, _⟩ => show win10_1.index t (0 : Fin 2) * 128 + 1 * k.val = k.val; rw [e2]; omega
  | ⟨1, _⟩ => show win10_1.index t (1 : Fin 2) * 64 + 1 * q.val = q.val; rw [e3]; omega

/-- The output window's block at point `t`, read off an array `A`: row `p` of the block is row `5000 t + p` of `A`. -/
theorem read10_2 (A : Cert.Gcn.Arr Ideal S100000x64 .f32) (t : Fin cfg10.N) (p : Fin 5000) (q : Fin 64) (i : Fin 100000)
    (hi : i.val = t.val * 5000 + p.val) :
    ((((cfg10.win 2).blk t).view.read (Elt Ideal) A : Vec Ideal S5000x64 .f32) (ix2 p q) : EReal) = A (ix2 i q) := by
  obtain ⟨-, -, -, -, e4, e5⟩ := idx10 t
  rw [View.read_apply]
  show A _ = A _
  congr 1
  funext a; apply Fin.ext
  match a with
  | ⟨0, _⟩ => show win10_2.index t (0 : Fin 2) * 5000 + 1 * p.val = i.val; rw [e4, hi]; omega
  | ⟨1, _⟩ => show win10_2.index t (1 : Fin 2) * 64 + 1 * q.val = q.val; rw [e5]; omega

/-- The output window is never cut at the array's end: what is written back is the whole staging block. -/
theorem cut10_2 (t : Fin cfg10.N) (Y : Vec Ideal S5000x64 .f32) (j : S5000x64.Idx) :
    (cfg10.win 2).cut (grid10.coords t) Y j = Y j := rfl

/-- What point `t` writes back is block `t` of the whole product of the two arrays the region was entered with. -/
theorem flushed10 (c : Dev nD) (t : Fin cfg10.N) :
    (dat10 (F := Ideal) V c).flushed 2 t
      = ((cfg10.win 2).blk t).view.read (Elt Ideal) (Cert.Gcn.mmOut (F := Ideal) (V c main_v128) (V c main_arg8)) := by
  show (cfg10.win 2).cut (grid10.coords t) ((dat10 V c).after 2 t) = _
  rw [after10_2]
  funext j
  obtain ⟨p, q, rfl⟩ : ∃ (p : Fin 5000) (q : Fin 64), j = ix2 p q := ⟨j 0, j 1, eq_ix2 (n0 := 5000) (n1 := 64) j⟩
  have hN : cfg10.N = 20 := N_10
  have hi : t.val * 5000 + p.val < 100000 := by have := t.isLt; have := p.isLt; omega
  refine (cut10_2 t _ (ix2 p q)).trans ?_
  refine Eq.trans ?_ (read10_2 _ t p q ⟨t.val * 5000 + p.val, hi⟩ rfl).symm
  exact tile10_apply (iblk10 V c 0 t) (iblk10 V c 1 t) (V c main_v128) (V c main_arg8) p q ⟨t.val * 5000 + p.val, hi⟩
    (fun k => read10_0 (V c main_v128) t p k ⟨t.val * 5000 + p.val, hi⟩ rfl) (fun k => read10_1 (V c main_arg8) t k q)

/-- An index of the output array is in point `t`'s block iff each coordinate is in the block's range on its axis. -/
theorem mem_blk10 (t : Fin cfg10.N) (i : S100000x64.Idx) :
    i ∈ ((cfg10.win 2).blk t).view.set ↔ ∀ a : Fin 2, win10_2.index t a * S5000x64.size a ≤ (i a).val
      ∧ (i a).val < win10_2.index t a * S5000x64.size a + S5000x64.size a := by
  show i ∈ ((View.whole main_v129).slice (win10_2.rect t)).set ↔ _
  rw [View.set_slice_whole, Rect.mem_set_unit]
  exact Iff.rfl

/-- The 20 blocks cover the output array: row `r` is in the block of point `r / 5000`. -/
theorem cover10 (i : S100000x64.Idx) :
    ∃ t : Fin cfg10.N, (cfg10.win 2).flush t = true ∧ i ∈ ((cfg10.win 2).blk t).view.set := by
  have h0 : (i 0).val < 100000 := (i 0).isLt
  have h1 : (i 1).val < 64 := (i 1).isLt
  have hN : cfg10.N = 20 := N_10
  have ht : (i 0).val / 5000 < cfg10.N := by rw [hN]; omega
  obtain ⟨-, -, -, -, e4, e5⟩ := idx10 ⟨(i 0).val / 5000, ht⟩
  refine ⟨⟨(i 0).val / 5000, ht⟩, flush10_2 _, ?_⟩
  rw [mem_blk10]
  intro a
  match a with
  | ⟨0, _⟩ =>
    show win10_2.index ⟨(i 0).val / 5000, ht⟩ (0 : Fin 2) * 5000 ≤ (i 0).val
      ∧ (i 0).val < win10_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win10_2.index ⟨(i 0).val / 5000, ht⟩ (1 : Fin 2) * 64 ≤ (i 1).val
      ∧ (i 1).val < win10_2.index ⟨(i 0).val / 5000, ht⟩ (1 : Fin 2) * 64 + 64
    rw [e5]; omega

end Matmul

/-! # The six regions -/

/-- Region 0: the output array is the whole product of the region's two input arrays. -/
theorem region0 (c : Dev nD) :
    (dat0 (F := Ideal) V c).arrAt 2 cfg0.N = Cert.Gcn.mmIn (F := Ideal) (V c main_arg0) (V c main_arg4) := by
  exact (dat0 (F := Ideal) V c).arrAt_eq_of_cover 2 (Cert.Gcn.mmIn (F := Ideal) (V c main_arg0) (V c main_arg4))
    (fun t _ => Matmul.flushed0 V c t) Matmul.cover0

/-- Region 2: the output array is the whole product of the region's two input arrays. -/
theorem region2 (c : Dev nD) :
    (dat2 (F := Ideal) V c).arrAt 2 cfg2.N = Cert.Gcn.mmHid (F := Ideal) (V c main_v48) (V c main_v50) := by
  exact (dat2 (F := Ideal) V c).arrAt_eq_of_cover 2 (Cert.Gcn.mmHid (F := Ideal) (V c main_v48) (V c main_v50))
    (fun t _ => Matmul.flushed2 V c t) Matmul.cover2

/-- Region 4: the output array is the whole product of the region's two input arrays. -/
theorem region4 (c : Dev nD) :
    (dat4 (F := Ideal) V c).arrAt 2 cfg4.N = Cert.Gcn.mmHid (F := Ideal) (V c main_v68) (V c main_v70) := by
  exact (dat4 (F := Ideal) V c).arrAt_eq_of_cover 2 (Cert.Gcn.mmHid (F := Ideal) (V c main_v68) (V c main_v70))
    (fun t _ => Matmul.flushed4 V c t) Matmul.cover4

/-- Region 6: the output array is the whole product of the region's two input arrays. -/
theorem region6 (c : Dev nD) :
    (dat6 (F := Ideal) V c).arrAt 2 cfg6.N = Cert.Gcn.mmHid (F := Ideal) (V c main_v88) (V c main_v90) := by
  exact (dat6 (F := Ideal) V c).arrAt_eq_of_cover 2 (Cert.Gcn.mmHid (F := Ideal) (V c main_v88) (V c main_v90))
    (fun t _ => Matmul.flushed6 V c t) Matmul.cover6

/-- Region 8: the output array is the whole product of the region's two input arrays. -/
theorem region8 (c : Dev nD) :
    (dat8 (F := Ideal) V c).arrAt 2 cfg8.N = Cert.Gcn.mmHid (F := Ideal) (V c main_v108) (V c main_v110) := by
  exact (dat8 (F := Ideal) V c).arrAt_eq_of_cover 2 (Cert.Gcn.mmHid (F := Ideal) (V c main_v108) (V c main_v110))
    (fun t _ => Matmul.flushed8 V c t) Matmul.cover8

/-- Region 10: the output array is the whole product of the region's two input arrays. -/
theorem region10 (c : Dev nD) :
    (dat10 (F := Ideal) V c).arrAt 2 cfg10.N = Cert.Gcn.mmOut (F := Ideal) (V c main_v128) (V c main_arg8) := by
  exact (dat10 (F := Ideal) V c).arrAt_eq_of_cover 2 (Cert.Gcn.mmOut (F := Ideal) (V c main_v128) (V c main_arg8))
    (fun t _ => Matmul.flushed10 V c t) Matmul.cover10

end Cert.KernelIdeal.RegionValue

end
-- ==== Proof.KRegBias.lean ====
/-
  The six bias regions. Each adds, tile by tile of 5000 rows, the layer's bias row to the aggregated features, the
  first five followed by max(., 0); put together, the tiles are the whole-array sum (and maximum).

  Per region: the body's one store over whole blocks leaves its payload; the payload at (p, q) is the tile's entry
  plus the bias row's entry q (then max(., 0)); the tile at grid point t is rows 5000 t .. 5000 t + 4999 of the input
  array and the bias row's block is the whole row; so what point t writes back is the specification's whole-array
  function read through the point's block. The twenty blocks cover the output array (row r is in block r / 5000),
  hence the array ends holding that function.
-/
import proofs.«125150_j11227044512214_1_alg».proof.Proof.Gen.KernelIdeal.Frame
import proofs.«125150_j11227044512214_1_alg».proof.Proof.Spec
import Idealize.ShloMosaic.Lib.Pipeline.Value
import Idealize.ShloMosaic.Lib.ValueLayout

noncomputable section

namespace Cert.KernelIdeal.RegionValue

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-! ## Shared: the origin offset, and the specification's two functions read at an index -/

/-- The offset of a whole-block access is zero on both axes. -/
theorem origin2 : (![0, 0] : Fin 2 → Nat) = fun _ => 0 := funext fun a => by fin_cases a <;> rfl

/-- The specification's bias-and-max at (r, q): the array's entry plus the row's entry q, then max(., 0). -/
theorem biasRelu128_apply (A : (⟨2, ![100000, 128]⟩ : Shape).Idx → Elt Ideal .f32) (b : (⟨2, ![1, 128]⟩ : Shape).Idx → Elt Ideal .f32)
    (r : Fin 100000) (q : Fin 128) :
    Cert.Gcn.biasRelu128 (F := Ideal) A b (ix2 r q) = max (A (ix2 r q) + b (ix2 (0 : Fin 1) q)) (Ideal.ofBits .f32 0x00000000#32) := by
  unfold Cert.Gcn.biasRelu128
  rw [maximumf_apply, addf_apply]
  congr 1
  congr 1
  refine broadcastInDim_apply _ _ b (ix2 r q) (ix2 (0 : Fin 1) q) fun a => ?_
  match a with
  | ⟨0, _⟩ => rfl
  | ⟨1, _⟩ => rfl

/-- The specification's bias at (r, q), 64 features: the array's entry plus the row's entry q. -/
theorem bias64_apply (A : (⟨2, ![100000, 64]⟩ : Shape).Idx → Elt Ideal .f32) (b : (⟨2, ![1, 64]⟩ : Shape).Idx → Elt Ideal .f32)
    (r : Fin 100000) (q : Fin 64) :
    Cert.Gcn.bias64 (F := Ideal) A b (ix2 r q) = A (ix2 r q) + b (ix2 (0 : Fin 1) q) := by
  unfold Cert.Gcn.bias64
  rw [addf_apply]
  congr 1
  refine broadcastInDim_apply _ _ b (ix2 r q) (ix2 (0 : Fin 1) q) fun a => ?_
  match a with
  | ⟨0, _⟩ => rfl
  | ⟨1, _⟩ => rfl

/-! ## Region 1 -/

/-- The body's one store over whole blocks leaves its payload. -/
theorem out1_2_eq (x0 : Vec Ideal S5000x128 .f32) (x1 : Vec Ideal S1x128 .f32) : out1_2 x0 x1 = k1_pay1 x0 x1 := by
  unfold out1_2
  rw [View.canon_unit_zero origin2, View.ld_unit_zero (S := S5000x128) origin2, View.ld_unit_zero (S := S1x128) origin2]

/-- The payload at (p, q): the tile's entry plus the row's entry q, then max(., 0). -/
theorem k1_pay1_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self]
  rw [maximumf_apply, addf_apply, broadcast_apply, broadcastTo_1b_ab_apply]
  rfl

/-- The printed index maps over the grid: the tile windows' block index is the point on the rows' axis, 0 on the
    columns'; the bias row's window stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A tile written back through the output window at point t is the table G read through the point's block as soon as
    the tile's row p is the table's row 5000 t + p. -/
theorem cut1_eq_read (t : Fin cfg1.N) (X : Vec Ideal S5000x128 .f32) (G : S100000x128.Idx → Elt Ideal .f32)
    (h : ∀ (y : S5000x128.Idx) (i : S100000x128.Idx), (i 0).val = 5000 * t.val + (y 0).val → (i 1).val = (y 1).val → X y = G i) :
    (cfg1.win 2).cut (grid1.coords t) X = ((cfg1.win 2).blk t).view.read (Elt Ideal) G := by
  funext j
  rw [View.read_apply]
  refine h _ _ ?_ ?_
  · show win1_2.index t (0 : Fin 2) * 5000 + 1 * (j 0).val = 5000 * t.val + (j 0).val
    rw [(idx1 t).2.2.2.2.1]; omega
  · show win1_2.index t (1 : Fin 2) * 128 + 1 * (j 1).val = (j 1).val
    rw [(idx1 t).2.2.2.2.2]; omega

/-- The input tile at point t: its row p is row 5000 t + p of the region's input array. -/
theorem iblk1_0_apply (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v46 : S100000x128.Idx → Elt Ideal .f32) i := by
  unfold iblk1
  rw [View.read_apply]
  show V c main_v46 _ = V c main_v46 i
  congr 1
  funext a
  apply Fin.ext
  match a with
  | ⟨0, _⟩ => show win1_0.index t (0 : Fin 2) * 5000 + 1 * (y 0).val = (i 0).val; rw [(idx1 t).1, h0]; omega
  | ⟨1, _⟩ => show win1_0.index t (1 : Fin 2) * 128 + 1 * (y 1).val = (i 1).val; rw [(idx1 t).2.1, h1]; omega

/-- The bias row's block at any point is the whole row. -/
theorem iblk1_1_apply (c : Dev nD) (t : Fin cfg1.N) (y : S1x128.Idx) :
    (iblk1 V c 1 t : Vec Ideal S1x128 .f32) y = (V c main_v47 : S1x128.Idx → Elt Ideal .f32) y := by
  unfold iblk1
  rw [View.read_apply]
  show V c main_v47 _ = V c main_v47 y
  congr 1
  funext a
  apply Fin.ext
  match a with
  | ⟨0, _⟩ => show win1_1.index t (0 : Fin 2) * 1 + 1 * (y 0).val = (y 0).val; rw [(idx1 t).2.2.1]; omega
  | ⟨1, _⟩ => show win1_1.index t (1 : Fin 2) * 128 + 1 * (y 1).val = (y 1).val; rw [(idx1 t).2.2.2.1]; omega

/-- One entry: when the tile's entry y is the array's entry i (same column) and the loaded row is the bias row,
    the payload at y is the specification's function at i. -/
theorem tile1_point (x0 : Vec Ideal S5000x128 .f32) (x1 : Vec Ideal S1x128 .f32)
    (A : S100000x128.Idx → Elt Ideal .f32) (b : S1x128.Idx → Elt Ideal .f32)
    (y : S5000x128.Idx) (i : S100000x128.Idx) (h1 : (i 1).val = (y 1).val)
    (hx0 : x0 y = A i) (hx1 : ∀ z, x1 z = b z) :
    k1_pay1 x0 x1 y = Cert.Gcn.biasRelu128 (F := Ideal) A b i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  rw [k1_pay1_apply, biasRelu128_apply, hx0, hx1]

/-- What point t writes back is the specification's function of the region's input arrays, read through the
    point's block. -/
theorem flushed1_eq (c : Dev nD) (t : Fin cfg1.N) :
    (dat1 (F := Ideal) V c).flushed 2 t
      = ((cfg1.win 2).blk t).view.read (Elt Ideal) (Cert.Gcn.biasRelu128 (F := Ideal) (V c main_v46) (V c main_v47)) := by
  refine (congrArg ((cfg1.win 2).cut (grid1.coords t))
    ((after1_2 V c t).trans (out1_2_eq (iblk1 V c 0 t) (iblk1 V c 1 t)))).trans ?_
  exact cut1_eq_read t (k1_pay1 (iblk1 V c 0 t) (iblk1 V c 1 t))
    (Cert.Gcn.biasRelu128 (F := Ideal) (V c main_v46) (V c main_v47)) fun y i h0 h1 =>
      tile1_point (iblk1 V c 0 t) (iblk1 V c 1 t) (V c main_v46) (V c main_v47) y i h1
        (iblk1_0_apply V c t y i h0 h1) (iblk1_1_apply V c t)

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every index of the output array is in some point's block: row r is in the block of point r / 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_2 _, ?_⟩
  rw [mem_blk1]
  obtain ⟨-, -, -, -, e4, e5⟩ := idx1 ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- Region 1: the output array is the bias row added to every row of the input array, then max(., 0). -/
theorem region1 (c : Dev nD) :
    (dat1 (F := Ideal) V c).arrAt 2 cfg1.N = Cert.Gcn.biasRelu128 (F := Ideal) (V c main_v46) (V c main_v47) :=
  (dat1 (F := Ideal) V c).arrAt_eq_of_cover 2 (Cert.Gcn.biasRelu128 (F := Ideal) (V c main_v46) (V c main_v47))
    (fun t _ => flushed1_eq V c t) cover1

/-! ## Region 3 -/

/-- The body's one store over whole blocks leaves its payload. -/
theorem out3_2_eq (x0 : Vec Ideal S5000x128 .f32) (x1 : Vec Ideal S1x128 .f32) : out3_2 x0 x1 = k3_pay1 x0 x1 := by
  unfold out3_2
  rw [View.canon_unit_zero origin2, View.ld_unit_zero (S := S5000x128) origin2, View.ld_unit_zero (S := S1x128) origin2]

/-- The payload at (p, q): the tile's entry plus the row's entry q, then max(., 0). -/
theorem k3_pay1_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) := by
  unfold k3_pay1
  rw [shapeCast_self, shapeCast_self]
  rw [maximumf_apply, addf_apply, broadcast_apply, broadcastTo_1b_ab_apply]
  rfl

/-- The printed index maps over the grid: the tile windows' block index is the point on the rows' axis, 0 on the
    columns'; the bias row's window stays at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A tile written back through the output window at point t is the table G read through the point's block as soon as
    the tile's row p is the table's row 5000 t + p. -/
theorem cut3_eq_read (t : Fin cfg3.N) (X : Vec Ideal S5000x128 .f32) (G : S100000x128.Idx → Elt Ideal .f32)
    (h : ∀ (y : S5000x128.Idx) (i : S100000x128.Idx), (i 0).val = 5000 * t.val + (y 0).val → (i 1).val = (y 1).val → X y = G i) :
    (cfg3.win 2).cut (grid3.coords t) X = ((cfg3.win 2).blk t).view.read (Elt Ideal) G := by
  funext j
  rw [View.read_apply]
  refine h _ _ ?_ ?_
  · show win3_2.index t (0 : Fin 2) * 5000 + 1 * (j 0).val = 5000 * t.val + (j 0).val
    rw [(idx3 t).2.2.2.2.1]; omega
  · show win3_2.index t (1 : Fin 2) * 128 + 1 * (j 1).val = (j 1).val
    rw [(idx3 t).2.2.2.2.2]; omega

/-- The input tile at point t: its row p is row 5000 t + p of the region's input array. -/
theorem iblk3_0_apply (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c main_v66 : S100000x128.Idx → Elt Ideal .f32) i := by
  unfold iblk3
  rw [View.read_apply]
  show V c main_v66 _ = V c main_v66 i
  congr 1
  funext a
  apply Fin.ext
  match a with
  | ⟨0, _⟩ => show win3_0.index t (0 : Fin 2) * 5000 + 1 * (y 0).val = (i 0).val; rw [(idx3 t).1, h0]; omega
  | ⟨1, _⟩ => show win3_0.index t (1 : Fin 2) * 128 + 1 * (y 1).val = (i 1).val; rw [(idx3 t).2.1, h1]; omega

/-- The bias row's block at any point is the whole row. -/
theorem iblk3_1_apply (c : Dev nD) (t : Fin cfg3.N) (y : S1x128.Idx) :
    (iblk3 V c 1 t : Vec Ideal S1x128 .f32) y = (V c main_v67 : S1x128.Idx → Elt Ideal .f32) y := by
  unfold iblk3
  rw [View.read_apply]
  show V c main_v67 _ = V c main_v67 y
  congr 1
  funext a
  apply Fin.ext
  match a with
  | ⟨0, _⟩ => show win3_1.index t (0 : Fin 2) * 1 + 1 * (y 0).val = (y 0).val; rw [(idx3 t).2.2.1]; omega
  | ⟨1, _⟩ => show win3_1.index t (1 : Fin 2) * 128 + 1 * (y 1).val = (y 1).val; rw [(idx3 t).2.2.2.1]; omega

/-- One entry: when the tile's entry y is the array's entry i (same column) and the loaded row is the bias row,
    the payload at y is the specification's function at i. -/
theorem tile3_point (x0 : Vec Ideal S5000x128 .f32) (x1 : Vec Ideal S1x128 .f32)
    (A : S100000x128.Idx → Elt Ideal .f32) (b : S1x128.Idx → Elt Ideal .f32)
    (y : S5000x128.Idx) (i : S100000x128.Idx) (h1 : (i 1).val = (y 1).val)
    (hx0 : x0 y = A i) (hx1 : ∀ z, x1 z = b z) :
    k3_pay1 x0 x1 y = Cert.Gcn.biasRelu128 (F := Ideal) A b i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  rw [k3_pay1_apply, biasRelu128_apply, hx0, hx1]

/-- What point t writes back is the specification's function of the region's input arrays, read through the
    point's block. -/
theorem flushed3_eq (c : Dev nD) (t : Fin cfg3.N) :
    (dat3 (F := Ideal) V c).flushed 2 t
      = ((cfg3.win 2).blk t).view.read (Elt Ideal) (Cert.Gcn.biasRelu128 (F := Ideal) (V c main_v66) (V c main_v67)) := by
  refine (congrArg ((cfg3.win 2).cut (grid3.coords t))
    ((after3_2 V c t).trans (out3_2_eq (iblk3 V c 0 t) (iblk3 V c 1 t)))).trans ?_
  exact cut3_eq_read t (k3_pay1 (iblk3 V c 0 t) (iblk3 V c 1 t))
    (Cert.Gcn.biasRelu128 (F := Ideal) (V c main_v66) (V c main_v67)) fun y i h0 h1 =>
      tile3_point (iblk3 V c 0 t) (iblk3 V c 1 t) (V c main_v66) (V c main_v67) y i h1
        (iblk3_0_apply V c t y i h0 h1) (iblk3_1_apply V c t)

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v68).slice (win3_2.rect t)).set ↔ _
  rw [View.set_slice_whole, Rect.mem_set_unit]
  exact Iff.rfl

/-- Every index of the output array is in some point's block: row r is in the block of point r / 5000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_2 _, ?_⟩
  rw [mem_blk3]
  obtain ⟨-, -, -, -, e4, e5⟩ := idx3 ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- Region 3: the output array is the bias row added to every row of the input array, then max(., 0). -/
theorem region3 (c : Dev nD) :
    (dat3 (F := Ideal) V c).arrAt 2 cfg3.N = Cert.Gcn.biasRelu128 (F := Ideal) (V c main_v66) (V c main_v67) :=
  (dat3 (F := Ideal) V c).arrAt_eq_of_cover 2 (Cert.Gcn.biasRelu128 (F := Ideal) (V c main_v66) (V c main_v67))
    (fun t _ => flushed3_eq V c t) cover3

/-! ## Region 5 -/

/-- The body's one store over whole blocks leaves its payload. -/
theorem out5_2_eq (x0 : Vec Ideal S5000x128 .f32) (x1 : Vec Ideal S1x128 .f32) : out5_2 x0 x1 = k5_pay1 x0 x1 := by
  unfold out5_2
  rw [View.canon_unit_zero origin2, View.ld_unit_zero (S := S5000x128) origin2, View.ld_unit_zero (S := S1x128) origin2]

/-- The payload at (p, q): the tile's entry plus the row's entry q, then max(., 0). -/
theorem k5_pay1_apply (x0 : Vec Ideal S5000x128 .f32) (x1 : Vec Ideal S1x128 .f32) (p : Fin 5000) (q : Fin 128) :
    k5_pay1 x0 x1 (ix2 p q) = max (x0 (ix2 p q) + x1 (ix2 (0 : Fin 1) q)) (Ideal.ofBits .f32 0x00000000#32) := by
  unfold k5_pay1
  rw [shapeCast_self, shapeCast_self]
  rw [maximumf_apply, addf_apply, broadcast_apply, broadcastTo_1b_ab_apply]
  rfl

/-- The printed index maps over the grid: the tile windows' block index is the point on the rows' axis, 0 on the
    columns'; the bias row's window stays at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- A tile written back through the output window at point t is the table G read through the point's block as soon as
    the tile's row p is the table's row 5000 t + p. -/
theorem cut5_eq_read (t : Fin cfg5.N) (X : Vec Ideal S5000x128 .f32) (G : S100000x128.Idx → Elt Ideal .f32)
    (h : ∀ (y : S5000x128.Idx) (i : S100000x128.Idx), (i 0).val = 5000 * t.val + (y 0).val → (i 1).val = (y 1).val → X y = G i) :
    (cfg5.win 2).cut (grid5.coords t) X = ((cfg5.win 2).blk t).view.read (Elt Ideal) G := by
  funext j
  rw [View.read_apply]
  refine h _ _ ?_ ?_
  · show win5_2.index t (0 : Fin 2) * 5000 + 1 * (j 0).val = 5000 * t.val + (j 0).val
    rw [(idx5 t).2.2.2.2.1]; omega
  · show win5_2.index t (1 : Fin 2) * 128 + 1 * (j 1).val = (j 1).val
    rw [(idx5 t).2.2.2.2.2]; omega

/-- The input tile at point t: its row p is row 5000 t + p of the region's input array. -/
theorem iblk5_0_apply (c : Dev nD) (t : Fin cfg5.N) (y : S5000x128.Idx) (i : S100000x128.Idx)
    (h0 : (i 0).val = 5000 * t.val + (y 0).val) (h1 : (i 1).val = (y 1).val) :
    (iblk5 V c 0 t : Vec Ideal S5000x128 .f32) y = (V c main_v86 : S100000x128.Idx → Elt Ideal .f32) i := by
  unfold iblk5
  rw [View.read_apply]
  show V c main_v86 _ = V c main_v86 i
  congr 1
  funext a
  apply Fin.ext
  match a with
  | ⟨0, _⟩ => show win5_0.index t (0 : Fin 2) * 5000 + 1 * (y 0).val = (i 0).val; rw [(idx5 t).1, h0]; omega
  | ⟨1, _⟩ => show win5_0.index t (1 : Fin 2) * 128 + 1 * (y 1).val = (i 1).val; rw [(idx5 t).2.1, h1]; omega

/-- The bias row's block at any point is the whole row. -/
theorem iblk5_1_apply (c : Dev nD) (t : Fin cfg5.N) (y : S1x128.Idx) :
    (iblk5 V c 1 t : Vec Ideal S1x128 .f32) y = (V c main_v87 : S1x128.Idx → Elt Ideal .f32) y := by
  unfold iblk5
  rw [View.read_apply]
  show V c main_v87 _ = V c main_v87 y
  congr 1
  funext a
  apply Fin.ext
  match a with
  | ⟨0, _⟩ => show win5_1.index t (0 : Fin 2) * 1 + 1 * (y 0).val = (y 0).val; rw [(idx5 t).2.2.1]; omega
  | ⟨1, _⟩ => show win5_1.index t (1 : Fin 2) * 128 + 1 * (y 1).val = (y 1).val; rw [(idx5 t).2.2.2.1]; omega

/-- One entry: when the tile's entry y is the array's entry i (same column) and the loaded row is the bias row,
    the payload at y is the specification's function at i. -/
theorem tile5_point (x0 : Vec Ideal S5000x128 .f32) (x1 : Vec Ideal S1x128 .f32)
    (A : S100000x128.Idx → Elt Ideal .f32) (b : S1x128.Idx → Elt Ideal .f32)
    (y : S5000x128.Idx) (i : S100000x128.Idx) (h1 : (i 1).val = (y 1).val)
    (hx0 : x0 y = A i) (hx1 : ∀ z, x1 z = b z) :
    k5_pay1 x0 x1 y = Cert.Gcn.biasRelu128 (F := Ideal) A b i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  rw [k5_pay1_apply, biasRelu128_apply, hx0, hx1]

/-- What point t writes back is the specification's function of the region's input arrays, read through the
    point's block. -/
theorem flushed5_eq (c : Dev nD) (t : Fin cfg5.N) :
    (dat5 (F := Ideal) V c).flushed 2 t
      = ((cfg5.win 2).blk t).view.read (Elt Ideal) (Cert.Gcn.biasRelu128 (F := Ideal) (V c main_v86) (V c main_v87)) := by
  refine (congrArg ((cfg5.win 2).cut (grid5.coords t))
    ((after5_2 V c t).trans (out5_2_eq (iblk5 V c 0 t) (iblk5 V c 1 t)))).trans ?_
  exact cut5_eq_read t (k5_pay1 (iblk5 V c 0 t) (iblk5 V c 1 t))
    (Cert.Gcn.biasRelu128 (F := Ideal) (V c main_v86) (V c main_v87)) fun y i h0 h1 =>
      tile5_point (iblk5 V c 0 t) (iblk5 V c 1 t) (V c main_v86) (V c main_v87) y i h1
        (iblk5_0_apply V c t y i h0 h1) (iblk5_1_apply V c t)

/-- An index of the output array is in point t's block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v88).slice (win5_2.rect t)).set ↔ _
  rw [View.set_slice_whole, Rect.mem_set_unit]
  exact Iff.rfl

/-- Every index of the output array is in some point's block: row r is in the block of point r / 5000. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  have ht : (i 0).val / 5000 < cfg5.N := by rw [hN]; omega
  refine ⟨⟨(i 0).val / 5000, ht⟩, flush5_2 _, ?_⟩
  rw [mem_blk5]
  obtain ⟨-, -, -, -, e4, e5⟩ := idx5 ⟨(i 0).val / 5000, ht⟩
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val ∧ (i 1).val < win5_2.index ⟨(i 0).val / 5000, ht⟩ (1 : Fin 2) * 128 + 128
    rw [e5]; omega

/-- Region 5: the output array is the bias row added to every row of the input array, then max(., 0). -/
theorem region5 (c : Dev nD) :
    (dat5 (F := Ideal) V c).arrAt 2 cfg5.N = Cert.Gcn.biasRelu128 (F := Ideal) (V c main_v86) (V c main_v87) :=
  (dat5 (F := Ideal) V c).arrAt_eq_of_cover 2 (Cert.Gcn.biasRelu128 (F := Ideal) (V c main_v86) (V c main_v87))
    (fun t _ => flushed5_eq V c t) cover5

/-! ## Region 7 -/

/-- The body's one store over whole blocks leaves its payload. -/
theorem out7_2_eq (x0 : Vec Ideal S5000x128 .f32) (x1 : Vec Ideal S1x128 .f32) : out7_2 x0 x1 = k7_pay1 x0 x1 := by
  unfold out7_2
  rw [View.canon_unit_zero origin2, View.ld_unit_zero (S := S5000x128) origin2, View.ld_unit_zero (S := S1x128) origin2]

/-- The payload at (p, q): the tile's entry plus the row's entry q, then max(., 0). -/
theorem k7_pay1_apply (x0 : Vec Ideal S5000x128 .f32) (x1 : Vec Ideal S1x128 .f32) (p : Fin 5000) (q : Fin 128) :
    k7_pay1 x0 x1 (ix2 p q) = max (x0 (ix2 p q) + x1 (ix2 (0 : Fin 1) q)) (Ideal.ofBits .f32 0x00000000#32) := by
  unfold k7_pay1
  rw [shapeCast_self, shapeCast_self]
  rw [maximumf_apply, addf_apply, broadcast_apply, broadcastTo_1b_ab_apply]
  rfl

/-- The printed index maps over the grid: the tile windows' block index is the point on the rows' axis, 0 on the
    columns'; the bias row's window stays at block (0, 0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- A tile written back through the output window at point t is the table G read through the point's block as soon as
    the tile's row p is the table's row 5000 t + p. -/
theorem cut7_eq_read (t : Fin cfg7.N) (X : Vec Ideal S5000x128 .f32) (G : S100000x128.Idx → Elt Ideal .f32)
    (h : ∀ (y : S5000x128.Idx) (i : S100000x128.Idx), (i 0).val = 5000 * t.val + (y 0).val → (i 1).val = (y 1).val → X y = G i) :
    (cfg7.win 2).cut (grid7.coords t) X = ((cfg7.win 2).blk t).view.read (Elt Ideal) G := by
  funext j
  rw [View.read_apply]
  refine h _ _ ?_ ?_
  · show win7_2.index t (0 : Fin 2) * 5000 + 1 * (j 0).val = 5000 * t.val + (j 0).val
    rw [(idx7 t).2.2.2.2.1]; omega
  · show win7_2.index t (1 : Fin 2) * 128 + 1 * (j 1).val = (j 1).val
    rw [(idx7 t).2.2.2.2.2]; omega

/-- The input tile at point t: its row p is row 5000 t + p of the region's input array. -/
theorem iblk7_0_apply (c : Dev nD) (t : Fin cfg7.N) (y : S5000x128.Idx) (i : S100000x128.Idx)
    (h0 : (i 0).val = 5000 * t.val + (y 0).val) (h1 : (i 1).val = (y 1).val) :
    (iblk7 V c 0 t : Vec Ideal S5000x128 .f32) y = (V c main_v106 : S100000x128.Idx → Elt Ideal .f32) i := by
  unfold iblk7
  rw [View.read_apply]
  show V c main_v106 _ = V c main_v106 i
  congr 1
  funext a
  apply Fin.ext
  match a with
  | ⟨0, _⟩ => show win7_0.index t (0 : Fin 2) * 5000 + 1 * (y 0).val = (i 0).val; rw [(idx7 t).1, h0]; omega
  | ⟨1, _⟩ => show win7_0.index t (1 : Fin 2) * 128 + 1 * (y 1).val = (i 1).val; rw [(idx7 t).2.1, h1]; omega

/-- The bias row's block at any point is the whole row. -/
theorem iblk7_1_apply (c : Dev nD) (t : Fin cfg7.N) (y : S1x128.Idx) :
    (iblk7 V c 1 t : Vec Ideal S1x128 .f32) y = (V c main_v107 : S1x128.Idx → Elt Ideal .f32) y := by
  unfold iblk7
  rw [View.read_apply]
  show V c main_v107 _ = V c main_v107 y
  congr 1
  funext a
  apply Fin.ext
  match a with
  | ⟨0, _⟩ => show win7_1.index t (0 : Fin 2) * 1 + 1 * (y 0).val = (y 0).val; rw [(idx7 t).2.2.1]; omega
  | ⟨1, _⟩ => show win7_1.index t (1 : Fin 2) * 128 + 1 * (y 1).val = (y 1).val; rw [(idx7 t).2.2.2.1]; omega

/-- One entry: when the tile's entry y is the array's entry i (same column) and the loaded row is the bias row,
    the payload at y is the specification's function at i. -/
theorem tile7_point (x0 : Vec Ideal S5000x128 .f32) (x1 : Vec Ideal S1x128 .f32)
    (A : S100000x128.Idx → Elt Ideal .f32) (b : S1x128.Idx → Elt Ideal .f32)
    (y : S5000x128.Idx) (i : S100000x128.Idx) (h1 : (i 1).val = (y 1).val)
    (hx0 : x0 y = A i) (hx1 : ∀ z, x1 z = b z) :
    k7_pay1 x0 x1 y = Cert.Gcn.biasRelu128 (F := Ideal) A b i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  rw [k7_pay1_apply, biasRelu128_apply, hx0, hx1]

/-- What point t writes back is the specification's function of the region's input arrays, read through the
    point's block. -/
theorem flushed7_eq (c : Dev nD) (t : Fin cfg7.N) :
    (dat7 (F := Ideal) V c).flushed 2 t
      = ((cfg7.win 2).blk t).view.read (Elt Ideal) (Cert.Gcn.biasRelu128 (F := Ideal) (V c main_v106) (V c main_v107)) := by
  refine (congrArg ((cfg7.win 2).cut (grid7.coords t))
    ((after7_2 V c t).trans (out7_2_eq (iblk7 V c 0 t) (iblk7 V c 1 t)))).trans ?_
  exact cut7_eq_read t (k7_pay1 (iblk7 V c 0 t) (iblk7 V c 1 t))
    (Cert.Gcn.biasRelu128 (F := Ideal) (V c main_v106) (V c main_v107)) fun y i h0 h1 =>
      tile7_point (iblk7 V c 0 t) (iblk7 V c 1 t) (V c main_v106) (V c main_v107) y i h1
        (iblk7_0_apply V c t y i h0 h1) (iblk7_1_apply V c t)

/-- An index of the output array is in point t's block iff each coordinate is in the block's range on its axis. -/
theorem mem_blk7 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v108).slice (win7_2.rect t)).set ↔ _
  rw [View.set_slice_whole, Rect.mem_set_unit]
  exact Iff.rfl

/-- Every index of the output array is in some point's block: row r is in the block of point r / 5000. -/
theorem cover7 (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  have ht : (i 0).val / 5000 < cfg7.N := by rw [hN]; omega
  refine ⟨⟨(i 0).val / 5000, ht⟩, flush7_2 _, ?_⟩
  rw [mem_blk7]
  obtain ⟨-, -, -, -, e4, e5⟩ := idx7 ⟨(i 0).val / 5000, ht⟩
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win7_2.index ⟨(i 0).val / 5000, ht⟩ (1 : Fin 2) * 128 ≤ (i 1).val ∧ (i 1).val < win7_2.index ⟨(i 0).val / 5000, ht⟩ (1 : Fin 2) * 128 + 128
    rw [e5]; omega

/-- Region 7: the output array is the bias row added to every row of the input array, then max(., 0). -/
theorem region7 (c : Dev nD) :
    (dat7 (F := Ideal) V c).arrAt 2 cfg7.N = Cert.Gcn.biasRelu128 (F := Ideal) (V c main_v106) (V c main_v107) :=
  (dat7 (F := Ideal) V c).arrAt_eq_of_cover 2 (Cert.Gcn.biasRelu128 (F := Ideal) (V c main_v106) (V c main_v107))
    (fun t _ => flushed7_eq V c t) cover7

/-! ## Region 9 -/

/-- The body's one store over whole blocks leaves its payload. -/
theorem out9_2_eq (x0 : Vec Ideal S5000x128 .f32) (x1 : Vec Ideal S1x128 .f32) : out9_2 x0 x1 = k9_pay1 x0 x1 := by
  unfold out9_2
  rw [View.canon_unit_zero origin2, View.ld_unit_zero (S := S5000x128) origin2, View.ld_unit_zero (S := S1x128) origin2]

/-- The payload at (p, q): the tile's entry plus the row's entry q, then max(., 0). -/
theorem k9_pay1_apply (x0 : Vec Ideal S5000x128 .f32) (x1 : Vec Ideal S1x128 .f32) (p : Fin 5000) (q : Fin 128) :
    k9_pay1 x0 x1 (ix2 p q) = max (x0 (ix2 p q) + x1 (ix2 (0 : Fin 1) q)) (Ideal.ofBits .f32 0x00000000#32) := by
  unfold k9_pay1
  rw [shapeCast_self, shapeCast_self]
  rw [maximumf_apply, addf_apply, broadcast_apply, broadcastTo_1b_ab_apply]
  rfl

/-- The printed index maps over the grid: the tile windows' block index is the point on the rows' axis, 0 on the
    columns'; the bias row's window stays at block (0, 0). -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- A tile written back through the output window at point t is the table G read through the point's block as soon as
    the tile's row p is the table's row 5000 t + p. -/
theorem cut9_eq_read (t : Fin cfg9.N) (X : Vec Ideal S5000x128 .f32) (G : S100000x128.Idx → Elt Ideal .f32)
    (h : ∀ (y : S5000x128.Idx) (i : S100000x128.Idx), (i 0).val = 5000 * t.val + (y 0).val → (i 1).val = (y 1).val → X y = G i) :
    (cfg9.win 2).cut (grid9.coords t) X = ((cfg9.win 2).blk t).view.read (Elt Ideal) G := by
  funext j
  rw [View.read_apply]
  refine h _ _ ?_ ?_
  · show win9_2.index t (0 : Fin 2) * 5000 + 1 * (j 0).val = 5000 * t.val + (j 0).val
    rw [(idx9 t).2.2.2.2.1]; omega
  · show win9_2.index t (1 : Fin 2) * 128 + 1 * (j 1).val = (j 1).val
    rw [(idx9 t).2.2.2.2.2]; omega

/-- The input tile at point t: its row p is row 5000 t + p of the region's input array. -/
theorem iblk9_0_apply (c : Dev nD) (t : Fin cfg9.N) (y : S5000x128.Idx) (i : S100000x128.Idx)
    (h0 : (i 0).val = 5000 * t.val + (y 0).val) (h1 : (i 1).val = (y 1).val) :
    (iblk9 V c 0 t : Vec Ideal S5000x128 .f32) y = (V c main_v126 : S100000x128.Idx → Elt Ideal .f32) i := by
  unfold iblk9
  rw [View.read_apply]
  show V c main_v126 _ = V c main_v126 i
  congr 1
  funext a
  apply Fin.ext
  match a with
  | ⟨0, _⟩ => show win9_0.index t (0 : Fin 2) * 5000 + 1 * (y 0).val = (i 0).val; rw [(idx9 t).1, h0]; omega
  | ⟨1, _⟩ => show win9_0.index t (1 : Fin 2) * 128 + 1 * (y 1).val = (i 1).val; rw [(idx9 t).2.1, h1]; omega

/-- The bias row's block at any point is the whole row. -/
theorem iblk9_1_apply (c : Dev nD) (t : Fin cfg9.N) (y : S1x128.Idx) :
    (iblk9 V c 1 t : Vec Ideal S1x128 .f32) y = (V c main_v127 : S1x128.Idx → Elt Ideal .f32) y := by
  unfold iblk9
  rw [View.read_apply]
  show V c main_v127 _ = V c main_v127 y
  congr 1
  funext a
  apply Fin.ext
  match a with
  | ⟨0, _⟩ => show win9_1.index t (0 : Fin 2) * 1 + 1 * (y 0).val = (y 0).val; rw [(idx9 t).2.2.1]; omega
  | ⟨1, _⟩ => show win9_1.index t (1 : Fin 2) * 128 + 1 * (y 1).val = (y 1).val; rw [(idx9 t).2.2.2.1]; omega

/-- One entry: when the tile's entry y is the array's entry i (same column) and the loaded row is the bias row,
    the payload at y is the specification's function at i. -/
theorem tile9_point (x0 : Vec Ideal S5000x128 .f32) (x1 : Vec Ideal S1x128 .f32)
    (A : S100000x128.Idx → Elt Ideal .f32) (b : S1x128.Idx → Elt Ideal .f32)
    (y : S5000x128.Idx) (i : S100000x128.Idx) (h1 : (i 1).val = (y 1).val)
    (hx0 : x0 y = A i) (hx1 : ∀ z, x1 z = b z) :
    k9_pay1 x0 x1 y = Cert.Gcn.biasRelu128 (F := Ideal) A b i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  rw [k9_pay1_apply, biasRelu128_apply, hx0, hx1]

/-- What point t writes back is the specification's function of the region's input arrays, read through the
    point's block. -/
theorem flushed9_eq (c : Dev nD) (t : Fin cfg9.N) :
    (dat9 (F := Ideal) V c).flushed 2 t
      = ((cfg9.win 2).blk t).view.read (Elt Ideal) (Cert.Gcn.biasRelu128 (F := Ideal) (V c main_v126) (V c main_v127)) := by
  refine (congrArg ((cfg9.win 2).cut (grid9.coords t))
    ((after9_2 V c t).trans (out9_2_eq (iblk9 V c 0 t) (iblk9 V c 1 t)))).trans ?_
  exact cut9_eq_read t (k9_pay1 (iblk9 V c 0 t) (iblk9 V c 1 t))
    (Cert.Gcn.biasRelu128 (F := Ideal) (V c main_v126) (V c main_v127)) fun y i h0 h1 =>
      tile9_point (iblk9 V c 0 t) (iblk9 V c 1 t) (V c main_v126) (V c main_v127) y i h1
        (iblk9_0_apply V c t y i h0 h1) (iblk9_1_apply V c t)

/-- An index of the output array is in point t's block iff each coordinate is in the block's range on its axis. -/
theorem mem_blk9 (t : Fin cfg9.N) (i : S100000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v128).slice (win9_2.rect t)).set ↔ _
  rw [View.set_slice_whole, Rect.mem_set_unit]
  exact Iff.rfl

/-- Every index of the output array is in some point's block: row r is in the block of point r / 5000. -/
theorem cover9 (i : S100000x128.Idx) : ∃ t : Fin cfg9.N, (cfg9.win 2).flush t = true ∧ i ∈ ((cfg9.win 2).blk t).view.set := by
  have hi0 : (i 0).val < 100000 := (i 0).isLt
  have hi1 : (i 1).val < 128 := (i 1).isLt
  have hN : cfg9.N = 20 := N_9
  have ht : (i 0).val / 5000 < cfg9.N := by rw [hN]; omega
  refine ⟨⟨(i 0).val / 5000, ht⟩, flush9_2 _, ?_⟩
  rw [mem_blk9]
  obtain ⟨-, -, -, -, e4, e5⟩ := idx9 ⟨(i 0).val / 5000, ht⟩
  intro a
  match a with
  | ⟨0, _⟩ =>
    show win9_2.index ⟨(i 0).val / 5000, ht⟩ (0 : Fin 2) * 5000 ≤ (i 0).val ∧ (i 0).val < win9_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win9_2.index ⟨(i 0).val / 5000, ht⟩ (1 : Fin 2) * 128 ≤ (i 1).val ∧ (i 1).val < win9_2.index ⟨(i 0).val / 5000, ht⟩ (1 : Fin 2) * 128 + 128
    rw [e5]; omega

/-- Region 9: the output array is the bias row added to every row of the input array, then max(., 0). -/
theorem region9 (c : Dev nD) :
    (dat9 (F := Ideal) V c).arrAt 2 cfg9.N = Cert.Gcn.biasRelu128 (F := Ideal) (V c main_v126) (V c main_v127) :=
  (dat9 (F := Ideal) V c).arrAt_eq_of_cover 2 (Cert.Gcn.biasRelu128 (F := Ideal) (V c main_v126) (V c main_v127))
    (fun t _ => flushed9_eq V c t) cover9

/-! ## Region 11 (64 features, no maximum) -/

/-- The body's one store over whole blocks leaves its payload. -/
theorem out11_2_eq (x0 : Vec Ideal S5000x64 .f32) (x1 : Vec Ideal S1x64 .f32) : out11_2 x0 x1 = k11_pay1 x0 x1 := by
  unfold out11_2
  rw [View.canon_unit_zero origin2, View.ld_unit_zero (S := S5000x64) origin2, View.ld_unit_zero (S := S1x64) origin2]

/-- The payload at (p, q): the tile's entry plus the row's entry q. -/
theorem k11_pay1_apply (x0 : Vec Ideal S5000x64 .f32) (x1 : Vec Ideal S1x64 .f32) (p : Fin 5000) (q : Fin 64) :
    k11_pay1 x0 x1 (ix2 p q) = x0 (ix2 p q) + x1 (ix2 (0 : Fin 1) q) := by
  unfold k11_pay1
  rw [shapeCast_self, shapeCast_self]
  rw [addf_apply, broadcastTo_1b_ab_apply]

/-- The printed index maps over the grid: the tile windows' block index is the point on the rows' axis, 0 on the
    columns'; the bias row's window stays at block (0, 0). -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- A tile written back through the output window at point t is the table G read through the point's block as soon as
    the tile's row p is the table's row 5000 t + p. -/
theorem cut11_eq_read (t : Fin cfg11.N) (X : Vec Ideal S5000x64 .f32) (G : S100000x64.Idx → Elt Ideal .f32)
    (h : ∀ (y : S5000x64.Idx) (i : S100000x64.Idx), (i 0).val = 5000 * t.val + (y 0).val → (i 1).val = (y 1).val → X y = G i) :
    (cfg11.win 2).cut (grid11.coords t) X = ((cfg11.win 2).blk t).view.read (Elt Ideal) G := by
  funext j
  rw [View.read_apply]
  refine h _ _ ?_ ?_
  · show win11_2.index t (0 : Fin 2) * 5000 + 1 * (j 0).val = 5000 * t.val + (j 0).val
    rw [(idx11 t).2.2.2.2.1]; omega
  · show win11_2.index t (1 : Fin 2) * 64 + 1 * (j 1).val = (j 1).val
    rw [(idx11 t).2.2.2.2.2]; omega

/-- The input tile at point t: its row p is row 5000 t + p of the region's input array. -/
theorem iblk11_0_apply (c : Dev nD) (t : Fin cfg11.N) (y : S5000x64.Idx) (i : S100000x64.Idx)
    (h0 : (i 0).val = 5000 * t.val + (y 0).val) (h1 : (i 1).val = (y 1).val) :
    (iblk11 V c 0 t : Vec Ideal S5000x64 .f32) y = (V c main_v142 : S100000x64.Idx → Elt Ideal .f32) i := by
  unfold iblk11
  rw [View.read_apply]
  show V c main_v142 _ = V c main_v142 i
  congr 1
  funext a
  apply Fin.ext
  match a with
  | ⟨0, _⟩ => show win11_0.index t (0 : Fin 2) * 5000 + 1 * (y 0).val = (i 0).val; rw [(idx11 t).1, h0]; omega
  | ⟨1, _⟩ => show win11_0.index t (1 : Fin 2) * 64 + 1 * (y 1).val = (i 1).val; rw [(idx11 t).2.1, h1]; omega

/-- The bias row's block at any point is the whole row. -/
theorem iblk11_1_apply (c : Dev nD) (t : Fin cfg11.N) (y : S1x64.Idx) :
    (iblk11 V c 1 t : Vec Ideal S1x64 .f32) y = (V c main_v143 : S1x64.Idx → Elt Ideal .f32) y := by
  unfold iblk11
  rw [View.read_apply]
  show V c main_v143 _ = V c main_v143 y
  congr 1
  funext a
  apply Fin.ext
  match a with
  | ⟨0, _⟩ => show win11_1.index t (0 : Fin 2) * 1 + 1 * (y 0).val = (y 0).val; rw [(idx11 t).2.2.1]; omega
  | ⟨1, _⟩ => show win11_1.index t (1 : Fin 2) * 64 + 1 * (y 1).val = (y 1).val; rw [(idx11 t).2.2.2.1]; omega

/-- One entry: when the tile's entry y is the array's entry i (same column) and the loaded row is the bias row,
    the payload at y is the specification's function at i. -/
theorem tile11_point (x0 : Vec Ideal S5000x64 .f32) (x1 : Vec Ideal S1x64 .f32)
    (A : S100000x64.Idx → Elt Ideal .f32) (b : S1x64.Idx → Elt Ideal .f32)
    (y : S5000x64.Idx) (i : S100000x64.Idx) (h1 : (i 1).val = (y 1).val)
    (hx0 : x0 y = A i) (hx1 : ∀ z, x1 z = b z) :
    k11_pay1 x0 x1 y = Cert.Gcn.bias64 (F := Ideal) A b i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext h1
  rw [k11_pay1_apply, bias64_apply, hx0, hx1]

/-- What point t writes back is the specification's function of the region's input arrays, read through the
    point's block. -/
theorem flushed11_eq (c : Dev nD) (t : Fin cfg11.N) :
    (dat11 (F := Ideal) V c).flushed 2 t
      = ((cfg11.win 2).blk t).view.read (Elt Ideal) (Cert.Gcn.bias64 (F := Ideal) (V c main_v142) (V c main_v143)) := by
  refine (congrArg ((cfg11.win 2).cut (grid11.coords t))
    ((after11_2 V c t).trans (out11_2_eq (iblk11 V c 0 t) (iblk11 V c 1 t)))).trans ?_
  exact cut11_eq_read t (k11_pay1 (iblk11 V c 0 t) (iblk11 V c 1 t))
    (Cert.Gcn.bias64 (F := Ideal) (V c main_v142) (V c main_v143)) fun y i h0 h1 =>
      tile11_point (iblk11 V c 0 t) (iblk11 V c 1 t) (V c main_v142) (V c main_v143) y i h1
        (iblk11_0_apply V c t y i h0 h1) (iblk11_1_apply V c t)

/-- An index of the output array is in point t's block iff each coordinate is in the block's range on its axis. -/
theorem mem_blk11 (t : Fin cfg11.N) (i : S100000x64.Idx) :
    i ∈ ((cfg11.win 2).blk t).view.set ↔ ∀ a : Fin 2, win11_2.index t a * S5000x64.size a ≤ (i a).val ∧ (i a).val < win11_2.index t a * S5000x64.size a + S5000x64.size a := by
  show i ∈ ((View.whole main_v144).slice (win11_2.rect t)).set ↔ _
  rw [View.set_slice_whole, Rect.mem_set_unit]
  exact Iff.rfl

/-- Every index of the output array is in some point's block: row r is in the block of point r / 5000. -/
theorem cover11 (i : S100000x64.Idx) : ∃ t : Fin cfg11.N, (cfg11.win 2).flush t = true ∧ i ∈ ((cfg11.win 2).blk t).view.set := by
  have hi0 : (i 0).val < 100000 := (i 0).isLt
  have hi1 : (i 1).val < 64 := (i 1).isLt
  have hN : cfg11.N = 20 := N_11
  have ht : (i 0).val / 5000 < cfg11.N := by rw [hN]; omega
  refine ⟨⟨(i 0).val / 5000, ht⟩, flush11_2 _, ?_⟩
  rw [mem_blk11]
  obtain ⟨-, -, -, -, e4, e5⟩ := idx11 ⟨(i 0).val / 5000, ht⟩
  intro a
  match a with
  | ⟨0, _⟩ =>
    show win11_2.index ⟨(i 0).val / 5000, ht⟩ (0 : Fin 2) * 5000 ≤ (i 0).val ∧ (i 0).val < win11_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win11_2.index ⟨(i 0).val / 5000, ht⟩ (1 : Fin 2) * 64 ≤ (i 1).val ∧ (i 1).val < win11_2.index ⟨(i 0).val / 5000, ht⟩ (1 : Fin 2) * 64 + 64
    rw [e5]; omega

/-- Region 11: the output array is the bias row added to every row of the input array. -/
theorem region11 (c : Dev nD) :
    (dat11 (F := Ideal) V c).arrAt 2 cfg11.N = Cert.Gcn.bias64 (F := Ideal) (V c main_v142) (V c main_v143) :=
  (dat11 (F := Ideal) V c).arrAt_eq_of_cover 2 (Cert.Gcn.bias64 (F := Ideal) (V c main_v142) (V c main_v143))
    (fun t _ => flushed11_eq V c t) cover11

end Cert.KernelIdeal.RegionValue

end
-- ==== Proof.LibKeepdims.lean ====
/-
  Two layout facts every sum taken with its axis kept (a column of row sums) needs, read at an index given by
  coordinates: a vector of length `a` laid as a column `[a, 1]` reads its entry `i` at `(i, u)`, and a column `[a, 1]`
  broadcast over `b` columns reads, at `(p, c)`, the column's entry `p`. They sit beside the library's row forms
  (a vector laid as a row `[1, a]`; a row broadcast over many rows).
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KRegDecodePair.lean ====
/-
  The decoder's arithmetic at one labelled pair.

  A tile of the decoder holds the two endpoints' encodings of 8000 pairs as two [8000, 64] blocks. At pair p of the
  tile it multiplies the encodings feature by feature, sums the 64 products (a lane sum whose accumulator is the
  neutral zero), lays the sums as a column and applies the logistic function. The specification scores pair e of all
  400000 by 1 / (1 + exp (-(0 + sum of the 64 products))) with the host's operations. At the extended reals the lane sum
  and the host's sum are the same finite sum over the 64 features, the initial value 0 adds nothing, the word
  0x3F800000 is 1, and the logistic function is by definition 1 / (1 + exp (-s)): both read the one function
  `pairScore` below.
-/
import proofs.«125150_j11227044512214_1_alg».proof.Proof.Gen.KernelIdeal.Skeleton
import proofs.«125150_j11227044512214_1_alg».proof.Proof.Spec
import proofs.«125150_j11227044512214_1_alg».proof.Proof.LibKeepdims
import Idealize.ShloMosaic.Lib.IdealHost
import Idealize.ShloMosaic.Lib.Pipeline.Value

noncomputable section

open scoped BigOperators

namespace Cert.KernelIdeal.RegionValue

open Idealize.ShloMosaic Idealize.ShloMosaic.ValueIdx Cert.KernelIdeal Cert.KernelIdeal.Gen

/-- The score of pair `e` from the two arrays of endpoint encodings: the logistic function of the sum over the 64
    features of the products of the two encodings. -/
def pairScore (a b : (⟨2, ![400000, 64]⟩ : Shape).Idx → EReal) (e : Fin 400000) : EReal :=
  Ideal.logistic (∑ k : Fin 64, a (ix2 e k) * b (ix2 e k))

/-- The kernel's lane sum over the 64 features of a [8000, 64] tile, at pair `p`: the finite sum of row `p` (the
    accumulator is the word 0, the sum's neutral element, which the reading drops). -/
theorem laneSum_apply (v : FVec Ideal S8000x64 .f32) (hφ : FKind.Formats .f32)
    (hacc : (0x00000000#32 : BitVec 32) = FKind.add.neutral .f32 hφ) (p : Fin 8000) :
    multiReduction (F := Ideal) .add [1] S8000 v 0x00000000#32 reduces_S8000x64_S8000 hφ hacc (ix1 p)
      = ∑ k : Fin 64, v (ix2 p k) :=
  (Ideal.multiReduction_add_single v 0x00000000#32 reduces_S8000x64_S8000 hφ hacc (ix1 p)).trans
    (Finset.sum_congr rfl fun k _ => congrArg v (funext fun a => Fin.ext (by
      match a with
      | ⟨0, _⟩ => rfl
      | ⟨1, _⟩ => rfl)))

/-- What the tile's body stores at pair `p` of the tile (whatever the unit coordinate): the logistic function of the
    sum of the products of the two loaded blocks' rows `p`. -/
theorem pay_apply (x0 x1 : Vec Ideal S8000x64 .f32) (p : Fin 8000) (u : Fin 1) :
    k12_pay1 (F := Ideal) x0 x1 (ix2 p u) = Ideal.logistic (∑ k : Fin 64, x0 (ix2 p k) * x1 (ix2 p k)) := by
  unfold k12_pay1
  refine congrArg Ideal.logistic ?_
  refine (shapeCast_a_a1_apply _ shapeCasts_S8000_S8000x1 p u).trans ?_
  refine (laneSum_apply _ _ _ p).trans ?_
  refine Finset.sum_congr rfl fun k _ => ?_
  rw [shapeCast_self, shapeCast_self]
  rfl

/-- Summing a [400000, 64] array over its second axis leaves a [400000] vector. -/
theorem reduces_pairs : S400000x64.Reduces [1] S400000 := by decide

/-- The host's sum over the 64 features of a [400000, 64] array, at pair `e`: the initial value plus the finite sum
    of row `e`. -/
theorem hostSum_apply (v : FVec Ideal S400000x64 .f32) (h' : S400000x64.ReducesTo [1] S400000) (init : EReal)
    (e : Fin 400000) :
    Ideal.hostReduceAdd h' v init (ix1 e) = init + ∑ k : Fin 64, v (ix2 e k) := by
  refine (Ideal.hostReduceAdd_single h' reduces_pairs v init (ix1 e)).trans ?_
  refine congrArg (init + ·) ?_
  refine Finset.sum_congr rfl fun k _ => ?_
  refine congrArg v (funext fun a => Fin.ext ?_)
  match a with
  | ⟨0, _⟩ => rfl
  | ⟨1, _⟩ => rfl

/-- The host's exponential and negation read at an index. -/
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-- The specification's score at pair `e` is `pairScore`: the broadcast words are 1 and 0, the host's sum is the
    finite sum, and 1 / (1 + exp (-s)) is the logistic function's definition. -/
theorem score_apply (a b : Cert.Gcn.Arr Ideal S400000x64 .f32) (e : Fin 400000) :
    Cert.Gcn.score (F := Ideal) a b (ix1 e) = pairScore a b e := by
  unfold Cert.Gcn.score pairScore
  rw [hostDivf_apply, addf_apply, hostExp_apply, hostNegf_apply, hostReduceAdd_apply, broadcastInDim_scalar_apply,
    constant_apply, constant_apply, hostSum_apply, Ideal.ofBits_one_f32, Ideal.ofBits_zero_f32, zero_add]
  rfl

end Cert.KernelIdeal.RegionValue

end
-- ==== Proof.KRegDecodeTiles.lean ====
/-
  The decoder region, from tiles to the array.

  Grid point t of the decoder (50 points) reads rows 8000 t ... 8000 t + 7999 of the two [400000, 64] arrays of endpoint
  encodings and writes rows 8000 t ... 8000 t + 7999 of the [400000, 1] output column. Every tile's index map is
  (t, 0), so row p of a tile is row 8000 t + p of its array on both inputs and on the output; what point t writes back is
  therefore the tile of ONE function of the output's index, the column of the pairs' scores, and the 50 tiles cover the
  400000 rows (row r lies in tile r / 8000). Flattening the column gives the specification's vector of scores.
-/
import proofs.«125150_j11227044512214_1_alg».proof.Proof.Gen.KernelIdeal.Frame
import proofs.«125150_j11227044512214_1_alg».proof.Proof.KRegDecodePair
import Idealize.ShloMosaic.Lib.Pipeline.Value

noncomputable section

open scoped BigOperators

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole-tile access, as the constant function. -/
theorem zeroOff : (![0, 0] : Fin 2 → Nat) = fun _ => 0 := funext fun a => by fin_cases a <;> rfl

/-- The column of scores: entry (e, 0) is the score of pair e. -/
def scoreCol (a b : (⟨2, ![400000, 64]⟩ : Shape).Idx → EReal) : (⟨2, ![400000, 1]⟩ : Shape).Idx → EReal :=
  fun i => pairScore a b (i 0)

/-- The three index maps at point t: tile t along the pairs, tile 0 along the features (decided over the 50 points). -/
theorem tileIndex : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- What a write-back moves of a tile's contents is the contents (the tiles are never cut at the array's end). -/
theorem cut_apply (t : Fin cfg12.N) (X : Vec Ideal S8000x1 .f32) (j : S8000x1.Idx) :
    (cfg12.win 2).cut (grid12.coords t) X j = X j := rfl

/-- Row p of the first input's tile at point t is row 8000 t + p of its array. -/
theorem read_in0 (t : Fin cfg12.N) (A : S400000x64.Idx → EReal) (p : Fin 8000) (k : Fin 64)
    (hp : 8000 * t.val + p.val < 400000) :
    ((cfg12.win 0).blk t).view.read (Elt Ideal) A (ix2 p k) = A (ix2 ⟨8000 * t.val + p.val, hp⟩ k) := by
  obtain ⟨e0, e1, -, -, -, -⟩ := tileIndex t
  rw [View.read_apply]
  show A (((cfg12.win 0).blk t).view.emb (ix2 p k)) = _
  refine congrArg A (funext fun a => Fin.ext ?_)
  match a with
  | ⟨0, _⟩ => show win12_0.index t (0 : Fin 2) * 8000 + 1 * p.val = 8000 * t.val + p.val; omega
  | ⟨1, _⟩ => show win12_0.index t (1 : Fin 2) * 64 + 1 * k.val = k.val; omega

/-- Row p of the second input's tile at point t is row 8000 t + p of its array. -/
theorem read_in1 (t : Fin cfg12.N) (A : S400000x64.Idx → EReal) (p : Fin 8000) (k : Fin 64)
    (hp : 8000 * t.val + p.val < 400000) :
    ((cfg12.win 1).blk t).view.read (Elt Ideal) A (ix2 p k) = A (ix2 ⟨8000 * t.val + p.val, hp⟩ k) := by
  obtain ⟨-, -, e0, e1, -, -⟩ := tileIndex t
  rw [View.read_apply]
  show A (((cfg12.win 1).blk t).view.emb (ix2 p k)) = _
  refine congrArg A (funext fun a => Fin.ext ?_)
  match a with
  | ⟨0, _⟩ => show win12_1.index t (0 : Fin 2) * 8000 + 1 * p.val = 8000 * t.val + p.val; omega
  | ⟨1, _⟩ => show win12_1.index t (1 : Fin 2) * 64 + 1 * k.val = k.val; omega

/-- Row p of the output's tile at point t is row 8000 t + p of the output column. -/
theorem read_out (t : Fin cfg12.N) (G : S400000x1.Idx → EReal) (p : Fin 8000) (u : Fin 1)
    (hp : 8000 * t.val + p.val < 400000) :
    ((cfg12.win 2).blk t).view.read (Elt Ideal) G (ix2 p u) = G (ix2 ⟨8000 * t.val + p.val, hp⟩ u) := by
  obtain ⟨-, -, -, -, e0, e1⟩ := tileIndex t
  rw [View.read_apply]
  show G (((cfg12.win 2).blk t).view.emb (ix2 p u)) = _
  refine congrArg G (funext fun a => Fin.ext ?_)
  match a with
  | ⟨0, _⟩ => show win12_2.index t (0 : Fin 2) * 8000 + 1 * p.val = 8000 * t.val + p.val; omega
  | ⟨1, _⟩ => show win12_2.index t (1 : Fin 2) * 1 + 1 * u.val = u.val; omega

/-- The two input tiles at point t, read at row p: rows 8000 t + p of the arrays the region finds. -/
theorem iblk0_apply (c : Dev nD) (t : Fin cfg12.N) (p : Fin 8000) (k : Fin 64) (hp : 8000 * t.val + p.val < 400000) :
    (iblk12 (F := Ideal) V c 0 t : Vec Ideal S8000x64 .f32) (ix2 p k) = (V c main_v153 : S400000x64.Idx → EReal) (ix2 ⟨8000 * t.val + p.val, hp⟩ k) :=
  read_in0 t (V c main_v153) p k hp
theorem iblk1_apply (c : Dev nD) (t : Fin cfg12.N) (p : Fin 8000) (k : Fin 64) (hp : 8000 * t.val + p.val < 400000) :
    (iblk12 (F := Ideal) V c 1 t : Vec Ideal S8000x64 .f32) (ix2 p k) = (V c main_v162 : S400000x64.Idx → EReal) (ix2 ⟨8000 * t.val + p.val, hp⟩ k) :=
  read_in1 t (V c main_v162) p k hp

/-- WHAT POINT t WRITES BACK is tile t of the column of scores of the two arrays the region finds. -/
theorem flushed_eq (c : Dev nD) (t : Fin cfg12.N) :
    (dat12 (F := Ideal) V c).flushed 2 t
      = ((cfg12.win 2).blk t).view.read (Elt Ideal) (scoreCol (V c main_v153) (V c main_v162)) := by
  show (cfg12.win 2).cut (grid12.coords t) ((dat12 V c).after 2 t) = _
  rw [after12_2]
  unfold out12_2
  rw [View.canon_unit_zero zeroOff]
  simp only [View.ld_unit_zero (S := S8000x64) zeroOff]
  refine funext fun (j : S8000x1.Idx) => ?_
  obtain ⟨p, u, rfl⟩ : ∃ (p : Fin 8000) (u : Fin 1), j = ix2 p u := ⟨j 0, j 1, eq_ix2 j⟩
  have hN : cfg12.N = 50 := N_12
  have hp : 8000 * t.val + p.val < 400000 := by have := t.isLt; have := p.isLt; omega
  refine (cut_apply t (k12_pay1 (iblk12 V c 0 t) (iblk12 V c 1 t)) (ix2 p u)).trans ?_
  refine (pay_apply (iblk12 V c 0 t) (iblk12 V c 1 t) p u).trans ?_
  refine Eq.trans ?_ (read_out t (scoreCol (V c main_v153) (V c main_v162)) p u hp).symm
  unfold scoreCol pairScore
  refine congrArg Ideal.logistic (Finset.sum_congr rfl fun k _ => ?_)
  rw [iblk0_apply V c t p k hp, iblk1_apply V c t p k hp]

/-- An index of the output column is in point t's tile iff each coordinate is in the tile's range on its axis. -/
theorem mem_tile (t : Fin cfg12.N) (i : S400000x1.Idx) :
    i ∈ ((cfg12.win 2).blk t).view.set
      ↔ ∀ a : Fin 2, win12_2.index t a * S8000x1.size a ≤ (i a).val ∧ (i a).val < win12_2.index t a * S8000x1.size a + S8000x1.size a := by
  show i ∈ ((View.whole main_v163).slice (win12_2.rect t)).set ↔ _
  rw [View.set_slice_whole, Rect.mem_set_unit]
  exact Iff.rfl

/-- The 50 tiles cover the column: row r lies in tile r / 8000. -/
theorem covered (i : S400000x1.Idx) :
    ∃ t : Fin cfg12.N, (cfg12.win 2).flush t = true ∧ i ∈ ((cfg12.win 2).blk t).view.set := by
  have hN : cfg12.N = 50 := N_12
  have hi0 : (i 0).val < 400000 := (i 0).isLt
  have hi1 : (i 1).val < 1 := (i 1).isLt
  refine ⟨⟨(i 0).val / 8000, by omega⟩, flush12_2 _, ?_⟩
  rw [mem_tile]
  obtain ⟨-, -, -, -, e0, e1⟩ := tileIndex ⟨(i 0).val / 8000, by omega⟩
  intro a
  match a with
  | ⟨0, _⟩ =>
    show win12_2.index ⟨(i 0).val / 8000, _⟩ (0 : Fin 2) * 8000 ≤ (i 0).val
      ∧ (i 0).val < win12_2.index ⟨(i 0).val / 8000, _⟩ (0 : Fin 2) * 8000 + 8000
    rw [e0]
    show (i 0).val / 8000 * 8000 ≤ (i 0).val ∧ (i 0).val < (i 0).val / 8000 * 8000 + 8000
    omega
  | ⟨1, _⟩ =>
    show win12_2.index ⟨(i 0).val / 8000, _⟩ (1 : Fin 2) * 1 ≤ (i 1).val
      ∧ (i 1).val < win12_2.index ⟨(i 0).val / 8000, _⟩ (1 : Fin 2) * 1 + 1
    rw [e1]
    omega

/-- THE OUTPUT COLUMN after the region: the column of scores of the two arrays the region finds. -/
theorem column_eq (c : Dev nD) :
    (dat12 (F := Ideal) V c).arrAt 2 cfg12.N = scoreCol (V c main_v153) (V c main_v162) :=
  (dat12 V c).arrAt_eq_of_cover 2 (scoreCol (V c main_v153) (V c main_v162)) (fun t _ => flushed_eq V c t) covered

/-- The column of scores, flattened, is the specification's vector of scores. -/
theorem flatten_scoreCol (a b : Cert.Gcn.Arr Ideal S400000x64 .f32) :
    shapeCast S400000 (scoreCol a b) shapeCasts_S400000x1_S400000 = Cert.Gcn.score (F := Ideal) a b := by
  refine funext fun (j : S400000.Idx) => ?_
  obtain ⟨e, rfl⟩ : ∃ e : Fin 400000, j = ix1 e := ⟨j 0, eq_ix1 j⟩
  rw [score_apply]
  refine shapeCast_apply (scoreCol a b) shapeCasts_S400000x1_S400000 (ix1 e) (ix2 e (0 : Fin 1)) ?_
  rw [Shape.rowMajor_val_two, Shape.rowMajor_val_one]
  show e.val * 1 + 0 = e.val
  omega

end Cert.KernelIdeal.RegionValue

end
-- ==== Proof.KRegDecode.lean ====
/-
  The decoder region. Each tile of 8000 labelled pairs multiplies the two endpoints' encodings feature by feature,
  sums the 64 products of a pair, and applies 1 / (1 + exp(-s)); the tiles together, read as a flat vector, are the
  pairs' scores.
-/
import proofs.«125150_j11227044512214_1_alg».proof.Proof.Gen.KernelIdeal.Frame
import proofs.«125150_j11227044512214_1_alg».proof.Proof.Spec
import proofs.«125150_j11227044512214_1_alg».proof.Proof.LibKeepdims
import proofs.«125150_j11227044512214_1_alg».proof.Proof.KRegDecodeTiles

noncomputable section

namespace Cert.KernelIdeal.RegionValue

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- Region 12: the output column, flattened, is the score of every labelled pair. -/
theorem region12 (c : Dev nD) :
    shapeCast S400000 ((dat12 (F := Ideal) V c).arrAt 2 cfg12.N) shapeCasts_S400000x1_S400000
      = Cert.Gcn.score (F := Ideal) (V c main_v153) (V c main_v162) :=
  (congrArg (fun x => shapeCast S400000 x shapeCasts_S400000x1_S400000) (column_eq V c)).trans
    (flatten_scoreCol (V c main_v153) (V c main_v162))

end Cert.KernelIdeal.RegionValue

end
-- ==== Proof.LibVecRow.lean ====
/-
  A vector laid as a one-row matrix, two ways.

  A vector of length a can be turned into a matrix [1, a] by a reshape or by a broadcast that puts the vector's axis
  on the matrix's second axis. Both matrices read, at (u, i), the vector's entry i: they are one array. Stated over
  the library only, for any element type.
-/
import Idealize.ShloMosaic.Lib.ValueLayout

noncomputable section

namespace Cert.LibVecRow

open Idealize.ShloMosaic Idealize.ShloMosaic.ValueIdx

/-- A vector reshaped to a one-row matrix is the vector broadcast along the second axis: both read, at (u, i),
    the vector's entry i. -/
theorem shapeCast_vec_eq_broadcastInDim {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  symm
  refine broadcastInDim_apply ![1] hb x (ix2 u i) (ix1 i) ?_
  intro c
  have hc : c = 0 := Subsingleton.elim _ _
  subst hc
  show i.val = if a = 1 then 0 else i.val
  have := i.isLt
  split <;> omega

end Cert.LibVecRow

end
-- ==== Proof.KHost.lean ====
/-
  The host stretches of the kernel's program, each read over an arbitrary valuation W of the buffers: what the
  stretch leaves in the buffers it writes, as the specification's functions of what W holds, and that it leaves the
  buffers it does not write alone.
-/
import proofs.«125150_j11227044512214_1_alg».proof.Proof.Gen.KernelIdeal.Frame
import proofs.«125150_j11227044512214_1_alg».proof.Proof.Spec
import proofs.«125150_j11227044512214_1_alg».proof.Proof.LibVecRow

noncomputable section

namespace Cert.KernelIdeal.HostValue

open Idealize.ShloMosaic Idealize.SL.Sem Cert.KernelIdeal Cert.KernelIdeal.Gen

variable (W : Valuation τ sig (Elt Ideal))

/-- The argument arrays. -/
def args : List (Ref sig .tc) := [main_arg0, main_arg1, main_arg2, main_arg3, main_arg4, main_arg5, main_arg6, main_arg7, main_arg8, main_arg9]
/-- The buffers every later stretch and region reads and none writes: the arguments, the edges' sources and targets, the edges' norms. -/
def carried : List (Ref sig .tc) := args ++ [main_v5, main_v6, main_v32]

/-! ## What each stretch writes

Every operation of a stretch writes exactly its result buffer. Listing the result buffers of a stretch turns "this
stretch leaves buffer b alone" into "b is not in the list", a comparison of references. -/

/-- One operation's written set is a singleton; it lies in the listed references because its element is listed. -/
local macro "written_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

/-- The buffers `hostOps0` writes, in order. -/
abbrev wr0 : List (Ref sig .tc) := [main_v0, main_v1, main_v2, main_v3, main_v4, main_v5, main_v6, main_cst, main_v7, main_v8, main_cst_0, main_v9, main_v10, main_v11, main_cst_1, main_v12, main_v13, main_v14, main_cst_2, main_v15]
theorem wr0_sub : (hostOps0 : List (HloOp τ sig (Elt Ideal))).Forall fun op => op.writes ⊆ (wr0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> written_one

/-- The buffers `hostOps0_1` writes, in order. -/
abbrev wr0_1 : List (Ref sig .tc) := [main_v16]
theorem wr0_1_sub : (hostOps0_1 : List (HloOp τ sig (Elt Ideal))).Forall fun op => op.writes ⊆ (wr0_1.map (Proc.devRef (τ := τ) .tc)).toFinset := by
  simp only [List.Forall]
  written_one

/-- The buffers `hostOps0_2` writes, in order. -/
abbrev wr0_2 : List (Ref sig .tc) := [main_c, main_v17, main_v18, main_c_3, main_v19, main_v20, main_v21, main_v22, main_v23, main_v24, main_c_4, main_v25, main_v26, main_c_5, main_v27, main_v28, main_v29, main_v30, main_v31, main_v32]
theorem wr0_2_sub : (hostOps0_2 : List (HloOp τ sig (Elt Ideal))).Forall fun op => op.writes ⊆ (wr0_2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> written_one

/-- The buffers `hostOps1` writes, in order. -/
abbrev wr1 : List (Ref sig .tc) := [main_v34, main_c_6, main_v35, main_v36, main_c_7, main_v37, main_v38, main_v39, main_v40, main_v41, main_v42, main_v43, main_cst_8, main_v44, main_v45, main_v46, main_v47]
theorem wr1_sub : (hostOps1 : List (HloOp τ sig (Elt Ideal))).Forall fun op => op.writes ⊆ (wr1.map (Proc.devRef (τ := τ) .tc)).toFinset := by
  simp only [List.Forall]
  refine ⟨?_, ?_, ?_, ?_, ?_, ?_, ?_, ?_, ?_, ?_, ?_, ?_, ?_, ?_, ?_, ?_, ?_⟩ <;> written_one

/-- The buffers `hostOps2` writes, in order. -/
abbrev wr2 : List (Ref sig .tc) := [main_v49, main_v50, main_v51, main_v52]
theorem wr2_sub : (hostOps2 : List (HloOp τ sig (Elt Ideal))).Forall fun op => op.writes ⊆ (wr2.map (Proc.devRef (τ := τ) .tc)).toFinset := by
  simp only [List.Forall]
  refine ⟨?_, ?_, ?_, ?_⟩ <;> written_one

/-- The buffers `hostOps3` writes, in order. -/
abbrev wr3 : List (Ref sig .tc) := [main_v54, main_c_9, main_v55, main_v56, main_c_10, main_v57, main_v58, main_v59, main_v60, main_v61, main_v62, main_v63, main_cst_11, main_v64, main_v65, main_v66, main_v67]
theorem wr3_sub : (hostOps3 : List (HloOp τ sig (Elt Ideal))).Forall fun op => op.writes ⊆ (wr3.map (Proc.devRef (τ := τ) .tc)).toFinset := by
  simp only [List.Forall]
  refine ⟨?_, ?_, ?_, ?_, ?_, ?_, ?_, ?_, ?_, ?_, ?_, ?_, ?_, ?_, ?_, ?_, ?_⟩ <;> written_one

/-- The buffers `hostOps4` writes, in order. -/
abbrev wr4 : List (Ref sig .tc) := [main_v69, main_v70, main_v71, main_v72]
theorem wr4_sub : (hostOps4 : List (HloOp τ sig (Elt Ideal))).Forall fun op => op.writes ⊆ (wr4.map (Proc.devRef (τ := τ) .tc)).toFinset := by
  simp only [List.Forall]
  refine ⟨?_, ?_, ?_, ?_⟩ <;> written_one

/-- The buffers `hostOps5` writes, in order. -/
abbrev wr5 : List (Ref sig .tc) := [main_v74, main_c_12, main_v75, main_v76, main_c_13, main_v77, main_v78, main_v79, main_v80, main_v81, main_v82, main_v83, main_cst_14, main_v84, main_v85, main_v86, main_v87]
theorem wr5_sub : (hostOps5 : List (HloOp τ sig (Elt Ideal))).Forall fun op => op.writes ⊆ (wr5.map (Proc.devRef (τ := τ) .tc)).toFinset := by
  simp only [List.Forall]
  refine ⟨?_, ?_, ?_, ?_, ?_, ?_, ?_, ?_, ?_, ?_, ?_, ?_, ?_, ?_, ?_, ?_, ?_⟩ <;> written_one

/-- The buffers `hostOps6` writes, in order. -/
abbrev wr6 : List (Ref sig .tc) := [main_v89, main_v90, main_v91, main_v92]
theorem wr6_sub : (hostOps6 : List (HloOp τ sig (Elt Ideal))).Forall fun op => op.writes ⊆ (wr6.map (Proc.devRef (τ := τ) .tc)).toFinset := by
  simp only [List.Forall]
  refine ⟨?_, ?_, ?_, ?_⟩ <;> written_one

/-- The buffers `hostOps7` writes, in order. -/
abbrev wr7 : List (Ref sig .tc) := [main_v94, main_c_15, main_v95, main_v96, main_c_16, main_v97, main_v98, main_v99, main_v100, main_v101, main_v102, main_v103, main_cst_17, main_v104, main_v105, main_v106, main_v107]
theorem wr7_sub : (hostOps7 : List (HloOp τ sig (Elt Ideal))).Forall fun op => op.writes ⊆ (wr7.map (Proc.devRef (τ := τ) .tc)).toFinset := by
  simp only [List.Forall]
  refine ⟨?_, ?_, ?_, ?_, ?_, ?_, ?_, ?_, ?_, ?_, ?_, ?_, ?_, ?_, ?_, ?_, ?_⟩ <;> written_one

/-- The buffers `hostOps8` writes, in order. -/
abbrev wr8 : List (Ref sig .tc) := [main_v109, main_v110, main_v111, main_v112]
theorem wr8_sub : (hostOps8 : List (HloOp τ sig (Elt Ideal))).Forall fun op => op.writes ⊆ (wr8.map (Proc.devRef (τ := τ) .tc)).toFinset := by
  simp only [List.Forall]
  refine ⟨?_, ?_, ?_, ?_⟩ <;> written_one

/-- The buffers `hostOps9` writes, in order. -/
abbrev wr9 : List (Ref sig .tc) := [main_v114, main_c_18, main_v115, main_v116, main_c_19, main_v117, main_v118, main_v119, main_v120, main_v121, main_v122, main_v123, main_cst_20, main_v124, main_v125, main_v126, main_v127]
theorem wr9_sub : (hostOps9 : List (HloOp τ sig (Elt Ideal))).Forall fun op => op.writes ⊆ (wr9.map (Proc.devRef (τ := τ) .tc)).toFinset := by
  simp only [List.Forall]
  refine ⟨?_, ?_, ?_, ?_, ?_, ?_, ?_, ?_, ?_, ?_, ?_, ?_, ?_, ?_, ?_, ?_, ?_⟩ <;> written_one

/-- The buffers `hostOps11` writes, in order. -/
abbrev wr11 : List (Ref sig .tc) := [main_v130, main_c_21, main_v131, main_v132, main_c_22, main_v133, main_v134, main_v135, main_v136, main_v137, main_v138, main_v139, main_cst_23, main_v140, main_v141, main_v142, main_v143]
theorem wr11_sub : (hostOps11 : List (HloOp τ sig (Elt Ideal))).Forall fun op => op.writes ⊆ (wr11.map (Proc.devRef (τ := τ) .tc)).toFinset := by
  simp only [List.Forall]
  refine ⟨?_, ?_, ?_, ?_, ?_, ?_, ?_, ?_, ?_, ?_, ?_, ?_, ?_, ?_, ?_, ?_, ?_⟩ <;> written_one

/-- The buffers `hostOps12` writes, in order. -/
abbrev wr12 : List (Ref sig .tc) := [main_v145, main_v146, main_c_24, main_v147, main_v148, main_c_25, main_v149, main_v150, main_v151, main_v152, main_v153, main_v154, main_v155, main_c_26, main_v156, main_v157, main_c_27, main_v158, main_v159, main_v160, main_v161, main_v162]
theorem wr12_sub : (hostOps12 : List (HloOp τ sig (Elt Ideal))).Forall fun op => op.writes ⊆ (wr12.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> written_one

/-- The buffers `hostOps13` writes, in order. -/
abbrev wr13 : List (Ref sig .tc) := [main_v164]
theorem wr13_sub : (hostOps13 : List (HloOp τ sig (Elt Ideal))).Forall fun op => op.writes ⊆ (wr13.map (Proc.devRef (τ := τ) .tc)).toFinset := by
  simp only [List.Forall]
  written_one

/-! ## The first three stretches: the edges and their norms -/

/-! ### The three stretches one at a time

The first stretch builds the edges (sources, targets, weights), the nodes' degrees, and the three operands of the
choice "d^(-1/2) where d is positive, 0 elsewhere"; the second stretch is that choice; the third looks d^(-1/2) up at
every edge's source and target and multiplies. Each is read over a valuation that is a variable. -/

variable (V : Valuation τ sig (Elt Ideal))

theorem pre_sources : StableHlo.after hostOps0 W (Proc.devRef .tc main_v5) = Cert.Gcn.sources (F := Ideal) (W (Proc.devRef .tc main_arg1)) := by
  after_results_simp
  rfl
theorem pre_targets : StableHlo.after hostOps0 W (Proc.devRef .tc main_v6) = Cert.Gcn.targets (F := Ideal) (W (Proc.devRef .tc main_arg1)) := by
  after_results_simp
  rfl
theorem pre_weights : StableHlo.after hostOps0 W (Proc.devRef .tc main_v8) = Cert.Gcn.weights (F := Ideal) (W (Proc.devRef .tc main_arg2)) := by
  after_results_simp
  rfl
/-- The three operands of the choice, chosen among: d^(-1/2) where the degree d is positive, 0 elsewhere. -/
theorem pre_dinv : select (StableHlo.after hostOps0 W (Proc.devRef .tc main_v13)) (StableHlo.after hostOps0 W (Proc.devRef .tc main_v14)) (StableHlo.after hostOps0 W (Proc.devRef .tc main_v15))
    = Cert.Gcn.invSqrt (F := Ideal) (Cert.Gcn.degree (Cert.Gcn.targets (W (Proc.devRef .tc main_arg1))) (Cert.Gcn.weights (W (Proc.devRef .tc main_arg2)))) := by
  after_results_simp
  rfl

/-- The second stretch is the choice. -/
theorem mid_dinv : StableHlo.after hostOps0_1 V (Proc.devRef .tc main_v16) = select (V (Proc.devRef .tc main_v13)) (V (Proc.devRef .tc main_v14)) (V (Proc.devRef .tc main_v15)) := by
  after_results_simp
  rfl
theorem mid_keep (r : Ref sig .tc) (hr : r ∉ wr0_1) : StableHlo.after hostOps0_1 V (Proc.devRef .tc r) = V (Proc.devRef .tc r) :=
  StableHlo.after_of_writes_sub hostOps0_1 V wr0_1_sub hr

/-- The third stretch normalises every edge from the nodes' d^(-1/2). -/
theorem post_norm : StableHlo.after hostOps0_2 V (Proc.devRef .tc main_v32)
    = Cert.Gcn.normOf (F := Ideal) (V (Proc.devRef .tc main_v16)) (V (Proc.devRef .tc main_v5)) (V (Proc.devRef .tc main_v6)) (V (Proc.devRef .tc main_v8)) := by
  after_results_simp
  rfl

/-! ### The three stretches together -/

theorem norm_sources : StableHlo.after hostOps0_2 (StableHlo.after hostOps0_1 (StableHlo.after hostOps0 W)) (Proc.devRef .tc main_v5) = Cert.Gcn.sources (F := Ideal) (W (Proc.devRef .tc main_arg1)) := by
  refine (StableHlo.after_of_writes_sub hostOps0_2 _ wr0_2_sub (by decide)).trans ?_
  refine (StableHlo.after_of_writes_sub hostOps0_1 _ wr0_1_sub (by decide)).trans ?_
  exact pre_sources W
theorem norm_targets : StableHlo.after hostOps0_2 (StableHlo.after hostOps0_1 (StableHlo.after hostOps0 W)) (Proc.devRef .tc main_v6) = Cert.Gcn.targets (F := Ideal) (W (Proc.devRef .tc main_arg1)) := by
  refine (StableHlo.after_of_writes_sub hostOps0_2 _ wr0_2_sub (by decide)).trans ?_
  refine (StableHlo.after_of_writes_sub hostOps0_1 _ wr0_1_sub (by decide)).trans ?_
  exact pre_targets W
theorem norm_norm : StableHlo.after hostOps0_2 (StableHlo.after hostOps0_1 (StableHlo.after hostOps0 W)) (Proc.devRef .tc main_v32)
    = Cert.Gcn.edgeNorm (F := Ideal) (Cert.Gcn.sources (W (Proc.devRef .tc main_arg1))) (Cert.Gcn.targets (W (Proc.devRef .tc main_arg1))) (Cert.Gcn.weights (W (Proc.devRef .tc main_arg2))) := by
  rw [post_norm, mid_dinv, mid_keep _ main_v5 (by decide), mid_keep _ main_v6 (by decide), mid_keep _ main_v8 (by decide),
    pre_dinv, pre_sources, pre_targets, pre_weights]
  rfl
theorem norm_keep (b : Ref sig .tc) (hb : b ∈ args) : StableHlo.after hostOps0_2 (StableHlo.after hostOps0_1 (StableHlo.after hostOps0 W)) (Proc.devRef .tc b) = W (Proc.devRef .tc b) := by
  refine (StableHlo.after_of_writes_sub hostOps0_2 _ wr0_2_sub ((by decide : ∀ r ∈ args, r ∉ wr0_2) b hb)).trans ?_
  refine (StableHlo.after_of_writes_sub hostOps0_1 _ wr0_1_sub ((by decide : ∀ r ∈ args, r ∉ wr0_1) b hb)).trans ?_
  exact StableHlo.after_of_writes_sub hostOps0 W wr0_sub ((by decide : ∀ r ∈ args, r ∉ wr0) b hb)

/-! ## The aggregation stretches -/

theorem agg1_out : StableHlo.after hostOps1 W (Proc.devRef .tc main_v46) = Cert.Gcn.aggregate128 (F := Ideal) (W (Proc.devRef .tc main_v32)) (W (Proc.devRef .tc main_v5)) (W (Proc.devRef .tc main_v6)) (W (Proc.devRef .tc main_v33)) := by
  after_results_simp
  rfl
theorem agg1_row : StableHlo.after hostOps1 W (Proc.devRef .tc main_v47) = Cert.Gcn.row128 (F := Ideal) (W (Proc.devRef .tc main_arg5)) := by
  after_results_simp
  exact Cert.LibVecRow.shapeCast_vec_eq_broadcastInDim (W (Proc.devRef .tc main_arg5)) _ _
theorem keep1 (b : Ref sig .tc) (hb : b ∈ carried) : StableHlo.after hostOps1 W (Proc.devRef .tc b) = W (Proc.devRef .tc b) := by
  exact StableHlo.after_of_writes_sub hostOps1 W wr1_sub ((by decide : ∀ r ∈ carried, r ∉ wr1) b hb)

theorem agg3_out : StableHlo.after hostOps3 W (Proc.devRef .tc main_v66) = Cert.Gcn.aggregate128 (F := Ideal) (W (Proc.devRef .tc main_v32)) (W (Proc.devRef .tc main_v5)) (W (Proc.devRef .tc main_v6)) (W (Proc.devRef .tc main_v53)) := by
  after_results_simp
  rfl
theorem agg3_row : StableHlo.after hostOps3 W (Proc.devRef .tc main_v67) = Cert.Gcn.row128 (F := Ideal) (W (Proc.devRef .tc main_v52)) := by
  after_results_simp
  exact Cert.LibVecRow.shapeCast_vec_eq_broadcastInDim (W (Proc.devRef .tc main_v52)) _ _
theorem keep3 (b : Ref sig .tc) (hb : b ∈ carried) : StableHlo.after hostOps3 W (Proc.devRef .tc b) = W (Proc.devRef .tc b) := by
  exact StableHlo.after_of_writes_sub hostOps3 W wr3_sub ((by decide : ∀ r ∈ carried, r ∉ wr3) b hb)

theorem agg5_out : StableHlo.after hostOps5 W (Proc.devRef .tc main_v86) = Cert.Gcn.aggregate128 (F := Ideal) (W (Proc.devRef .tc main_v32)) (W (Proc.devRef .tc main_v5)) (W (Proc.devRef .tc main_v6)) (W (Proc.devRef .tc main_v73)) := by
  after_results_simp
  rfl
theorem agg5_row : StableHlo.after hostOps5 W (Proc.devRef .tc main_v87) = Cert.Gcn.row128 (F := Ideal) (W (Proc.devRef .tc main_v72)) := by
  after_results_simp
  exact Cert.LibVecRow.shapeCast_vec_eq_broadcastInDim (W (Proc.devRef .tc main_v72)) _ _
theorem keep5 (b : Ref sig .tc) (hb : b ∈ carried) : StableHlo.after hostOps5 W (Proc.devRef .tc b) = W (Proc.devRef .tc b) := by
  exact StableHlo.after_of_writes_sub hostOps5 W wr5_sub ((by decide : ∀ r ∈ carried, r ∉ wr5) b hb)

theorem agg7_out : StableHlo.after hostOps7 W (Proc.devRef .tc main_v106) = Cert.Gcn.aggregate128 (F := Ideal) (W (Proc.devRef .tc main_v32)) (W (Proc.devRef .tc main_v5)) (W (Proc.devRef .tc main_v6)) (W (Proc.devRef .tc main_v93)) := by
  after_results_simp
  rfl
theorem agg7_row : StableHlo.after hostOps7 W (Proc.devRef .tc main_v107) = Cert.Gcn.row128 (F := Ideal) (W (Proc.devRef .tc main_v92)) := by
  after_results_simp
  exact Cert.LibVecRow.shapeCast_vec_eq_broadcastInDim (W (Proc.devRef .tc main_v92)) _ _
theorem keep7 (b : Ref sig .tc) (hb : b ∈ carried) : StableHlo.after hostOps7 W (Proc.devRef .tc b) = W (Proc.devRef .tc b) := by
  exact StableHlo.after_of_writes_sub hostOps7 W wr7_sub ((by decide : ∀ r ∈ carried, r ∉ wr7) b hb)

theorem agg9_out : StableHlo.after hostOps9 W (Proc.devRef .tc main_v126) = Cert.Gcn.aggregate128 (F := Ideal) (W (Proc.devRef .tc main_v32)) (W (Proc.devRef .tc main_v5)) (W (Proc.devRef .tc main_v6)) (W (Proc.devRef .tc main_v113)) := by
  after_results_simp
  rfl
theorem agg9_row : StableHlo.after hostOps9 W (Proc.devRef .tc main_v127) = Cert.Gcn.row128 (F := Ideal) (W (Proc.devRef .tc main_v112)) := by
  after_results_simp
  exact Cert.LibVecRow.shapeCast_vec_eq_broadcastInDim (W (Proc.devRef .tc main_v112)) _ _
theorem keep9 (b : Ref sig .tc) (hb : b ∈ carried) : StableHlo.after hostOps9 W (Proc.devRef .tc b) = W (Proc.devRef .tc b) := by
  exact StableHlo.after_of_writes_sub hostOps9 W wr9_sub ((by decide : ∀ r ∈ carried, r ∉ wr9) b hb)

theorem agg11_out : StableHlo.after hostOps11 W (Proc.devRef .tc main_v142) = Cert.Gcn.aggregate64 (F := Ideal) (W (Proc.devRef .tc main_v32)) (W (Proc.devRef .tc main_v5)) (W (Proc.devRef .tc main_v6)) (W (Proc.devRef .tc main_v129)) := by
  after_results_simp
  rfl
theorem agg11_row : StableHlo.after hostOps11 W (Proc.devRef .tc main_v143) = Cert.Gcn.row64 (F := Ideal) (W (Proc.devRef .tc main_arg9)) := by
  after_results_simp
  exact Cert.LibVecRow.shapeCast_vec_eq_broadcastInDim (W (Proc.devRef .tc main_arg9)) _ _
theorem keep11 (b : Ref sig .tc) (hb : b ∈ carried) : StableHlo.after hostOps11 W (Proc.devRef .tc b) = W (Proc.devRef .tc b) := by
  exact StableHlo.after_of_writes_sub hostOps11 W wr11_sub ((by decide : ∀ r ∈ carried, r ∉ wr11) b hb)

/-! ## The stretches that cut a hidden layer's weights out of the stacked arguments -/

theorem slice2_w : StableHlo.after hostOps2 W (Proc.devRef .tc main_v50) = Cert.Gcn.hidW0 (F := Ideal) (W (Proc.devRef .tc main_arg6)) := by
  after_results_simp
  rfl
theorem slice2_b : StableHlo.after hostOps2 W (Proc.devRef .tc main_v52) = Cert.Gcn.hidB0 (F := Ideal) (W (Proc.devRef .tc main_arg7)) := by
  after_results_simp
  rfl
theorem keep2 (b : Ref sig .tc) (hb : b ∈ carried ∨ b = main_v48) : StableHlo.after hostOps2 W (Proc.devRef .tc b) = W (Proc.devRef .tc b) := by
  refine StableHlo.after_of_writes_sub hostOps2 W wr2_sub ?_
  rcases hb with hb | rfl
  · exact (by decide : ∀ r ∈ carried, r ∉ wr2) b hb
  · decide

theorem slice4_w : StableHlo.after hostOps4 W (Proc.devRef .tc main_v70) = Cert.Gcn.hidW1 (F := Ideal) (W (Proc.devRef .tc main_arg6)) := by
  after_results_simp
  rfl
theorem slice4_b : StableHlo.after hostOps4 W (Proc.devRef .tc main_v72) = Cert.Gcn.hidB1 (F := Ideal) (W (Proc.devRef .tc main_arg7)) := by
  after_results_simp
  rfl
theorem keep4 (b : Ref sig .tc) (hb : b ∈ carried ∨ b = main_v68) : StableHlo.after hostOps4 W (Proc.devRef .tc b) = W (Proc.devRef .tc b) := by
  refine StableHlo.after_of_writes_sub hostOps4 W wr4_sub ?_
  rcases hb with hb | rfl
  · exact (by decide : ∀ r ∈ carried, r ∉ wr4) b hb
  · decide

theorem slice6_w : StableHlo.after hostOps6 W (Proc.devRef .tc main_v90) = Cert.Gcn.hidW2 (F := Ideal) (W (Proc.devRef .tc main_arg6)) := by
  after_results_simp
  rfl
theorem slice6_b : StableHlo.after hostOps6 W (Proc.devRef .tc main_v92) = Cert.Gcn.hidB2 (F := Ideal) (W (Proc.devRef .tc main_arg7)) := by
  after_results_simp
  rfl
theorem keep6 (b : Ref sig .tc) (hb : b ∈ carried ∨ b = main_v88) : StableHlo.after hostOps6 W (Proc.devRef .tc b) = W (Proc.devRef .tc b) := by
  refine StableHlo.after_of_writes_sub hostOps6 W wr6_sub ?_
  rcases hb with hb | rfl
  · exact (by decide : ∀ r ∈ carried, r ∉ wr6) b hb
  · decide

theorem slice8_w : StableHlo.after hostOps8 W (Proc.devRef .tc main_v110) = Cert.Gcn.hidW3 (F := Ideal) (W (Proc.devRef .tc main_arg6)) := by
  after_results_simp
  rfl
theorem slice8_b : StableHlo.after hostOps8 W (Proc.devRef .tc main_v112) = Cert.Gcn.hidB3 (F := Ideal) (W (Proc.devRef .tc main_arg7)) := by
  after_results_simp
  rfl
theorem keep8 (b : Ref sig .tc) (hb : b ∈ carried ∨ b = main_v108) : StableHlo.after hostOps8 W (Proc.devRef .tc b) = W (Proc.devRef .tc b) := by
  refine StableHlo.after_of_writes_sub hostOps8 W wr8_sub ?_
  rcases hb with hb | rfl
  · exact (by decide : ∀ r ∈ carried, r ∉ wr8) b hb
  · decide

/-! ## The decoder's gathers and the final flattening -/

theorem pick12_0 : StableHlo.after hostOps12 W (Proc.devRef .tc main_v153) = Cert.Gcn.pick (F := Ideal) (W (Proc.devRef .tc main_v144)) (Cert.Gcn.labelIdx0 (W (Proc.devRef .tc main_arg3))) := by
  after_results_simp
  rfl
theorem pick12_1 : StableHlo.after hostOps12 W (Proc.devRef .tc main_v162) = Cert.Gcn.pick (F := Ideal) (W (Proc.devRef .tc main_v144)) (Cert.Gcn.labelIdx1 (W (Proc.devRef .tc main_arg3))) := by
  after_results_simp
  rfl
theorem keep12 (b : Ref sig .tc) (hb : b ∈ carried) : StableHlo.after hostOps12 W (Proc.devRef .tc b) = W (Proc.devRef .tc b) := by
  exact StableHlo.after_of_writes_sub hostOps12 W wr12_sub ((by decide : ∀ r ∈ carried, r ∉ wr12) b hb)
theorem flat13 : StableHlo.after hostOps13 W (Proc.devRef .tc main_v164) = shapeCast S400000 (W (Proc.devRef .tc main_v163)) shapeCasts_S400000x1_S400000 := by
  after_results_simp
  rfl
theorem keep13 (b : Ref sig .tc) (hb : b ∈ carried) : StableHlo.after hostOps13 W (Proc.devRef .tc b) = W (Proc.devRef .tc b) := by
  exact StableHlo.after_of_writes_sub hostOps13 W wr13_sub ((by decide : ∀ r ∈ carried, r ∉ wr13) b hb)

end Cert.KernelIdeal.HostValue

end
-- ==== Proof.KAssembly.lean ====
/-
  The kernel's result, read off the fold of the buffers' contents through the program's 28 segments.

  After the first three stretches the buffers hold the edges' sources and targets and the edges' norms; no later
  segment writes these or an argument array (`Kept`). From there every layer is four segments: a stretch that cuts the
  layer's weights out of the stacked arguments (hidden layers only), the region that multiplies the node features by
  the weight matrix, the stretch that carries the products along the edges and sums them at the targets, and the
  region that adds the bias row (and takes max(., 0)). Each segment's output is the specification's function of its
  inputs, so the features after layer k are the specification's layer applied to the features after layer k - 1, and
  the flattened output of the decoder's region is the specification's `result` of the argument arrays.
-/
import proofs.«125150_j11227044512214_1_alg».proof.Proof.KFrameRun
import proofs.«125150_j11227044512214_1_alg».proof.Proof.KRegMatmul
import proofs.«125150_j11227044512214_1_alg».proof.Proof.KRegBias
import proofs.«125150_j11227044512214_1_alg».proof.Proof.KRegDecode
import proofs.«125150_j11227044512214_1_alg».proof.Proof.KHost

noncomputable section

namespace Cert.KernelIdeal.Assembly

open Idealize.ShloMosaic Idealize.ShloMosaic.TcCoe Idealize.SL.Sem
open Cert.KernelIdeal Cert.KernelIdeal.Gen Cert.KernelIdeal.HostValue Cert.KernelIdeal.RegionValue

variable (m : (ℓ : Loc nD τ sig) → Buf (Elt Ideal) ℓ) (ρ : Dev nD → PrngReg) (c : Dev nD)

/-! ## The specification's intermediate arrays, of the launch memory -/

/-- The edges' sources, targets and norms. -/
def src := Cert.Gcn.sources (F := Ideal) (m ((c : Thread nD τ).loc main_arg1))
def tgt := Cert.Gcn.targets (F := Ideal) (m ((c : Thread nD τ).loc main_arg1))
def nrm := Cert.Gcn.edgeNorm (F := Ideal) (src m c) (tgt m c) (Cert.Gcn.weights (m ((c : Thread nD τ).loc main_arg2)))
/-- The node features after the input layer and after each hidden layer; the encodings after the output layer. -/
def h0 := Cert.Gcn.layerIn (F := Ideal) (nrm m c) (src m c) (tgt m c) (m ((c : Thread nD τ).loc main_arg0)) (m ((c : Thread nD τ).loc main_arg4)) (Cert.Gcn.row128 (m ((c : Thread nD τ).loc main_arg5)))
def h1 := Cert.Gcn.layerHid (F := Ideal) (nrm m c) (src m c) (tgt m c) (h0 m c) (Cert.Gcn.hidW0 (m ((c : Thread nD τ).loc main_arg6))) (Cert.Gcn.row128 (Cert.Gcn.hidB0 (m ((c : Thread nD τ).loc main_arg7))))
def h2 := Cert.Gcn.layerHid (F := Ideal) (nrm m c) (src m c) (tgt m c) (h1 m c) (Cert.Gcn.hidW1 (m ((c : Thread nD τ).loc main_arg6))) (Cert.Gcn.row128 (Cert.Gcn.hidB1 (m ((c : Thread nD τ).loc main_arg7))))
def h3 := Cert.Gcn.layerHid (F := Ideal) (nrm m c) (src m c) (tgt m c) (h2 m c) (Cert.Gcn.hidW2 (m ((c : Thread nD τ).loc main_arg6))) (Cert.Gcn.row128 (Cert.Gcn.hidB2 (m ((c : Thread nD τ).loc main_arg7))))
def h4 := Cert.Gcn.layerHid (F := Ideal) (nrm m c) (src m c) (tgt m c) (h3 m c) (Cert.Gcn.hidW3 (m ((c : Thread nD τ).loc main_arg6))) (Cert.Gcn.row128 (Cert.Gcn.hidB3 (m ((c : Thread nD τ).loc main_arg7))))
def enc := Cert.Gcn.layerOut (F := Ideal) (nrm m c) (src m c) (tgt m c) (h4 m c) (m ((c : Thread nD τ).loc main_arg8)) (Cert.Gcn.row64 (m ((c : Thread nD τ).loc main_arg9)))

/-- The specification's result is the score of the picked encodings. -/
theorem result_eq :
    Cert.Gcn.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = Cert.Gcn.score (Cert.Gcn.pick (enc m c) (Cert.Gcn.labelIdx0 (m ((c : Thread nD τ).loc main_arg3)))) (Cert.Gcn.pick (enc m c) (Cert.Gcn.labelIdx1 (m ((c : Thread nD τ).loc main_arg3)))) := rfl

/-! ## The carried buffers -/

/-- A boundary's contents agree with the contents after the first three stretches on every carried buffer. -/
def Kept (X : Valuation τ sig (Elt Ideal)) : Prop :=
  ∀ b ∈ carried, X (Proc.devRef .tc b) = W3 m ρ c (Proc.devRef .tc b)

theorem kept_step {X Y : Valuation τ sig (Elt Ideal)} (hY : Kept m ρ c Y)
    (h : ∀ b ∈ carried, X (Proc.devRef .tc b) = Y (Proc.devRef .tc b)) : Kept m ρ c X :=
  fun b hb => (h b hb).trans (hY b hb)

theorem args_sub_carried : ∀ b ∈ args, b ∈ carried := by decide

/-- On a boundary that keeps the carried buffers an argument's buffer holds the launch contents. -/
theorem arg_at {X : Valuation τ sig (Elt Ideal)} (hX : Kept m ρ c X) (b : Ref sig .tc) (hb : b ∈ args) :
    X (Proc.devRef .tc b) = W0 m ρ c (Proc.devRef .tc b) :=
  (hX b (args_sub_carried b hb)).trans (norm_keep (W0 m ρ c) b hb)
theorem src_at {X : Valuation τ sig (Elt Ideal)} (hX : Kept m ρ c X) : X (Proc.devRef .tc main_v5) = src m c :=
  (hX main_v5 (by decide)).trans (norm_sources (W0 m ρ c))
theorem tgt_at {X : Valuation τ sig (Elt Ideal)} (hX : Kept m ρ c X) : X (Proc.devRef .tc main_v6) = tgt m c :=
  (hX main_v6 (by decide)).trans (norm_targets (W0 m ρ c))
theorem nrm_at {X : Valuation τ sig (Elt Ideal)} (hX : Kept m ρ c X) : X (Proc.devRef .tc main_v32) = nrm m c :=
  (hX main_v32 (by decide)).trans (norm_norm (W0 m ρ c))

theorem kept3 : Kept m ρ c (W3 m ρ c) := fun _ _ => rfl

/-- Region 0 reads two argument arrays through input windows and writes neither. -/
theorem kept4 : Kept m ρ c (W4 m ρ c) :=
  kept_step m ρ c (kept3 m ρ c) fun b hb => by
    by_cases h0 : b = main_arg0
    · subst h0; exact (W4_arr m ρ c 0).trans (((dat0 (V3 m ρ) c).arrAt_in 0 rfl _).trans (A_eq0 (V3 m ρ) c 0))
    by_cases h4 : b = main_arg4
    · subst h4; exact (W4_arr m ρ c 1).trans (((dat0 (V3 m ρ) c).arrAt_in 1 rfl _).trans (A_eq0 (V3 m ρ) c 1))
    exact W4_of_ne m ρ c b ((by decide : ∀ b ∈ carried, b ≠ main_arg0 → b ≠ main_arg4 → ∀ w, Pipeline.arrRef spec0 w ≠ b) b hb h0 h4)
theorem kept5 : Kept m ρ c (W5 m ρ c) :=
  kept_step m ρ c (kept4 m ρ c) fun b hb => keep1 (W4 m ρ c) b hb
theorem kept6 : Kept m ρ c (W6 m ρ c) :=
  kept_step m ρ c (kept5 m ρ c) fun b hb =>
    W6_of_ne m ρ c b ((by decide : ∀ b ∈ carried, ∀ w, Pipeline.arrRef spec1 w ≠ b) b hb)
theorem kept7 : Kept m ρ c (W7 m ρ c) :=
  kept_step m ρ c (kept6 m ρ c) fun b hb => keep2 (W6 m ρ c) b (Or.inl hb)
theorem kept8 : Kept m ρ c (W8 m ρ c) :=
  kept_step m ρ c (kept7 m ρ c) fun b hb =>
    W8_of_ne m ρ c b ((by decide : ∀ b ∈ carried, ∀ w, Pipeline.arrRef spec2 w ≠ b) b hb)
theorem kept9 : Kept m ρ c (W9 m ρ c) :=
  kept_step m ρ c (kept8 m ρ c) fun b hb => keep3 (W8 m ρ c) b hb
theorem kept10 : Kept m ρ c (W10 m ρ c) :=
  kept_step m ρ c (kept9 m ρ c) fun b hb =>
    W10_of_ne m ρ c b ((by decide : ∀ b ∈ carried, ∀ w, Pipeline.arrRef spec3 w ≠ b) b hb)
theorem kept11 : Kept m ρ c (W11 m ρ c) :=
  kept_step m ρ c (kept10 m ρ c) fun b hb => keep4 (W10 m ρ c) b (Or.inl hb)
theorem kept12 : Kept m ρ c (W12 m ρ c) :=
  kept_step m ρ c (kept11 m ρ c) fun b hb =>
    W12_of_ne m ρ c b ((by decide : ∀ b ∈ carried, ∀ w, Pipeline.arrRef spec4 w ≠ b) b hb)
theorem kept13 : Kept m ρ c (W13 m ρ c) :=
  kept_step m ρ c (kept12 m ρ c) fun b hb => keep5 (W12 m ρ c) b hb
theorem kept14 : Kept m ρ c (W14 m ρ c) :=
  kept_step m ρ c (kept13 m ρ c) fun b hb =>
    W14_of_ne m ρ c b ((by decide : ∀ b ∈ carried, ∀ w, Pipeline.arrRef spec5 w ≠ b) b hb)
theorem kept15 : Kept m ρ c (W15 m ρ c) :=
  kept_step m ρ c (kept14 m ρ c) fun b hb => keep6 (W14 m ρ c) b (Or.inl hb)
theorem kept16 : Kept m ρ c (W16 m ρ c) :=
  kept_step m ρ c (kept15 m ρ c) fun b hb =>
    W16_of_ne m ρ c b ((by decide : ∀ b ∈ carried, ∀ w, Pipeline.arrRef spec6 w ≠ b) b hb)
theorem kept17 : Kept m ρ c (W17 m ρ c) :=
  kept_step m ρ c (kept16 m ρ c) fun b hb => keep7 (W16 m ρ c) b hb
theorem kept18 : Kept m ρ c (W18 m ρ c) :=
  kept_step m ρ c (kept17 m ρ c) fun b hb =>
    W18_of_ne m ρ c b ((by decide : ∀ b ∈ carried, ∀ w, Pipeline.arrRef spec7 w ≠ b) b hb)
theorem kept19 : Kept m ρ c (W19 m ρ c) :=
  kept_step m ρ c (kept18 m ρ c) fun b hb => keep8 (W18 m ρ c) b (Or.inl hb)
theorem kept20 : Kept m ρ c (W20 m ρ c) :=
  kept_step m ρ c (kept19 m ρ c) fun b hb =>
    W20_of_ne m ρ c b ((by decide : ∀ b ∈ carried, ∀ w, Pipeline.arrRef spec8 w ≠ b) b hb)
theorem kept21 : Kept m ρ c (W21 m ρ c) :=
  kept_step m ρ c (kept20 m ρ c) fun b hb => keep9 (W20 m ρ c) b hb
theorem kept22 : Kept m ρ c (W22 m ρ c) :=
  kept_step m ρ c (kept21 m ρ c) fun b hb =>
    W22_of_ne m ρ c b ((by decide : ∀ b ∈ carried, ∀ w, Pipeline.arrRef spec9 w ≠ b) b hb)

/-- Region 10 reads the output layer's weight matrix, an argument array, through an input window. -/
theorem kept23 : Kept m ρ c (W23 m ρ c) :=
  kept_step m ρ c (kept22 m ρ c) fun b hb => by
    by_cases h8 : b = main_arg8
    · subst h8; exact (W23_arr m ρ c 1).trans (((dat10 (V22 m ρ) c).arrAt_in 1 rfl _).trans (A_eq10 (V22 m ρ) c 1))
    exact W23_of_ne m ρ c b ((by decide : ∀ b ∈ carried, b ≠ main_arg8 → ∀ w, Pipeline.arrRef spec10 w ≠ b) b hb h8)
theorem kept24 : Kept m ρ c (W24 m ρ c) :=
  kept_step m ρ c (kept23 m ρ c) fun b hb => keep11 (W23 m ρ c) b hb
theorem kept25 : Kept m ρ c (W25 m ρ c) :=
  kept_step m ρ c (kept24 m ρ c) fun b hb =>
    W25_of_ne m ρ c b ((by decide : ∀ b ∈ carried, ∀ w, Pipeline.arrRef spec11 w ≠ b) b hb)
theorem kept26 : Kept m ρ c (W26 m ρ c) :=
  kept_step m ρ c (kept25 m ρ c) fun b hb => keep12 (W25 m ρ c) b hb
theorem kept27 : Kept m ρ c (W27 m ρ c) :=
  kept_step m ρ c (kept26 m ρ c) fun b hb =>
    W27_of_ne m ρ c b ((by decide : ∀ b ∈ carried, ∀ w, Pipeline.arrRef spec12 w ≠ b) b hb)

/-! ## The layers -/

/-- After region 0: the input layer's products x W. -/
theorem z_at4 : W4 m ρ c (Proc.devRef .tc main_v33) = Cert.Gcn.mmIn (F := Ideal) (m ((c : Thread nD τ).loc main_arg0)) (m ((c : Thread nD τ).loc main_arg4)) := by
  have e := (W4_arr m ρ c 2).trans (region0 (V3 m ρ) c)
  rw [show V3 m ρ c main_arg0 = (m ((c : Thread nD τ).loc main_arg0)) from (arg_at m ρ c (kept3 m ρ c) main_arg0 (by decide)),
    show V3 m ρ c main_arg4 = (m ((c : Thread nD τ).loc main_arg4)) from (arg_at m ρ c (kept3 m ρ c) main_arg4 (by decide))] at e
  exact e
/-- After the first aggregation stretch: the products carried along the edges and summed, and the bias row. -/
theorem agg_at5 : W5 m ρ c (Proc.devRef .tc main_v46) = Cert.Gcn.aggregate128 (F := Ideal) (nrm m c) (src m c) (tgt m c) (Cert.Gcn.mmIn (m ((c : Thread nD τ).loc main_arg0)) (m ((c : Thread nD τ).loc main_arg4))) := by
  have e := agg1_out (W4 m ρ c)
  rw [nrm_at m ρ c (kept4 m ρ c), src_at m ρ c (kept4 m ρ c), tgt_at m ρ c (kept4 m ρ c), z_at4 m ρ c] at e
  exact e
theorem row_at5 : W5 m ρ c (Proc.devRef .tc main_v47) = Cert.Gcn.row128 (F := Ideal) (m ((c : Thread nD τ).loc main_arg5)) :=
  (agg1_row (W4 m ρ c)).trans (congrArg (Cert.Gcn.row128 (F := Ideal)) (arg_at m ρ c (kept4 m ρ c) main_arg5 (by decide)))
/-- After region 1: the features after the input layer. -/
theorem h_at6 : W6 m ρ c (Proc.devRef .tc main_v48) = h0 m c := by
  have e := (W6_arr m ρ c 2).trans (region1 (V5 m ρ) c)
  rw [show V5 m ρ c main_v46 = _ from agg_at5 m ρ c, show V5 m ρ c main_v47 = _ from row_at5 m ρ c] at e
  exact e

/-! ### Hidden layer 0 -/

theorem w_at7 : W7 m ρ c (Proc.devRef .tc main_v50) = Cert.Gcn.hidW0 (F := Ideal) (m ((c : Thread nD τ).loc main_arg6)) :=
  (slice2_w (W6 m ρ c)).trans (congrArg (Cert.Gcn.hidW0 (F := Ideal)) (arg_at m ρ c (kept6 m ρ c) main_arg6 (by decide)))
theorem b_at7 : W7 m ρ c (Proc.devRef .tc main_v52) = Cert.Gcn.hidB0 (F := Ideal) (m ((c : Thread nD τ).loc main_arg7)) :=
  (slice2_b (W6 m ρ c)).trans (congrArg (Cert.Gcn.hidB0 (F := Ideal)) (arg_at m ρ c (kept6 m ρ c) main_arg7 (by decide)))
theorem h_at7 : W7 m ρ c (Proc.devRef .tc main_v48) = h0 m c :=
  (keep2 (W6 m ρ c) main_v48 (Or.inr rfl)).trans (h_at6 m ρ c)
theorem z_at8 : W8 m ρ c (Proc.devRef .tc main_v53) = Cert.Gcn.mmHid (F := Ideal) (h0 m c) (Cert.Gcn.hidW0 (m ((c : Thread nD τ).loc main_arg6))) := by
  have e := (W8_arr m ρ c 2).trans (region2 (V7 m ρ) c)
  rw [show V7 m ρ c main_v48 = _ from h_at7 m ρ c, show V7 m ρ c main_v50 = _ from w_at7 m ρ c] at e
  exact e
theorem b_at8 : W8 m ρ c (Proc.devRef .tc main_v52) = Cert.Gcn.hidB0 (F := Ideal) (m ((c : Thread nD τ).loc main_arg7)) :=
  (W8_of_ne m ρ c main_v52 (by decide)).trans (b_at7 m ρ c)
theorem agg_at9 : W9 m ρ c (Proc.devRef .tc main_v66) = Cert.Gcn.aggregate128 (F := Ideal) (nrm m c) (src m c) (tgt m c) (Cert.Gcn.mmHid (h0 m c) (Cert.Gcn.hidW0 (m ((c : Thread nD τ).loc main_arg6)))) := by
  have e := agg3_out (W8 m ρ c)
  rw [nrm_at m ρ c (kept8 m ρ c), src_at m ρ c (kept8 m ρ c), tgt_at m ρ c (kept8 m ρ c), z_at8 m ρ c] at e
  exact e
theorem row_at9 : W9 m ρ c (Proc.devRef .tc main_v67) = Cert.Gcn.row128 (F := Ideal) (Cert.Gcn.hidB0 (m ((c : Thread nD τ).loc main_arg7))) :=
  (agg3_row (W8 m ρ c)).trans (congrArg (Cert.Gcn.row128 (F := Ideal)) (b_at8 m ρ c))
theorem h_at10 : W10 m ρ c (Proc.devRef .tc main_v68) = h1 m c := by
  have e := (W10_arr m ρ c 2).trans (region3 (V9 m ρ) c)
  rw [show V9 m ρ c main_v66 = _ from agg_at9 m ρ c, show V9 m ρ c main_v67 = _ from row_at9 m ρ c] at e
  exact e

/-! ### Hidden layer 1 -/

theorem w_at11 : W11 m ρ c (Proc.devRef .tc main_v70) = Cert.Gcn.hidW1 (F := Ideal) (m ((c : Thread nD τ).loc main_arg6)) :=
  (slice4_w (W10 m ρ c)).trans (congrArg (Cert.Gcn.hidW1 (F := Ideal)) (arg_at m ρ c (kept10 m ρ c) main_arg6 (by decide)))
theorem b_at11 : W11 m ρ c (Proc.devRef .tc main_v72) = Cert.Gcn.hidB1 (F := Ideal) (m ((c : Thread nD τ).loc main_arg7)) :=
  (slice4_b (W10 m ρ c)).trans (congrArg (Cert.Gcn.hidB1 (F := Ideal)) (arg_at m ρ c (kept10 m ρ c) main_arg7 (by decide)))
theorem h_at11 : W11 m ρ c (Proc.devRef .tc main_v68) = h1 m c :=
  (keep4 (W10 m ρ c) main_v68 (Or.inr rfl)).trans (h_at10 m ρ c)
theorem z_at12 : W12 m ρ c (Proc.devRef .tc main_v73) = Cert.Gcn.mmHid (F := Ideal) (h1 m c) (Cert.Gcn.hidW1 (m ((c : Thread nD τ).loc main_arg6))) := by
  have e := (W12_arr m ρ c 2).trans (region4 (V11 m ρ) c)
  rw [show V11 m ρ c main_v68 = _ from h_at11 m ρ c, show V11 m ρ c main_v70 = _ from w_at11 m ρ c] at e
  exact e
theorem b_at12 : W12 m ρ c (Proc.devRef .tc main_v72) = Cert.Gcn.hidB1 (F := Ideal) (m ((c : Thread nD τ).loc main_arg7)) :=
  (W12_of_ne m ρ c main_v72 (by decide)).trans (b_at11 m ρ c)
theorem agg_at13 : W13 m ρ c (Proc.devRef .tc main_v86) = Cert.Gcn.aggregate128 (F := Ideal) (nrm m c) (src m c) (tgt m c) (Cert.Gcn.mmHid (h1 m c) (Cert.Gcn.hidW1 (m ((c : Thread nD τ).loc main_arg6)))) := by
  have e := agg5_out (W12 m ρ c)
  rw [nrm_at m ρ c (kept12 m ρ c), src_at m ρ c (kept12 m ρ c), tgt_at m ρ c (kept12 m ρ c), z_at12 m ρ c] at e
  exact e
theorem row_at13 : W13 m ρ c (Proc.devRef .tc main_v87) = Cert.Gcn.row128 (F := Ideal) (Cert.Gcn.hidB1 (m ((c : Thread nD τ).loc main_arg7))) :=
  (agg5_row (W12 m ρ c)).trans (congrArg (Cert.Gcn.row128 (F := Ideal)) (b_at12 m ρ c))
theorem h_at14 : W14 m ρ c (Proc.devRef .tc main_v88) = h2 m c := by
  have e := (W14_arr m ρ c 2).trans (region5 (V13 m ρ) c)
  rw [show V13 m ρ c main_v86 = _ from agg_at13 m ρ c, show V13 m ρ c main_v87 = _ from row_at13 m ρ c] at e
  exact e

/-! ### Hidden layer 2 -/

theorem w_at15 : W15 m ρ c (Proc.devRef .tc main_v90) = Cert.Gcn.hidW2 (F := Ideal) (m ((c : Thread nD τ).loc main_arg6)) :=
  (slice6_w (W14 m ρ c)).trans (congrArg (Cert.Gcn.hidW2 (F := Ideal)) (arg_at m ρ c (kept14 m ρ c) main_arg6 (by decide)))
theorem b_at15 : W15 m ρ c (Proc.devRef .tc main_v92) = Cert.Gcn.hidB2 (F := Ideal) (m ((c : Thread nD τ).loc main_arg7)) :=
  (slice6_b (W14 m ρ c)).trans (congrArg (Cert.Gcn.hidB2 (F := Ideal)) (arg_at m ρ c (kept14 m ρ c) main_arg7 (by decide)))
theorem h_at15 : W15 m ρ c (Proc.devRef .tc main_v88) = h2 m c :=
  (keep6 (W14 m ρ c) main_v88 (Or.inr rfl)).trans (h_at14 m ρ c)
theorem z_at16 : W16 m ρ c (Proc.devRef .tc main_v93) = Cert.Gcn.mmHid (F := Ideal) (h2 m c) (Cert.Gcn.hidW2 (m ((c : Thread nD τ).loc main_arg6))) := by
  have e := (W16_arr m ρ c 2).trans (region6 (V15 m ρ) c)
  rw [show V15 m ρ c main_v88 = _ from h_at15 m ρ c, show V15 m ρ c main_v90 = _ from w_at15 m ρ c] at e
  exact e
theorem b_at16 : W16 m ρ c (Proc.devRef .tc main_v92) = Cert.Gcn.hidB2 (F := Ideal) (m ((c : Thread nD τ).loc main_arg7)) :=
  (W16_of_ne m ρ c main_v92 (by decide)).trans (b_at15 m ρ c)
theorem agg_at17 : W17 m ρ c (Proc.devRef .tc main_v106) = Cert.Gcn.aggregate128 (F := Ideal) (nrm m c) (src m c) (tgt m c) (Cert.Gcn.mmHid (h2 m c) (Cert.Gcn.hidW2 (m ((c : Thread nD τ).loc main_arg6)))) := by
  have e := agg7_out (W16 m ρ c)
  rw [nrm_at m ρ c (kept16 m ρ c), src_at m ρ c (kept16 m ρ c), tgt_at m ρ c (kept16 m ρ c), z_at16 m ρ c] at e
  exact e
theorem row_at17 : W17 m ρ c (Proc.devRef .tc main_v107) = Cert.Gcn.row128 (F := Ideal) (Cert.Gcn.hidB2 (m ((c : Thread nD τ).loc main_arg7))) :=
  (agg7_row (W16 m ρ c)).trans (congrArg (Cert.Gcn.row128 (F := Ideal)) (b_at16 m ρ c))
theorem h_at18 : W18 m ρ c (Proc.devRef .tc main_v108) = h3 m c := by
  have e := (W18_arr m ρ c 2).trans (region7 (V17 m ρ) c)
  rw [show V17 m ρ c main_v106 = _ from agg_at17 m ρ c, show V17 m ρ c main_v107 = _ from row_at17 m ρ c] at e
  exact e

/-! ### Hidden layer 3 -/

theorem w_at19 : W19 m ρ c (Proc.devRef .tc main_v110) = Cert.Gcn.hidW3 (F := Ideal) (m ((c : Thread nD τ).loc main_arg6)) :=
  (slice8_w (W18 m ρ c)).trans (congrArg (Cert.Gcn.hidW3 (F := Ideal)) (arg_at m ρ c (kept18 m ρ c) main_arg6 (by decide)))
theorem b_at19 : W19 m ρ c (Proc.devRef .tc main_v112) = Cert.Gcn.hidB3 (F := Ideal) (m ((c : Thread nD τ).loc main_arg7)) :=
  (slice8_b (W18 m ρ c)).trans (congrArg (Cert.Gcn.hidB3 (F := Ideal)) (arg_at m ρ c (kept18 m ρ c) main_arg7 (by decide)))
theorem h_at19 : W19 m ρ c (Proc.devRef .tc main_v108) = h3 m c :=
  (keep8 (W18 m ρ c) main_v108 (Or.inr rfl)).trans (h_at18 m ρ c)
theorem z_at20 : W20 m ρ c (Proc.devRef .tc main_v113) = Cert.Gcn.mmHid (F := Ideal) (h3 m c) (Cert.Gcn.hidW3 (m ((c : Thread nD τ).loc main_arg6))) := by
  have e := (W20_arr m ρ c 2).trans (region8 (V19 m ρ) c)
  rw [show V19 m ρ c main_v108 = _ from h_at19 m ρ c, show V19 m ρ c main_v110 = _ from w_at19 m ρ c] at e
  exact e
theorem b_at20 : W20 m ρ c (Proc.devRef .tc main_v112) = Cert.Gcn.hidB3 (F := Ideal) (m ((c : Thread nD τ).loc main_arg7)) :=
  (W20_of_ne m ρ c main_v112 (by decide)).trans (b_at19 m ρ c)
theorem agg_at21 : W21 m ρ c (Proc.devRef .tc main_v126) = Cert.Gcn.aggregate128 (F := Ideal) (nrm m c) (src m c) (tgt m c) (Cert.Gcn.mmHid (h3 m c) (Cert.Gcn.hidW3 (m ((c : Thread nD τ).loc main_arg6)))) := by
  have e := agg9_out (W20 m ρ c)
  rw [nrm_at m ρ c (kept20 m ρ c), src_at m ρ c (kept20 m ρ c), tgt_at m ρ c (kept20 m ρ c), z_at20 m ρ c] at e
  exact e
theorem row_at21 : W21 m ρ c (Proc.devRef .tc main_v127) = Cert.Gcn.row128 (F := Ideal) (Cert.Gcn.hidB3 (m ((c : Thread nD τ).loc main_arg7))) :=
  (agg9_row (W20 m ρ c)).trans (congrArg (Cert.Gcn.row128 (F := Ideal)) (b_at20 m ρ c))
theorem h_at22 : W22 m ρ c (Proc.devRef .tc main_v128) = h4 m c := by
  have e := (W22_arr m ρ c 2).trans (region9 (V21 m ρ) c)
  rw [show V21 m ρ c main_v126 = _ from agg_at21 m ρ c, show V21 m ρ c main_v127 = _ from row_at21 m ρ c] at e
  exact e

/-! ### The output layer and the decoder -/

theorem z_at23 : W23 m ρ c (Proc.devRef .tc main_v129) = Cert.Gcn.mmOut (F := Ideal) (h4 m c) (m ((c : Thread nD τ).loc main_arg8)) := by
  have e := (W23_arr m ρ c 2).trans (region10 (V22 m ρ) c)
  rw [show V22 m ρ c main_v128 = _ from h_at22 m ρ c,
    show V22 m ρ c main_arg8 = (m ((c : Thread nD τ).loc main_arg8)) from (arg_at m ρ c (kept22 m ρ c) main_arg8 (by decide))] at e
  exact e
theorem agg_at24 : W24 m ρ c (Proc.devRef .tc main_v142) = Cert.Gcn.aggregate64 (F := Ideal) (nrm m c) (src m c) (tgt m c) (Cert.Gcn.mmOut (h4 m c) (m ((c : Thread nD τ).loc main_arg8))) := by
  have e := agg11_out (W23 m ρ c)
  rw [nrm_at m ρ c (kept23 m ρ c), src_at m ρ c (kept23 m ρ c), tgt_at m ρ c (kept23 m ρ c), z_at23 m ρ c] at e
  exact e
theorem row_at24 : W24 m ρ c (Proc.devRef .tc main_v143) = Cert.Gcn.row64 (F := Ideal) (m ((c : Thread nD τ).loc main_arg9)) :=
  (agg11_row (W23 m ρ c)).trans (congrArg (Cert.Gcn.row64 (F := Ideal)) (arg_at m ρ c (kept23 m ρ c) main_arg9 (by decide)))
/-- After region 11: the node encodings. -/
theorem enc_at25 : W25 m ρ c (Proc.devRef .tc main_v144) = enc m c := by
  have e := (W25_arr m ρ c 2).trans (region11 (V24 m ρ) c)
  rw [show V24 m ρ c main_v142 = _ from agg_at24 m ρ c, show V24 m ρ c main_v143 = _ from row_at24 m ρ c] at e
  exact e
theorem pick0_at26 : W26 m ρ c (Proc.devRef .tc main_v153) = Cert.Gcn.pick (F := Ideal) (enc m c) (Cert.Gcn.labelIdx0 (m ((c : Thread nD τ).loc main_arg3))) := by
  have e := pick12_0 (W25 m ρ c)
  rw [enc_at25 m ρ c, show W25 m ρ c (Proc.devRef .tc main_arg3) = (m ((c : Thread nD τ).loc main_arg3)) from (arg_at m ρ c (kept25 m ρ c) main_arg3 (by decide))] at e
  exact e
theorem pick1_at26 : W26 m ρ c (Proc.devRef .tc main_v162) = Cert.Gcn.pick (F := Ideal) (enc m c) (Cert.Gcn.labelIdx1 (m ((c : Thread nD τ).loc main_arg3))) := by
  have e := pick12_1 (W25 m ρ c)
  rw [enc_at25 m ρ c, show W25 m ρ c (Proc.devRef .tc main_arg3) = (m ((c : Thread nD τ).loc main_arg3)) from (arg_at m ρ c (kept25 m ρ c) main_arg3 (by decide))] at e
  exact e

/-- THE KERNEL'S RESULT: at the last boundary the result buffer holds the specification's `result` of the arguments. -/
theorem result_at28 : W28 m ρ c (Proc.devRef .tc main_v164)
    = Cert.Gcn.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e := flat13 (W27 m ρ c)
  rw [show W27 m ρ c (Proc.devRef .tc main_v163) = (dat12 (V26 m ρ) c).arrAt 2 cfg12.N from W27_arr m ρ c 2,
    region12 (V26 m ρ) c,
    show V26 m ρ c main_v153 = _ from pick0_at26 m ρ c, show V26 m ρ c main_v162 = _ from pick1_at26 m ρ c] at e
  exact e.trans (result_eq m c).symm

end Cert.KernelIdeal.Assembly

end
-- ==== Proof.RefStretchA.lean ====
/-
  The first stretch of the reference's operations — the edges (the given ones followed by one self loop per node) and
  their normalised weights — read over an arbitrary valuation V of the buffers: the sources, the targets and the
  normalised weights it leaves are the specification's functions of the edge list and the edge weights in V, and a
  buffer the stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wA : List (Ref sig .tc) :=
  [main_v0, main_v1, main_v2, main_v3, main_v4, main_v5, main_v6, main_cst, main_v7, main_v8, main_cst_0, main_v9, main_v10, main_v11, main_cst_1, main_v12, main_v13, main_v14, main_cst_2, main_v15, main_v16, main_c, main_v17, main_v18, main_c_3, main_v19, main_v20, main_v21, main_v22, main_v23, main_v24, main_c_4, main_v25, main_v26, main_c_5, main_v27, main_v28, main_v29, main_v30, main_v31, main_v32]

/-- Every operation of the stretch writes one of them. -/
theorem opsA_writes : (opsA : List (HloOp τ sig (Elt F))).Forall fun op => op.writes ⊆ (wA.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_cst rfl (by decide),
   writes_sub_of_mem main_v7 rfl (by decide),
   writes_sub_of_mem main_v8 rfl (by decide),
   writes_sub_of_mem main_cst_0 rfl (by decide),
   writes_sub_of_mem main_v9 rfl (by decide),
   writes_sub_of_mem main_v10 rfl (by decide),
   writes_sub_of_mem main_v11 rfl (by decide),
   writes_sub_of_mem main_cst_1 rfl (by decide),
   writes_sub_of_mem main_v12 rfl (by decide),
   writes_sub_of_mem main_v13 rfl (by decide),
   writes_sub_of_mem main_v14 rfl (by decide),
   writes_sub_of_mem main_cst_2 rfl (by decide),
   writes_sub_of_mem main_v15 rfl (by decide),
   writes_sub_of_mem main_v16 rfl (by decide),
   writes_sub_of_mem main_c rfl (by decide),
   writes_sub_of_mem main_v17 rfl (by decide),
   writes_sub_of_mem main_v18 rfl (by decide),
   writes_sub_of_mem main_c_3 rfl (by decide),
   writes_sub_of_mem main_v19 rfl (by decide),
   writes_sub_of_mem main_v20 rfl (by decide),
   writes_sub_of_mem main_v21 rfl (by decide),
   writes_sub_of_mem main_v22 rfl (by decide),
   writes_sub_of_mem main_v23 rfl (by decide),
   writes_sub_of_mem main_v24 rfl (by decide),
   writes_sub_of_mem main_c_4 rfl (by decide),
   writes_sub_of_mem main_v25 rfl (by decide),
   writes_sub_of_mem main_v26 rfl (by decide),
   writes_sub_of_mem main_c_5 rfl (by decide),
   writes_sub_of_mem main_v27 rfl (by decide),
   writes_sub_of_mem main_v28 rfl (by decide),
   writes_sub_of_mem main_v29 rfl (by decide),
   writes_sub_of_mem main_v30 rfl (by decide),
   writes_sub_of_mem main_v31 rfl (by decide),
   writes_sub_of_mem main_v32 rfl (by decide)⟩

/-- A buffer the stretch does not write keeps its contents. -/
theorem opsA_frame (V : Valuation τ sig (Elt F)) {r : Ref sig .tc} (hr : r ∉ wA) :
    after opsA V (Proc.devRef .tc r) = V (Proc.devRef .tc r) :=
  after_of_writes_sub opsA V opsA_writes hr

/-- The edges' sources. -/
theorem opsA_v5 (V : Valuation τ sig (Elt F)) :
    after opsA V (Proc.devRef .tc main_v5) = Cert.Gcn.sources (V (Proc.devRef .tc main_arg1)) := by
  after_results_simp <;> rfl

/-- The edges' targets. -/
theorem opsA_v6 (V : Valuation τ sig (Elt F)) :
    after opsA V (Proc.devRef .tc main_v6) = Cert.Gcn.targets (V (Proc.devRef .tc main_arg1)) := by
  after_results_simp <;> rfl

/-- The edges' normalised weights. -/
theorem opsA_v32 (V : Valuation τ sig (Elt F)) :
    after opsA V (Proc.devRef .tc main_v32)
      = Cert.Gcn.edgeNorm (Cert.Gcn.sources (V (Proc.devRef .tc main_arg1))) (Cert.Gcn.targets (V (Proc.devRef .tc main_arg1)))
          (Cert.Gcn.weights (V (Proc.devRef .tc main_arg2))) := by
  after_results_simp <;> rfl

end Cert.ReferenceIdeal.RefValue

end
-- ==== Proof.RefStretchL0.lean ====
/-
  The input layer's stretch of the reference's operations read over an arbitrary valuation V of the buffers: the
  buffer it ends in holds the specification's input layer of the normalised weights, sources, targets, node features,
  weight matrix and bias in V, and a buffer the stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wL0 : List (Ref sig .tc) :=
  [main_v33, main_v34, main_c_6, main_v35, main_v36, main_c_7, main_v37, main_v38, main_v39, main_v40, main_v41, main_v42, main_v43, main_cst_8, main_v44, main_v45, main_v46, main_v47, main_v48, main_v49, main_call1_cst, main_call1_v0, main_v50]

/-- Every operation of the stretch writes one of them. -/
theorem opsL0_writes : (opsL0 : List (HloOp τ sig (Elt F))).Forall fun op => op.writes ⊆ (wL0.map (Proc.devRef (τ := τ) .tc)).toFinset :=
  ⟨writes_sub_of_mem main_v33 rfl (by decide),
   writes_sub_of_mem main_v34 rfl (by decide),
   writes_sub_of_mem main_c_6 rfl (by decide),
   writes_sub_of_mem main_v35 rfl (by decide),
   writes_sub_of_mem main_v36 rfl (by decide),
   writes_sub_of_mem main_c_7 rfl (by decide),
   writes_sub_of_mem main_v37 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_cst_8 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide),
   writes_sub_of_mem main_call1_cst rfl (by decide),
   writes_sub_of_mem main_call1_v0 rfl (by decide),
   writes_sub_of_mem main_v50 rfl (by decide)⟩

/-- A buffer the stretch does not write keeps its contents. -/
theorem opsL0_frame (V : Valuation τ sig (Elt F)) {r : Ref sig .tc} (hr : r ∉ wL0) :
    after opsL0 V (Proc.devRef .tc r) = V (Proc.devRef .tc r) :=
  after_of_writes_sub opsL0 V opsL0_writes hr

/-- The input layer: aggregate the transformed features along the edges, add the bias row, max with 0. -/
theorem opsL0_v50 (V : Valuation τ sig (Elt F)) :
    after opsL0 V (Proc.devRef .tc main_v50)
      = Cert.Gcn.layerIn (V (Proc.devRef .tc main_v32)) (V (Proc.devRef .tc main_v5)) (V (Proc.devRef .tc main_v6)) (V (Proc.devRef .tc main_arg0))
          (V (Proc.devRef .tc main_arg4)) (Cert.Gcn.row128 (V (Proc.devRef .tc main_arg5))) := by
  after_results_simp <;> rfl

end Cert.ReferenceIdeal.RefValue

end
-- ==== Proof.RefStretchL1.lean ====
/-
  The first hidden layer's stretch of the reference's operations read over an arbitrary valuation V of the buffers:
  the buffer it ends in holds the specification's hidden layer of the normalised weights, sources, targets and previous
  layer's output in V, with the layer's weight matrix and bias cut out of the stacked arguments in V, and a buffer the
  stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wL1 : List (Ref sig .tc) :=
  [main_v51, main_v52, main_v53, main_v54, main_v55, main_v56, main_c_9, main_v57, main_v58, main_c_10, main_v59, main_v60, main_v61, main_v62, main_v63, main_v64, main_v65, main_cst_11, main_v66, main_v67, main_v68, main_v69, main_v70, main_v71, main_call2_cst, main_call2_v0, main_v72]

/-- Every operation of the stretch writes one of them. -/
theorem opsL1_writes : (opsL1 : List (HloOp τ sig (Elt F))).Forall fun op => op.writes ⊆ (wL1.map (Proc.devRef (τ := τ) .tc)).toFinset :=
  ⟨writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_v56 rfl (by decide),
   writes_sub_of_mem main_c_9 rfl (by decide),
   writes_sub_of_mem main_v57 rfl (by decide),
   writes_sub_of_mem main_v58 rfl (by decide),
   writes_sub_of_mem main_c_10 rfl (by decide),
   writes_sub_of_mem main_v59 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_v65 rfl (by decide),
   writes_sub_of_mem main_cst_11 rfl (by decide),
   writes_sub_of_mem main_v66 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_call2_cst rfl (by decide),
   writes_sub_of_mem main_call2_v0 rfl (by decide),
   writes_sub_of_mem main_v72 rfl (by decide)⟩

/-- A buffer the stretch does not write keeps its contents. -/
theorem opsL1_frame (V : Valuation τ sig (Elt F)) {r : Ref sig .tc} (hr : r ∉ wL1) :
    after opsL1 V (Proc.devRef .tc r) = V (Proc.devRef .tc r) :=
  after_of_writes_sub opsL1 V opsL1_writes hr

/-- The first hidden layer. -/
theorem opsL1_v72 (V : Valuation τ sig (Elt F)) :
    after opsL1 V (Proc.devRef .tc main_v72)
      = Cert.Gcn.layerHid (V (Proc.devRef .tc main_v32)) (V (Proc.devRef .tc main_v5)) (V (Proc.devRef .tc main_v6)) (V (Proc.devRef .tc main_v50))
          (Cert.Gcn.hidW0 (V (Proc.devRef .tc main_arg6))) (Cert.Gcn.row128 (Cert.Gcn.hidB0 (V (Proc.devRef .tc main_arg7)))) := by
  after_results_simp <;> rfl

end Cert.ReferenceIdeal.RefValue

end
-- ==== Proof.RefStretchL2.lean ====
/-
  The second hidden layer's stretch of the reference's operations read over an arbitrary valuation V of the buffers:
  the buffer it ends in holds the specification's hidden layer of the normalised weights, sources, targets and previous
  layer's output in V, with the layer's weight matrix and bias cut out of the stacked arguments in V, and a buffer the
  stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wL2 : List (Ref sig .tc) :=
  [main_v73, main_v74, main_v75, main_v76, main_v77, main_v78, main_c_12, main_v79, main_v80, main_c_13, main_v81, main_v82, main_v83, main_v84, main_v85, main_v86, main_v87, main_cst_14, main_v88, main_v89, main_v90, main_v91, main_v92, main_v93, main_call3_cst, main_call3_v0, main_v94]

/-- Every operation of the stretch writes one of them. -/
theorem opsL2_writes : (opsL2 : List (HloOp τ sig (Elt F))).Forall fun op => op.writes ⊆ (wL2.map (Proc.devRef (τ := τ) .tc)).toFinset :=
  ⟨writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_v78 rfl (by decide),
   writes_sub_of_mem main_c_12 rfl (by decide),
   writes_sub_of_mem main_v79 rfl (by decide),
   writes_sub_of_mem main_v80 rfl (by decide),
   writes_sub_of_mem main_c_13 rfl (by decide),
   writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_v87 rfl (by decide),
   writes_sub_of_mem main_cst_14 rfl (by decide),
   writes_sub_of_mem main_v88 rfl (by decide),
   writes_sub_of_mem main_v89 rfl (by decide),
   writes_sub_of_mem main_v90 rfl (by decide),
   writes_sub_of_mem main_v91 rfl (by decide),
   writes_sub_of_mem main_v92 rfl (by decide),
   writes_sub_of_mem main_v93 rfl (by decide),
   writes_sub_of_mem main_call3_cst rfl (by decide),
   writes_sub_of_mem main_call3_v0 rfl (by decide),
   writes_sub_of_mem main_v94 rfl (by decide)⟩

/-- A buffer the stretch does not write keeps its contents. -/
theorem opsL2_frame (V : Valuation τ sig (Elt F)) {r : Ref sig .tc} (hr : r ∉ wL2) :
    after opsL2 V (Proc.devRef .tc r) = V (Proc.devRef .tc r) :=
  after_of_writes_sub opsL2 V opsL2_writes hr

/-- The second hidden layer. -/
theorem opsL2_v94 (V : Valuation τ sig (Elt F)) :
    after opsL2 V (Proc.devRef .tc main_v94)
      = Cert.Gcn.layerHid (V (Proc.devRef .tc main_v32)) (V (Proc.devRef .tc main_v5)) (V (Proc.devRef .tc main_v6)) (V (Proc.devRef .tc main_v72))
          (Cert.Gcn.hidW1 (V (Proc.devRef .tc main_arg6))) (Cert.Gcn.row128 (Cert.Gcn.hidB1 (V (Proc.devRef .tc main_arg7)))) := by
  after_results_simp <;> rfl

end Cert.ReferenceIdeal.RefValue

end
-- ==== Proof.RefStretchL3.lean ====
/-
  The third hidden layer's stretch of the reference's operations read over an arbitrary valuation V of the buffers:
  the buffer it ends in holds the specification's hidden layer of the normalised weights, sources, targets and previous
  layer's output in V, with the layer's weight matrix and bias cut out of the stacked arguments in V, and a buffer the
  stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wL3 : List (Ref sig .tc) :=
  [main_v95, main_v96, main_v97, main_v98, main_v99, main_v100, main_c_15, main_v101, main_v102, main_c_16, main_v103, main_v104, main_v105, main_v106, main_v107, main_v108, main_v109, main_cst_17, main_v110, main_v111, main_v112, main_v113, main_v114, main_v115, main_call4_cst, main_call4_v0, main_v116]

/-- Every operation of the stretch writes one of them. -/
theorem opsL3_writes : (opsL3 : List (HloOp τ sig (Elt F))).Forall fun op => op.writes ⊆ (wL3.map (Proc.devRef (τ := τ) .tc)).toFinset :=
  ⟨writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_c_15 rfl (by decide),
   writes_sub_of_mem main_v101 rfl (by decide),
   writes_sub_of_mem main_v102 rfl (by decide),
   writes_sub_of_mem main_c_16 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide),
   writes_sub_of_mem main_v109 rfl (by decide),
   writes_sub_of_mem main_cst_17 rfl (by decide),
   writes_sub_of_mem main_v110 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_call4_cst rfl (by decide),
   writes_sub_of_mem main_call4_v0 rfl (by decide),
   writes_sub_of_mem main_v116 rfl (by decide)⟩

/-- A buffer the stretch does not write keeps its contents. -/
theorem opsL3_frame (V : Valuation τ sig (Elt F)) {r : Ref sig .tc} (hr : r ∉ wL3) :
    after opsL3 V (Proc.devRef .tc r) = V (Proc.devRef .tc r) :=
  after_of_writes_sub opsL3 V opsL3_writes hr

/-- The third hidden layer. -/
theorem opsL3_v116 (V : Valuation τ sig (Elt F)) :
    after opsL3 V (Proc.devRef .tc main_v116)
      = Cert.Gcn.layerHid (V (Proc.devRef .tc main_v32)) (V (Proc.devRef .tc main_v5)) (V (Proc.devRef .tc main_v6)) (V (Proc.devRef .tc main_v94))
          (Cert.Gcn.hidW2 (V (Proc.devRef .tc main_arg6))) (Cert.Gcn.row128 (Cert.Gcn.hidB2 (V (Proc.devRef .tc main_arg7)))) := by
  after_results_simp <;> rfl

end Cert.ReferenceIdeal.RefValue

end
-- ==== Proof.RefStretchL4.lean ====
/-
  The fourth hidden layer's stretch of the reference's operations read over an arbitrary valuation V of the buffers:
  the buffer it ends in holds the specification's hidden layer of the normalised weights, sources, targets and previous
  layer's output in V, with the layer's weight matrix and bias cut out of the stacked arguments in V, and a buffer the
  stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wL4 : List (Ref sig .tc) :=
  [main_v117, main_v118, main_v119, main_v120, main_v121, main_v122, main_c_18, main_v123, main_v124, main_c_19, main_v125, main_v126, main_v127, main_v128, main_v129, main_v130, main_v131, main_cst_20, main_v132, main_v133, main_v134, main_v135, main_v136, main_v137, main_call5_cst, main_call5_v0, main_v138]

/-- Every operation of the stretch writes one of them. -/
theorem opsL4_writes : (opsL4 : List (HloOp τ sig (Elt F))).Forall fun op => op.writes ⊆ (wL4.map (Proc.devRef (τ := τ) .tc)).toFinset :=
  ⟨writes_sub_of_mem main_v117 rfl (by decide),
   writes_sub_of_mem main_v118 rfl (by decide),
   writes_sub_of_mem main_v119 rfl (by decide),
   writes_sub_of_mem main_v120 rfl (by decide),
   writes_sub_of_mem main_v121 rfl (by decide),
   writes_sub_of_mem main_v122 rfl (by decide),
   writes_sub_of_mem main_c_18 rfl (by decide),
   writes_sub_of_mem main_v123 rfl (by decide),
   writes_sub_of_mem main_v124 rfl (by decide),
   writes_sub_of_mem main_c_19 rfl (by decide),
   writes_sub_of_mem main_v125 rfl (by decide),
   writes_sub_of_mem main_v126 rfl (by decide),
   writes_sub_of_mem main_v127 rfl (by decide),
   writes_sub_of_mem main_v128 rfl (by decide),
   writes_sub_of_mem main_v129 rfl (by decide),
   writes_sub_of_mem main_v130 rfl (by decide),
   writes_sub_of_mem main_v131 rfl (by decide),
   writes_sub_of_mem main_cst_20 rfl (by decide),
   writes_sub_of_mem main_v132 rfl (by decide),
   writes_sub_of_mem main_v133 rfl (by decide),
   writes_sub_of_mem main_v134 rfl (by decide),
   writes_sub_of_mem main_v135 rfl (by decide),
   writes_sub_of_mem main_v136 rfl (by decide),
   writes_sub_of_mem main_v137 rfl (by decide),
   writes_sub_of_mem main_call5_cst rfl (by decide),
   writes_sub_of_mem main_call5_v0 rfl (by decide),
   writes_sub_of_mem main_v138 rfl (by decide)⟩

/-- A buffer the stretch does not write keeps its contents. -/
theorem opsL4_frame (V : Valuation τ sig (Elt F)) {r : Ref sig .tc} (hr : r ∉ wL4) :
    after opsL4 V (Proc.devRef .tc r) = V (Proc.devRef .tc r) :=
  after_of_writes_sub opsL4 V opsL4_writes hr

/-- The fourth hidden layer. -/
theorem opsL4_v138 (V : Valuation τ sig (Elt F)) :
    after opsL4 V (Proc.devRef .tc main_v138)
      = Cert.Gcn.layerHid (V (Proc.devRef .tc main_v32)) (V (Proc.devRef .tc main_v5)) (V (Proc.devRef .tc main_v6)) (V (Proc.devRef .tc main_v116))
          (Cert.Gcn.hidW3 (V (Proc.devRef .tc main_arg6))) (Cert.Gcn.row128 (Cert.Gcn.hidB3 (V (Proc.devRef .tc main_arg7)))) := by
  after_results_simp <;> rfl

end Cert.ReferenceIdeal.RefValue

end
-- ==== Proof.RefStretchL5.lean ====
/-
  The output layer's stretch of the reference's operations read over an arbitrary valuation V of the buffers: the
  buffer it ends in holds the specification's output layer (no max) of the normalised weights, sources, targets, last
  hidden layer's output, weight matrix and bias in V, and a buffer the stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wL5 : List (Ref sig .tc) :=
  [main_v139, main_v140, main_c_21, main_v141, main_v142, main_c_22, main_v143, main_v144, main_v145, main_v146, main_v147, main_v148, main_v149, main_cst_23, main_v150, main_v151, main_v152, main_v153, main_v154, main_v155]

/-- Every operation of the stretch writes one of them. -/
theorem opsL5_writes : (opsL5 : List (HloOp τ sig (Elt F))).Forall fun op => op.writes ⊆ (wL5.map (Proc.devRef (τ := τ) .tc)).toFinset :=
  ⟨writes_sub_of_mem main_v139 rfl (by decide),
   writes_sub_of_mem main_v140 rfl (by decide),
   writes_sub_of_mem main_c_21 rfl (by decide),
   writes_sub_of_mem main_v141 rfl (by decide),
   writes_sub_of_mem main_v142 rfl (by decide),
   writes_sub_of_mem main_c_22 rfl (by decide),
   writes_sub_of_mem main_v143 rfl (by decide),
   writes_sub_of_mem main_v144 rfl (by decide),
   writes_sub_of_mem main_v145 rfl (by decide),
   writes_sub_of_mem main_v146 rfl (by decide),
   writes_sub_of_mem main_v147 rfl (by decide),
   writes_sub_of_mem main_v148 rfl (by decide),
   writes_sub_of_mem main_v149 rfl (by decide),
   writes_sub_of_mem main_cst_23 rfl (by decide),
   writes_sub_of_mem main_v150 rfl (by decide),
   writes_sub_of_mem main_v151 rfl (by decide),
   writes_sub_of_mem main_v152 rfl (by decide),
   writes_sub_of_mem main_v153 rfl (by decide),
   writes_sub_of_mem main_v154 rfl (by decide),
   writes_sub_of_mem main_v155 rfl (by decide)⟩

/-- A buffer the stretch does not write keeps its contents. -/
theorem opsL5_frame (V : Valuation τ sig (Elt F)) {r : Ref sig .tc} (hr : r ∉ wL5) :
    after opsL5 V (Proc.devRef .tc r) = V (Proc.devRef .tc r) :=
  after_of_writes_sub opsL5 V opsL5_writes hr

/-- The output layer: aggregate the transformed features along the edges and add the bias row. -/
theorem opsL5_v155 (V : Valuation τ sig (Elt F)) :
    after opsL5 V (Proc.devRef .tc main_v155)
      = Cert.Gcn.layerOut (V (Proc.devRef .tc main_v32)) (V (Proc.devRef .tc main_v5)) (V (Proc.devRef .tc main_v6)) (V (Proc.devRef .tc main_v138))
          (V (Proc.devRef .tc main_arg8)) (Cert.Gcn.row64 (V (Proc.devRef .tc main_arg9))) := by
  after_results_simp <;> rfl

end Cert.ReferenceIdeal.RefValue

end
-- ==== Proof.RefStretchD.lean ====
/-
  The decoder's stretch of the reference's operations read over an arbitrary valuation V of the buffers: the buffer
  it ends in holds the specification's scores of the labelled pairs, from the node encodings and the pair list in V,
  and a buffer the stretch does not write keeps its contents.
-/
import proofs.«125150_j11227044512214_1_alg».proof.Proof.RefOps
import proofs.«125150_j11227044512214_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, in order. -/
abbrev wD : List (Ref sig .tc) :=
  [main_v156, main_v157, main_c_24, main_v158, main_v159, main_c_25, main_v160, main_v161, main_v162, main_v163, main_v164, main_v165, main_v166, main_c_26, main_v167, main_v168, main_c_27, main_v169, main_v170, main_v171, main_v172, main_v173, main_v174, main_cst_28, main_v175, main_v176, main_v177, main_cst_29, main_v178, main_v179, main_cst_30, main_v180, main_v181]

/-- Every operation of the stretch writes one of them. -/
theorem opsD_writes : (opsD : List (HloOp τ sig (Elt F))).Forall fun op => op.writes ⊆ (wD.map (Proc.devRef (τ := τ) .tc)).toFinset :=
  ⟨writes_sub_of_mem main_v156 rfl (by decide),
   writes_sub_of_mem main_v157 rfl (by decide),
   writes_sub_of_mem main_c_24 rfl (by decide),
   writes_sub_of_mem main_v158 rfl (by decide),
   writes_sub_of_mem main_v159 rfl (by decide),
   writes_sub_of_mem main_c_25 rfl (by decide),
   writes_sub_of_mem main_v160 rfl (by decide),
   writes_sub_of_mem main_v161 rfl (by decide),
   writes_sub_of_mem main_v162 rfl (by decide),
   writes_sub_of_mem main_v163 rfl (by decide),
   writes_sub_of_mem main_v164 rfl (by decide),
   writes_sub_of_mem main_v165 rfl (by decide),
   writes_sub_of_mem main_v166 rfl (by decide),
   writes_sub_of_mem main_c_26 rfl (by decide),
   writes_sub_of_mem main_v167 rfl (by decide),
   writes_sub_of_mem main_v168 rfl (by decide),
   writes_sub_of_mem main_c_27 rfl (by decide),
   writes_sub_of_mem main_v169 rfl (by decide),
   writes_sub_of_mem main_v170 rfl (by decide),
   writes_sub_of_mem main_v171 rfl (by decide),
   writes_sub_of_mem main_v172 rfl (by decide),
   writes_sub_of_mem main_v173 rfl (by decide),
   writes_sub_of_mem main_v174 rfl (by decide),
   writes_sub_of_mem main_cst_28 rfl (by decide),
   writes_sub_of_mem main_v175 rfl (by decide),
   writes_sub_of_mem main_v176 rfl (by decide),
   writes_sub_of_mem main_v177 rfl (by decide),
   writes_sub_of_mem main_cst_29 rfl (by decide),
   writes_sub_of_mem main_v178 rfl (by decide),
   writes_sub_of_mem main_v179 rfl (by decide),
   writes_sub_of_mem main_cst_30 rfl (by decide),
   writes_sub_of_mem main_v180 rfl (by decide),
   writes_sub_of_mem main_v181 rfl (by decide)⟩

/-- A buffer the stretch does not write keeps its contents. -/
theorem opsD_frame (V : Valuation τ sig (Elt F)) {r : Ref sig .tc} (hr : r ∉ wD) :
    after opsD V (Proc.devRef .tc r) = V (Proc.devRef .tc r) :=
  after_of_writes_sub opsD V opsD_writes hr

/-- The decoder: each labelled pair's two encodings picked, 1 / (1 + exp(-(their dot product))). -/
theorem opsD_v181 (V : Valuation τ sig (Elt F)) :
    after opsD V (Proc.devRef .tc main_v181)
      = Cert.Gcn.score (Cert.Gcn.pick (V (Proc.devRef .tc main_v155)) (Cert.Gcn.labelIdx0 (V (Proc.devRef .tc main_arg3))))
          (Cert.Gcn.pick (V (Proc.devRef .tc main_v155)) (Cert.Gcn.labelIdx1 (V (Proc.devRef .tc main_arg3)))) := by
  after_results_simp <;> rfl

end Cert.ReferenceIdeal.RefValue

end
-- ==== Proof.RefRun.lean ====
/-
  The reference's run: every weakly fair execution of the reference terminates, nothing faulting, with its result
  at the specification's `result` of the argument arrays and the arguments as launched. The reference's 225 host
  operations are read in stretches — the edges and their norms, one stretch per layer, the decoder — each over an
  arbitrary valuation of the buffers, and the stretches are joined along the program: the edges' three arrays and
  the ten arguments are written by no later stretch, so every layer reads the same edges and its own arguments,
  and each layer's output is the next one's input.
-/
import proofs.«125150_j11227044512214_1_alg».proof.Proof.Gen.ReferenceIdeal
import proofs.«125150_j11227044512214_1_alg».proof.Proof.Spec
import Idealize.ShloMosaic.Lib.StableHlo.Run
import proofs.«125150_j11227044512214_1_alg».proof.Proof.RefOps
import proofs.«125150_j11227044512214_1_alg».proof.Proof.RefStretchA
import proofs.«125150_j11227044512214_1_alg».proof.Proof.RefStretchL0
import proofs.«125150_j11227044512214_1_alg».proof.Proof.RefStretchL1
import proofs.«125150_j11227044512214_1_alg».proof.Proof.RefStretchL2
import proofs.«125150_j11227044512214_1_alg».proof.Proof.RefStretchL3
import proofs.«125150_j11227044512214_1_alg».proof.Proof.RefStretchL4
import proofs.«125150_j11227044512214_1_alg».proof.Proof.RefStretchL5
import proofs.«125150_j11227044512214_1_alg».proof.Proof.RefStretchD

noncomputable section

namespace Cert.ReferenceIdeal.RefValue

open Cert.ReferenceIdeal Cert.ReferenceIdeal.Gen Idealize.ShloMosaic Idealize.ShloMosaic.TcCoe Idealize.SL.Sem Idealize.ShloMosaic.StableHlo

section Join

variable {F : FTy → Type} [FloatOps F]

/-- The ten arguments' buffers. -/
abbrev argRefs : List (Ref sig .tc) :=
  [main_arg0, main_arg1, main_arg2, main_arg3, main_arg4, main_arg5, main_arg6, main_arg7, main_arg8, main_arg9]

/-- No stretch writes an argument. -/
theorem args_not_wA : ∀ r ∈ argRefs, r ∉ wA := by decide
theorem args_not_wL0 : ∀ r ∈ argRefs, r ∉ wL0 := by decide
theorem args_not_wL1 : ∀ r ∈ argRefs, r ∉ wL1 := by decide
theorem args_not_wL2 : ∀ r ∈ argRefs, r ∉ wL2 := by decide
theorem args_not_wL3 : ∀ r ∈ argRefs, r ∉ wL3 := by decide
theorem args_not_wL4 : ∀ r ∈ argRefs, r ∉ wL4 := by decide
theorem args_not_wL5 : ∀ r ∈ argRefs, r ∉ wL5 := by decide
theorem args_not_wD : ∀ r ∈ argRefs, r ∉ wD := by decide

/-- What every stretch after the first finds, and leaves: in `W` the edges' sources, targets and normalised weights
    are the specification's of the arguments in `V`, and the arguments are `V`'s. -/
structure EdgesKept (V W : Valuation τ sig (Elt F)) : Prop where
  src : W (Proc.devRef .tc main_v5) = Cert.Gcn.sources (V (Proc.devRef .tc main_arg1))
  tgt : W (Proc.devRef .tc main_v6) = Cert.Gcn.targets (V (Proc.devRef .tc main_arg1))
  nrm : W (Proc.devRef .tc main_v32)
      = Cert.Gcn.edgeNorm (Cert.Gcn.sources (V (Proc.devRef .tc main_arg1))) (Cert.Gcn.targets (V (Proc.devRef .tc main_arg1)))
          (Cert.Gcn.weights (V (Proc.devRef .tc main_arg2)))
  arg : ∀ r ∈ argRefs, W (Proc.devRef .tc r) = V (Proc.devRef .tc r)

/-- The first stretch establishes it. -/
theorem edgesKept_A (V : Valuation τ sig (Elt F)) : EdgesKept V (after opsA V) :=
  ⟨opsA_v5 V, opsA_v6 V, opsA_v32 V, fun r hr => opsA_frame V (args_not_wA r hr)⟩

/-- A line that writes none of the thirteen buffers keeps it. -/
theorem EdgesKept.step {V W : Valuation τ sig (Elt F)} (h : EdgesKept V W) (S : List (HloOp τ sig (Elt F)))
    (h5 : after S W (Proc.devRef .tc main_v5) = W (Proc.devRef .tc main_v5)) (h6 : after S W (Proc.devRef .tc main_v6) = W (Proc.devRef .tc main_v6))
    (h32 : after S W (Proc.devRef .tc main_v32) = W (Proc.devRef .tc main_v32))
    (harg : ∀ r ∈ argRefs, after S W (Proc.devRef .tc r) = W (Proc.devRef .tc r)) : EdgesKept V (after S W) :=
  ⟨h5.trans h.src, h6.trans h.tgt, h32.trans h.nrm, fun r hr => (harg r hr).trans (h.arg r hr)⟩

theorem EdgesKept.L0 {V W : Valuation τ sig (Elt F)} (h : EdgesKept V W) : EdgesKept V (after opsL0 W) :=
  h.step opsL0 (opsL0_frame W (by decide)) (opsL0_frame W (by decide)) (opsL0_frame W (by decide))
    fun r hr => opsL0_frame W (args_not_wL0 r hr)
theorem EdgesKept.L1 {V W : Valuation τ sig (Elt F)} (h : EdgesKept V W) : EdgesKept V (after opsL1 W) :=
  h.step opsL1 (opsL1_frame W (by decide)) (opsL1_frame W (by decide)) (opsL1_frame W (by decide))
    fun r hr => opsL1_frame W (args_not_wL1 r hr)
theorem EdgesKept.L2 {V W : Valuation τ sig (Elt F)} (h : EdgesKept V W) : EdgesKept V (after opsL2 W) :=
  h.step opsL2 (opsL2_frame W (by decide)) (opsL2_frame W (by decide)) (opsL2_frame W (by decide))
    fun r hr => opsL2_frame W (args_not_wL2 r hr)
theorem EdgesKept.L3 {V W : Valuation τ sig (Elt F)} (h : EdgesKept V W) : EdgesKept V (after opsL3 W) :=
  h.step opsL3 (opsL3_frame W (by decide)) (opsL3_frame W (by decide)) (opsL3_frame W (by decide))
    fun r hr => opsL3_frame W (args_not_wL3 r hr)
theorem EdgesKept.L4 {V W : Valuation τ sig (Elt F)} (h : EdgesKept V W) : EdgesKept V (after opsL4 W) :=
  h.step opsL4 (opsL4_frame W (by decide)) (opsL4_frame W (by decide)) (opsL4_frame W (by decide))
    fun r hr => opsL4_frame W (args_not_wL4 r hr)
theorem EdgesKept.L5 {V W : Valuation τ sig (Elt F)} (h : EdgesKept V W) : EdgesKept V (after opsL5 W) :=
  h.step opsL5 (opsL5_frame W (by decide)) (opsL5_frame W (by decide)) (opsL5_frame W (by decide))
    fun r hr => opsL5_frame W (args_not_wL5 r hr)
theorem EdgesKept.D {V W : Valuation τ sig (Elt F)} (h : EdgesKept V W) : EdgesKept V (after opsD W) :=
  h.step opsD (opsD_frame W (by decide)) (opsD_frame W (by decide)) (opsD_frame W (by decide))
    fun r hr => opsD_frame W (args_not_wD r hr)

/-- The whole line over an arbitrary valuation: the result buffer ends at the specification's `result` of the
    arguments, and the arguments are left alone. -/
theorem ops_after (V : Valuation τ sig (Elt F)) :
    after ops V (Proc.devRef .tc main_v181)
        = Cert.Gcn.result (V (Proc.devRef .tc main_arg0)) (V (Proc.devRef .tc main_arg1)) (V (Proc.devRef .tc main_arg2)) (V (Proc.devRef .tc main_arg3))
            (V (Proc.devRef .tc main_arg4)) (V (Proc.devRef .tc main_arg5)) (V (Proc.devRef .tc main_arg6)) (V (Proc.devRef .tc main_arg7))
            (V (Proc.devRef .tc main_arg8)) (V (Proc.devRef .tc main_arg9))
      ∧ ∀ r ∈ argRefs, after ops V (Proc.devRef .tc r) = V (Proc.devRef .tc r) := by
  -- the line is its stretches in a row
  have hsplit : after (ops (F := F)) V
      = after opsD (after opsL5 (after opsL4 (after opsL3 (after opsL2 (after opsL1 (after opsL0 (after opsA V))))))) := by
    simp only [ops, after_append']
  rw [hsplit]
  -- the edges and the arguments along the line
  have k1 := edgesKept_A V
  have k2 := k1.L0
  have k3 := k2.L1
  have k4 := k3.L2
  have k5 := k4.L3
  have k6 := k5.L4
  have k7 := k6.L5
  have k8 := k7.D
  refine ⟨?_, k8.arg⟩
  -- each layer's output from the one before
  have x1 := opsL0_v50 (after opsA V)
  rw [k1.nrm, k1.src, k1.tgt, k1.arg main_arg0 (by decide), k1.arg main_arg4 (by decide), k1.arg main_arg5 (by decide)] at x1
  have x2 := opsL1_v72 (after opsL0 (after opsA V))
  rw [k2.nrm, k2.src, k2.tgt, k2.arg main_arg6 (by decide), k2.arg main_arg7 (by decide), x1] at x2
  have x3 := opsL2_v94 (after opsL1 (after opsL0 (after opsA V)))
  rw [k3.nrm, k3.src, k3.tgt, k3.arg main_arg6 (by decide), k3.arg main_arg7 (by decide), x2] at x3
  have x4 := opsL3_v116 (after opsL2 (after opsL1 (after opsL0 (after opsA V))))
  rw [k4.nrm, k4.src, k4.tgt, k4.arg main_arg6 (by decide), k4.arg main_arg7 (by decide), x3] at x4
  have x5 := opsL4_v138 (after opsL3 (after opsL2 (after opsL1 (after opsL0 (after opsA V)))))
  rw [k5.nrm, k5.src, k5.tgt, k5.arg main_arg6 (by decide), k5.arg main_arg7 (by decide), x4] at x5
  have x6 := opsL5_v155 (after opsL4 (after opsL3 (after opsL2 (after opsL1 (after opsL0 (after opsA V))))))
  rw [k6.nrm, k6.src, k6.tgt, k6.arg main_arg8 (by decide), k6.arg main_arg9 (by decide), x5] at x6
  rw [opsD_v181, x6, k7.arg main_arg3 (by decide)]
  rfl

end Join

/-- The reference ends with its result at `result` of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v181) = Cert.Gcn.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have hv := ops_after (F := Ideal) (launchContents m c)
      ⟨(h c main_v181).trans hv.1,
       (h c main_arg0).trans (hv.2 main_arg0 (by decide)),
       (h c main_arg1).trans (hv.2 main_arg1 (by decide)),
       (h c main_arg2).trans (hv.2 main_arg2 (by decide)),
       (h c main_arg3).trans (hv.2 main_arg3 (by decide)),
       (h c main_arg4).trans (hv.2 main_arg4 (by decide)),
       (h c main_arg5).trans (hv.2 main_arg5 (by decide)),
       (h c main_arg6).trans (hv.2 main_arg6 (by decide)),
       (h c main_arg7).trans (hv.2 main_arg7 (by decide)),
       (h c main_arg8).trans (hv.2 main_arg8 (by decide)),
       (h c main_arg9).trans (hv.2 main_arg9 (by decide))⟩)
    (run_seq scopedRefs_eq scopedSems_eq defs main (fun _ => ops) main_eq (fun _ => ops_sub) m ρ (fun _ => ops_fresh))

end Cert.ReferenceIdeal.RefValue

end
-- ==== Proof.lean ====
/-
  A six-layer graph convolution over 100000 nodes and 1700000 edges (the 1600000 given ones and a self loop per node)
  followed by a dot-product link decoder over 400000 labelled pairs: the kernel program against its reference.

  Both programs compute the edges' normalised weights, and each layer's gather-scale-scatter along the edges, by the
  same host operations. They differ in the dense parts, which the kernel program runs as 13 tiled regions: the
  feature transform h W tile by tile of 5000 rows (rounded to bf16 on the way in, which is the identity at the
  extended reals) against one whole matrix product; the bias row added tile by tile (and max(., 0)) against one
  whole-array sum; and the decoder's 64-term sums and 1 / (1 + exp(-s)) tile by tile of 8000 pairs against one
  whole-array reduction followed by negate, exponential, add and divide. At the extended reals a row tile of a
  matrix product is the same finite sum as the whole product's row, a tile of a pointwise operation is the operation's
  tile, and the kernel's logistic is by definition the host's quotient; so both programs end with the
  specification's `result` of the argument arrays (Proof/Spec.lean), no law that needs finiteness being used.

  The frames of the two kernel programs are the generated ones; the reference's frame is its run with the result
  dropped; the idealization rewrote nothing, so `preserves` is trivial.
-/
import proofs.«125150_j11227044512214_1_alg».proof.Defs
import proofs.«125150_j11227044512214_1_alg».proof.Proof.Gen.Kernel
import proofs.«125150_j11227044512214_1_alg».proof.Proof.Gen.Kernel.Frame
import proofs.«125150_j11227044512214_1_alg».proof.Proof.Gen.KernelIdeal
import proofs.«125150_j11227044512214_1_alg».proof.Proof.Gen.KernelIdeal.Frame
import proofs.«125150_j11227044512214_1_alg».proof.Proof.Gen.ReferenceIdeal
import proofs.«125150_j11227044512214_1_alg».proof.Proof.Gen.Pre_finite_inputs
import proofs.«125150_j11227044512214_1_alg».proof.Proof.KAssembly
import proofs.«125150_j11227044512214_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the specification's `result` of the argument arrays, which agree. -/
theorem algebraic : Cert.algebraic_KernelIdeal_ReferenceIdeal := by
  intro m ρ m' ρ' _ hagree
  refine ⟨fun c => Cert.Gcn.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Assembly.result_at28 m ρ c), (h c).2⟩)
      (Cert.KernelIdeal.RunValue.run_named m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
